-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S64 .f32) (main_arg9 : FVec F S128 .f32) (main_arg10 : FVec F S128 .f32) (main_arg11 : FVec F S128 .f32) (main_arg12 : FVec F S128 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_v48 main_v49 main_v50

def fn_part1 {F : FTy → Type} [FloatOps F] (main_arg5 : FVec F S128x128 .f32) (main_arg6 : FVec F S128 .f32) (main_arg7 : FVec F S128x64 .f32) (main_arg8 : FVec F S64 .f32) (main_arg9 : FVec F S128 .f32) (main_arg10 : FVec F S128 .f32) (main_arg11 : FVec F S128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S128 .f32) (main_arg10 : FVec F S128 .f32) (main_arg11 : FVec F S128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 181
  | .vmem => 31
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S128, .f32⟩
  | 10 => ⟨S128, .f32⟩
  | 11 => ⟨S128, .f32⟩
  | 12 => ⟨S128, .f32⟩
  | 13 => ⟨S1x800000, .i32⟩
  | 14 => ⟨S800000, .i32⟩
  | 15 => ⟨S1x800000, .i32⟩
  | 16 => ⟨S800000, .i32⟩
  | 17 => ⟨S50000, .i32⟩
  | 18 => ⟨S850000, .i32⟩
  | 19 => ⟨S850000, .i32⟩
  | 20 => ⟨S_, .f32⟩
  | 21 => ⟨S50000, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S50000x128, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x128, .f32⟩
  | 65 => ⟨S850000x1, .f32⟩
  | 66 => ⟨S850000x128, .f32⟩
  | 67 => ⟨S850000x128, .f32⟩
  | 68 => ⟨S_, .f32⟩
  | 69 => ⟨S50000x128, .f32⟩
  | 70 => ⟨S850000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S128, .f32⟩
  | 77 => ⟨S_, .f32⟩
  | 78 => ⟨S128, .f32⟩
  | 79 => ⟨S128, .f32⟩
  | 80 => ⟨S_, .i32⟩
  | 81 => ⟨S_, .f32⟩
  | 82 => ⟨S128, .f32⟩
  | 83 => ⟨S1x128, .f32⟩
  | 84 => ⟨S_, .f32⟩
  | 85 => ⟨S1x128, .f32⟩
  | 86 => ⟨S1x128, .f32⟩
  | 87 => ⟨S50000x128, .f32⟩
  | 88 => ⟨S50000x128, .f32⟩
  | 89 => ⟨S50000x128, .f32⟩
  | 90 => ⟨S_, .f32⟩
  | 91 => ⟨S_, .f32⟩
  | 92 => ⟨S_, .f32⟩
  | 93 => ⟨S_, .f32⟩
  | 94 => ⟨S128, .f32⟩
  | 95 => ⟨S128, .f32⟩
  | 96 => ⟨S128, .f32⟩
  | 97 => ⟨S_, .f32⟩
  | 98 => ⟨S_, .i1⟩
  | 99 => ⟨S_, .f32⟩
  | 100 => ⟨S_, .f32⟩
  | 101 => ⟨S128, .f32⟩
  | 102 => ⟨S128, .f32⟩
  | 103 => ⟨S1x128, .f32⟩
  | 104 => ⟨S1x128, .f32⟩
  | 105 => ⟨S1x128, .f32⟩
  | 106 => ⟨S1x128, .f32⟩
  | 107 => ⟨S50000x128, .f32⟩
  | 108 => ⟨S50000x128, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x128, .f32⟩
  | 118 => ⟨S850000x1, .f32⟩
  | 119 => ⟨S850000x128, .f32⟩
  | 120 => ⟨S850000x128, .f32⟩
  | 121 => ⟨S_, .f32⟩
  | 122 => ⟨S50000x128, .f32⟩
  | 123 => ⟨S850000x1, .i32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S_, .i32⟩
  | 6 => ⟨S_, .f32⟩
  | 7 => ⟨S128, .f32⟩
  | 8 => ⟨S1x128, .f32⟩
  | 9 => ⟨S_, .f32⟩
  | 10 => ⟨S1x128, .f32⟩
  | 11 => ⟨S1x128, .f32⟩
  | 12 => ⟨S50000x128, .f32⟩
  | 13 => ⟨S50000x128, .f32⟩
  | 14 => ⟨S50000x128, .f32⟩
  | 15 => ⟨S_, .f32⟩
  | 16 => ⟨S_, .f32⟩
  | 17 => ⟨S_, .f32⟩
  | 18 => ⟨S_, .f32⟩
  | 19 => ⟨S128, .f32⟩
  | 20 => ⟨S128, .f32⟩
  | 21 => ⟨S128, .f32⟩
  | 22 => ⟨S_, .f32⟩
  | 23 => ⟨S_, .i1⟩
  | 24 => ⟨S_, .f32⟩
  | 25 => ⟨S_, .f32⟩
  | 26 => ⟨S128, .f32⟩
  | 27 => ⟨S128, .f32⟩
  | 28 => ⟨S1x128, .f32⟩
  | 29 => ⟨S1x128, .f32⟩
  | 30 => ⟨S1x128, .f32⟩
  | 31 => ⟨S1x128, .f32⟩
  | 32 => ⟨S50000x128, .f32⟩
  | 33 => ⟨S50000x64, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000x64, .f32⟩
  | 43 => ⟨S850000x1, .f32⟩
  | 44 => ⟨S850000x64, .f32⟩
  | 45 => ⟨S850000x64, .f32⟩
  | 46 => ⟨S_, .f32⟩
  | 47 => ⟨S50000x64, .f32⟩
  | 48 => ⟨S850000x1, .i32⟩
  | 49 => ⟨S50000x64, .f32⟩
  | 50 => ⟨S1x64, .f32⟩
  | 51 => ⟨S50000x64, .f32⟩
  | 52 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x64, .f32⟩
  | .local _ .vmem, ⟨29, _⟩ => ⟨S5000x64, .f32⟩
  | .local _ .vmem, ⟨30, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_c_11 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_cst_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_v7 : Ref sig .tc := ⟨.hbm, 90, rfl⟩
abbrev main_call1_cst_1 : Ref sig .tc := ⟨.hbm, 91, rfl⟩
abbrev main_call1_v8 : Ref sig .tc := ⟨.hbm, 92, rfl⟩
abbrev main_call1_cst_2 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_call1_cst_3 : Ref sig .tc := ⟨.hbm, 97, rfl⟩
abbrev main_call1_v12 : Ref sig .tc := ⟨.hbm, 98, rfl⟩
abbrev main_call1_cst_4 : Ref sig .tc := ⟨.hbm, 99, rfl⟩
abbrev main_call1_call0_v0 : Ref sig .tc := ⟨.hbm, 100, rfl⟩
abbrev main_call1_call0_v1 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_c_12 : Ref sig .tc := ⟨.hbm, 109, rfl⟩
abbrev main_v59 : Ref sig .tc := ⟨.hbm, 110, rfl⟩
abbrev main_v60 : Ref sig .tc := ⟨.hbm, 111, rfl⟩
abbrev main_c_13 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_cst_14 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_cst_15 : Ref sig .tc := ⟨.hbm, 128, rfl⟩
abbrev main_v75 : Ref sig .tc := ⟨.hbm, 129, rfl⟩
abbrev main_cst_16 : Ref sig .tc := ⟨.hbm, 130, rfl⟩
abbrev main_v76 : Ref sig .tc := ⟨.hbm, 131, rfl⟩
abbrev main_v77 : Ref sig .tc := ⟨.hbm, 132, rfl⟩
abbrev main_c_17 : Ref sig .tc := ⟨.hbm, 133, rfl⟩
abbrev main_call2_cst : Ref sig .tc := ⟨.hbm, 134, rfl⟩
abbrev main_call2_v0 : Ref sig .tc := ⟨.hbm, 135, rfl⟩
abbrev main_call2_v1 : Ref sig .tc := ⟨.hbm, 136, rfl⟩
abbrev main_call2_cst_0 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_call2_v5 : Ref sig .tc := ⟨.hbm, 141, rfl⟩
abbrev main_call2_v6 : Ref sig .tc := ⟨.hbm, 142, rfl⟩
abbrev main_call2_v7 : Ref sig .tc := ⟨.hbm, 143, rfl⟩
abbrev main_call2_cst_1 : Ref sig .tc := ⟨.hbm, 144, rfl⟩
abbrev main_call2_v8 : Ref sig .tc := ⟨.hbm, 145, rfl⟩
abbrev main_call2_cst_2 : Ref sig .tc := ⟨.hbm, 146, rfl⟩
abbrev main_call2_v9 : Ref sig .tc := ⟨.hbm, 147, rfl⟩
abbrev main_call2_v10 : Ref sig .tc := ⟨.hbm, 148, rfl⟩
abbrev main_call2_v11 : Ref sig .tc := ⟨.hbm, 149, rfl⟩
abbrev main_call2_cst_3 : Ref sig .tc := ⟨.hbm, 150, rfl⟩
abbrev main_call2_v12 : Ref sig .tc := ⟨.hbm, 151, rfl⟩
abbrev main_call2_cst_4 : Ref sig .tc := ⟨.hbm, 152, rfl⟩
abbrev main_call2_call0_v0 : Ref sig .tc := ⟨.hbm, 153, rfl⟩
abbrev main_call2_call0_v1 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_c_18 : Ref sig .tc := ⟨.hbm, 162, rfl⟩
abbrev main_v85 : Ref sig .tc := ⟨.hbm, 163, rfl⟩
abbrev main_v86 : Ref sig .tc := ⟨.hbm, 164, rfl⟩
abbrev main_c_19 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_cst_20 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v74) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v81) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v82) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v83) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v83) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v84) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 285
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S128, .f32⟩
  | 10 => ⟨S128, .f32⟩
  | 11 => ⟨S128, .f32⟩
  | 12 => ⟨S128, .f32⟩
  | 13 => ⟨S1x800000, .i32⟩
  | 14 => ⟨S800000, .i32⟩
  | 15 => ⟨S1x800000, .i32⟩
  | 16 => ⟨S800000, .i32⟩
  | 17 => ⟨S50000, .i32⟩
  | 18 => ⟨S850000, .i32⟩
  | 19 => ⟨S850000, .i32⟩
  | 20 => ⟨S_, .f32⟩
  | 21 => ⟨S50000, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S50000x128, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x128, .f32⟩
  | 65 => ⟨S850000x1, .f32⟩
  | 66 => ⟨S850000x128, .f32⟩
  | 67 => ⟨S850000x128, .f32⟩
  | 68 => ⟨S_, .f32⟩
  | 69 => ⟨S50000x128, .f32⟩
  | 70 => ⟨S850000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S128, .f32⟩
  | 77 => ⟨S_, .f32⟩
  | 78 => ⟨S128, .f32⟩
  | 79 => ⟨S128, .f32⟩
  | 80 => ⟨S_, .i32⟩
  | 81 => ⟨S_, .f32⟩
  | 82 => ⟨S128, .f32⟩
  | 83 => ⟨S1x128, .f32⟩
  | 84 => ⟨S_, .f32⟩
  | 85 => ⟨S1x128, .f32⟩
  | 86 => ⟨S1x128, .f32⟩
  | 87 => ⟨S50000x128, .f32⟩
  | 88 => ⟨S50000x128, .f32⟩
  | 89 => ⟨S50000x128, .f32⟩
  | 90 => ⟨S_, .f32⟩
  | 91 => ⟨S_, .f32⟩
  | 92 => ⟨S_, .f32⟩
  | 93 => ⟨S_, .f32⟩
  | 94 => ⟨S128, .f32⟩
  | 95 => ⟨S128, .f32⟩
  | 96 => ⟨S128, .f32⟩
  | 97 => ⟨S_, .f32⟩
  | 98 => ⟨S_, .i1⟩
  | 99 => ⟨S_, .f32⟩
  | 100 => ⟨S_, .f32⟩
  | 101 => ⟨S128, .f32⟩
  | 102 => ⟨S128, .f32⟩
  | 103 => ⟨S1x128, .f32⟩
  | 104 => ⟨S50000x128, .f32⟩
  | 105 => ⟨S50000x128, .f32⟩
  | 106 => ⟨S_, .f32⟩
  | 107 => ⟨S128, .f32⟩
  | 108 => ⟨S128, .f32⟩
  | 109 => ⟨S128, .f32⟩
  | 110 => ⟨S1x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S1x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S50000, .i32⟩
  | 123 => ⟨S850000, .i32⟩
  | 124 => ⟨S850000, .i32⟩
  | 125 => ⟨S_, .f32⟩
  | 126 => ⟨S50000, .f32⟩
  | 127 => ⟨S850000, .f32⟩
  | _ => ⟨S50000x128, .f32⟩

abbrev hbmTy0_1 (i : Nat) : BufTy := match i % 128 with
  | 0 => ⟨S_, .f32⟩
  | 1 => ⟨S50000, .f32⟩
  | 2 => ⟨S850000x1, .i32⟩
  | 3 => ⟨S50000, .f32⟩
  | 4 => ⟨S_, .f32⟩
  | 5 => ⟨S50000, .f32⟩
  | 6 => ⟨S50000, .i1⟩
  | 7 => ⟨S50000, .f32⟩
  | 8 => ⟨S_, .f32⟩
  | 9 => ⟨S_, .f32⟩
  | 10 => ⟨S50000, .f32⟩
  | 11 => ⟨S50000, .f32⟩
  | 12 => ⟨S_, .i32⟩
  | 13 => ⟨S850000, .i32⟩
  | 14 => ⟨S850000, .i1⟩
  | 15 => ⟨S_, .i32⟩
  | 16 => ⟨S850000, .i32⟩
  | 17 => ⟨S850000, .i32⟩
  | 18 => ⟨S850000, .i32⟩
  | 19 => ⟨S850000x1, .i32⟩
  | 20 => ⟨S850000, .f32⟩
  | 21 => ⟨S850000, .f32⟩
  | 22 => ⟨S_, .i32⟩
  | 23 => ⟨S850000, .i32⟩
  | 24 => ⟨S850000, .i1⟩
  | 25 => ⟨S_, .i32⟩
  | 26 => ⟨S850000, .i32⟩
  | 27 => ⟨S850000, .i32⟩
  | 28 => ⟨S850000, .i32⟩
  | 29 => ⟨S850000x1, .i32⟩
  | 30 => ⟨S850000, .f32⟩
  | 31 => ⟨S850000, .f32⟩
  | 32 => ⟨S50000x128, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000x128, .f32⟩
  | 42 => ⟨S850000x1, .f32⟩
  | 43 => ⟨S850000x128, .f32⟩
  | 44 => ⟨S850000x128, .f32⟩
  | 45 => ⟨S_, .f32⟩
  | 46 => ⟨S50000x128, .f32⟩
  | 47 => ⟨S850000x1, .i32⟩
  | 48 => ⟨S50000x128, .f32⟩
  | 49 => ⟨S1x128, .f32⟩
  | 50 => ⟨S50000x128, .f32⟩
  | 51 => ⟨S50000x128, .f32⟩
  | 52 => ⟨S_, .f32⟩
  | 53 => ⟨S128, .f32⟩
  | 54 => ⟨S_, .f32⟩
  | 55 => ⟨S128, .f32⟩
  | 56 => ⟨S128, .f32⟩
  | 57 => ⟨S_, .i32⟩
  | 58 => ⟨S_, .f32⟩
  | 59 => ⟨S128, .f32⟩
  | 60 => ⟨S1x128, .f32⟩
  | 61 => ⟨S_, .f32⟩
  | 62 => ⟨S1x128, .f32⟩
  | 63 => ⟨S1x128, .f32⟩
  | 64 => ⟨S50000x128, .f32⟩
  | 65 => ⟨S50000x128, .f32⟩
  | 66 => ⟨S50000x128, .f32⟩
  | 67 => ⟨S_, .f32⟩
  | 68 => ⟨S_, .f32⟩
  | 69 => ⟨S_, .f32⟩
  | 70 => ⟨S_, .f32⟩
  | 71 => ⟨S128, .f32⟩
  | 72 => ⟨S128, .f32⟩
  | 73 => ⟨S128, .f32⟩
  | 74 => ⟨S_, .f32⟩
  | 75 => ⟨S_, .i1⟩
  | 76 => ⟨S_, .f32⟩
  | 77 => ⟨S_, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S_, .f32⟩
  | 84 => ⟨S128, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S50000, .i32⟩
  | 100 => ⟨S850000, .i32⟩
  | 101 => ⟨S850000, .i32⟩
  | 102 => ⟨S_, .f32⟩
  | 103 => ⟨S50000, .f32⟩
  | 104 => ⟨S850000, .f32⟩
  | 105 => ⟨S_, .f32⟩
  | 106 => ⟨S50000, .f32⟩
  | 107 => ⟨S850000x1, .i32⟩
  | 108 => ⟨S50000, .f32⟩
  | 109 => ⟨S_, .f32⟩
  | 110 => ⟨S50000, .f32⟩
  | 111 => ⟨S50000, .i1⟩
  | 112 => ⟨S50000, .f32⟩
  | 113 => ⟨S_, .f32⟩
  | 114 => ⟨S_, .f32⟩
  | 115 => ⟨S50000, .f32⟩
  | 116 => ⟨S50000, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000, .f32⟩
  | 126 => ⟨S850000, .f32⟩
  | 127 => ⟨S_, .i32⟩
  | _ => ⟨S50000x128, .f32⟩

abbrev hbmTy0_2 (i : Nat) : BufTy := match i % 128 with
  | 0 => ⟨S850000, .i32⟩
  | 1 => ⟨S850000, .i1⟩
  | 2 => ⟨S_, .i32⟩
  | 3 => ⟨S850000, .i32⟩
  | 4 => ⟨S850000, .i32⟩
  | 5 => ⟨S850000, .i32⟩
  | 6 => ⟨S850000x1, .i32⟩
  | 7 => ⟨S850000, .f32⟩
  | 8 => ⟨S850000, .f32⟩
  | 9 => ⟨S50000x64, .f32⟩
  | 10 => ⟨S_, .i32⟩
  | 11 => ⟨S850000, .i32⟩
  | 12 => ⟨S850000, .i1⟩
  | 13 => ⟨S_, .i32⟩
  | 14 => ⟨S850000, .i32⟩
  | 15 => ⟨S850000, .i32⟩
  | 16 => ⟨S850000, .i32⟩
  | 17 => ⟨S850000x1, .i32⟩
  | 18 => ⟨S850000x64, .f32⟩
  | 19 => ⟨S850000x1, .f32⟩
  | 20 => ⟨S850000x64, .f32⟩
  | 21 => ⟨S850000x64, .f32⟩
  | 22 => ⟨S_, .f32⟩
  | 23 => ⟨S50000x64, .f32⟩
  | 24 => ⟨S850000x1, .i32⟩
  | 25 => ⟨S50000x64, .f32⟩
  | 26 => ⟨S1x64, .f32⟩
  | 27 => ⟨S50000x64, .f32⟩
  | 28 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_6 : Ref sig .tc := ⟨.hbm, 56, rfl⟩
abbrev main_v33 : Ref sig .tc := ⟨.hbm, 57, rfl⟩
abbrev main_v34 : Ref sig .tc := ⟨.hbm, 58, rfl⟩
abbrev main_c_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_c_11 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_cst_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_v7 : Ref sig .tc := ⟨.hbm, 90, rfl⟩
abbrev main_call1_cst_1 : Ref sig .tc := ⟨.hbm, 91, rfl⟩
abbrev main_call1_v8 : Ref sig .tc := ⟨.hbm, 92, rfl⟩
abbrev main_call1_cst_2 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_call1_cst_3 : Ref sig .tc := ⟨.hbm, 97, rfl⟩
abbrev main_call1_v12 : Ref sig .tc := ⟨.hbm, 98, rfl⟩
abbrev main_call1_cst_4 : Ref sig .tc := ⟨.hbm, 99, rfl⟩
abbrev main_call1_call0_v0 : Ref sig .tc := ⟨.hbm, 100, rfl⟩
abbrev main_call1_call0_v1 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_cst_12 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_call2_cst : Ref sig .tc := ⟨.hbm, 119, rfl⟩
abbrev main_call2_v0 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_cst_13 : Ref sig .tc := ⟨.hbm, 125, rfl⟩
abbrev main_v72 : Ref sig .tc := ⟨.hbm, 126, rfl⟩
abbrev main_v73 : Ref sig .tc := ⟨.hbm, 127, rfl⟩
abbrev main_cst_14 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_cst_15 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_cst_16 : Ref sig .tc := ⟨.hbm, 136, rfl⟩
abbrev main_call3_v0 : Ref sig .tc := ⟨.hbm, 137, rfl⟩
abbrev main_call3_v1 : Ref sig .tc := ⟨.hbm, 138, rfl⟩
abbrev main_v80 : Ref sig .tc := ⟨.hbm, 139, rfl⟩
abbrev main_c_17 : Ref sig .tc := ⟨.hbm, 140, rfl⟩
abbrev main_v81 : Ref sig .tc := ⟨.hbm, 141, rfl⟩
abbrev main_v82 : Ref sig .tc := ⟨.hbm, 142, rfl⟩
abbrev main_c_18 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_c_19 : Ref sig .tc := ⟨.hbm, 150, rfl⟩
abbrev main_v89 : Ref sig .tc := ⟨.hbm, 151, rfl⟩
abbrev main_v90 : Ref sig .tc := ⟨.hbm, 152, rfl⟩
abbrev main_c_20 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_c_21 : Ref sig .tc := ⟨.hbm, 161, rfl⟩
abbrev main_v98 : Ref sig .tc := ⟨.hbm, 162, rfl⟩
abbrev main_v99 : Ref sig .tc := ⟨.hbm, 163, rfl⟩
abbrev main_c_22 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_cst_23 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_cst_24 : Ref sig .tc := ⟨.hbm, 180, rfl⟩
abbrev main_v114 : Ref sig .tc := ⟨.hbm, 181, rfl⟩
abbrev main_cst_25 : Ref sig .tc := ⟨.hbm, 182, rfl⟩
abbrev main_v115 : Ref sig .tc := ⟨.hbm, 183, rfl⟩
abbrev main_v116 : Ref sig .tc := ⟨.hbm, 184, rfl⟩
abbrev main_c_26 : Ref sig .tc := ⟨.hbm, 185, rfl⟩
abbrev main_call4_cst : Ref sig .tc := ⟨.hbm, 186, rfl⟩
abbrev main_call4_v0 : Ref sig .tc := ⟨.hbm, 187, rfl⟩
abbrev main_call4_v1 : Ref sig .tc := ⟨.hbm, 188, rfl⟩
abbrev main_call4_cst_0 : Ref sig .tc := ⟨.hbm, 189, rfl⟩
abbrev main_call4_v2 : Ref sig .tc := ⟨.hbm, 190, rfl⟩
abbrev main_call4_v3 : Ref sig .tc := ⟨.hbm, 191, rfl⟩
abbrev main_call4_v4 : Ref sig .tc := ⟨.hbm, 192, rfl⟩
abbrev main_call4_v5 : Ref sig .tc := ⟨.hbm, 193, rfl⟩
abbrev main_call4_v6 : Ref sig .tc := ⟨.hbm, 194, rfl⟩
abbrev main_call4_v7 : Ref sig .tc := ⟨.hbm, 195, rfl⟩
abbrev main_call4_cst_1 : Ref sig .tc := ⟨.hbm, 196, rfl⟩
abbrev main_call4_v8 : Ref sig .tc := ⟨.hbm, 197, rfl⟩
abbrev main_call4_cst_2 : Ref sig .tc := ⟨.hbm, 198, rfl⟩
abbrev main_call4_v9 : Ref sig .tc := ⟨.hbm, 199, rfl⟩
abbrev main_call4_v10 : Ref sig .tc := ⟨.hbm, 200, rfl⟩
abbrev main_call4_v11 : Ref sig .tc := ⟨.hbm, 201, rfl⟩
abbrev main_call4_cst_3 : Ref sig .tc := ⟨.hbm, 202, rfl⟩
abbrev main_call4_v12 : Ref sig .tc := ⟨.hbm, 203, rfl⟩
abbrev main_call4_cst_4 : Ref sig .tc := ⟨.hbm, 204, rfl⟩
abbrev main_call4_call0_v0 : Ref sig .tc := ⟨.hbm, 205, rfl⟩
abbrev main_call4_call0_v1 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_cst_27 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_call5_cst : Ref sig .tc := ⟨.hbm, 224, rfl⟩
abbrev main_call5_v0 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_cst_28 : Ref sig .tc := ⟨.hbm, 230, rfl⟩
abbrev main_v137 : Ref sig .tc := ⟨.hbm, 231, rfl⟩
abbrev main_v138 : Ref sig .tc := ⟨.hbm, 232, rfl⟩
abbrev main_cst_29 : Ref sig .tc := ⟨.hbm, 233, rfl⟩
abbrev main_v139 : Ref sig .tc := ⟨.hbm, 234, rfl⟩
abbrev main_v140 : Ref sig .tc := ⟨.hbm, 235, rfl⟩
abbrev main_v141 : Ref sig .tc := ⟨.hbm, 236, rfl⟩
abbrev main_cst_30 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_cst_31 : Ref sig .tc := ⟨.hbm, 241, rfl⟩
abbrev main_call6_v0 : Ref sig .tc := ⟨.hbm, 242, rfl⟩
abbrev main_call6_v1 : Ref sig .tc := ⟨.hbm, 243, rfl⟩
abbrev main_v145 : Ref sig .tc := ⟨.hbm, 244, rfl⟩
abbrev main_c_32 : Ref sig .tc := ⟨.hbm, 245, rfl⟩
abbrev main_v146 : Ref sig .tc := ⟨.hbm, 246, rfl⟩
abbrev main_v147 : Ref sig .tc := ⟨.hbm, 247, rfl⟩
abbrev main_c_33 : Ref sig .tc := ⟨.hbm, 248, rfl⟩
abbrev main_v148 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_c_34 : Ref sig .tc := ⟨.hbm, 255, rfl⟩
abbrev main_v154 : Ref sig .tc := ⟨.hbm, 256, rfl⟩
abbrev main_v155 : Ref sig .tc := ⟨.hbm, 257, rfl⟩
abbrev main_c_35 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_c_36 : Ref sig .tc := ⟨.hbm, 266, rfl⟩
abbrev main_v163 : Ref sig .tc := ⟨.hbm, 267, rfl⟩
abbrev main_v164 : Ref sig .tc := ⟨.hbm, 268, rfl⟩
abbrev main_c_37 : Ref sig .tc := ⟨.hbm, 269, rfl⟩
abbrev main_v165 : Ref sig .tc := ⟨.hbm, 270, rfl⟩
abbrev main_v166 : Ref sig .tc := ⟨.hbm, 271, rfl⟩
abbrev main_v167 : Ref sig .tc := ⟨.hbm, 272, rfl⟩
abbrev main_v168 : Ref sig .tc := ⟨.hbm, 273, rfl⟩
abbrev main_v169 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_cst_38 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_v176 : Ref sig .tc := ⟨.hbm, 282, rfl⟩
abbrev main_v177 : Ref sig .tc := ⟨.hbm, 283, rfl⟩
abbrev main_v178 : Ref sig .tc := ⟨.hbm, 284, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  The graph network as functions of whole arrays, over the operations of the host programs.

  One layer of the network sends node features `y` (one row per node) to
    out[n] = Σ over the edges e with dst(e) = n of  norm(e) · y[src(e)]   +  bias,
  where the edge list is the given one followed by one self-loop per node, an edge's weight is the given one
  (1 on a self-loop), deg[n] is the sum of the weights of the edges into n, dinv = deg^(-1/2) where deg > 0 and 0
  elsewhere, and norm(e) = dinv[src e] · w(e) · dinv[dst e].  Between layers the features are normalised per column
  (mean and biased variance over the nodes), scaled, shifted and clamped below at 0.

  Everything here is a composition of the host operations themselves (gather, scatter-add, reductions, broadcasts),
  kept folded: the two programs apply these same compositions, and differ only in how the dense product and the
  normalisation step are carried out.  Those two are `dense128` / `dense64` and `bnApply`.
-/
import proofs.«101731_j90555090469651_1_alg».proof.ReferenceIdeal

noncomputable section

namespace Cert.Spec

open Cert.ReferenceIdeal Cert.ReferenceIdeal.Facts₀ Idealize.ShloMosaic

variable {F : FTy → Type} [FloatOps F] [Cert.ReferenceIdeal.Facts₀]

/-- Row 0 of the edge table, the sources, as a flat list. -/
def srcRow (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- Row 1 of the edge table, the targets, as a flat list. -/
def dstRow (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- A list of endpoints followed by the self-loops 0, 1, …, 49999. -/
def withLoops (r : (⟨S800000, .i32⟩ : BufTy).Contents (Elt F)) : (⟨S850000, .i32⟩ : BufTy).Contents (Elt F) :=
  concatenate S850000 0 [⟨S800000, r⟩, ⟨S50000, iotaInDim S50000 32 0⟩] concatenates_S800000_S50000_S850000_d0

/-- The edge weights followed by weight 1 for each self-loop. -/
def wFull (ew : (⟨S800000, .f32⟩ : BufTy).Contents (Elt F)) : (⟨S850000, .f32⟩ : BufTy).Contents (Elt F) :=
  concatenate S850000 0
    [⟨S800000, ew⟩, ⟨S50000, broadcastInDim S50000 ![] bcast_S_S50000 (constant S_ .f32 0x3F800000#32)⟩]
    concatenates_S800000_S50000_S850000_d0

/-- An index word as a start index: a negative word has the extent 50000 added; then a column [E, 1]. -/
def wrap (ix : (⟨S850000, .i32⟩ : BufTy).Contents (Elt F)) : (⟨S850000x1, .i32⟩ : BufTy).Contents (Elt F) :=
  broadcastInDim S850000x1 ![0] bcast_S850000_S850000x1_0
    (select (cmpi .slt ix (broadcastInDim S850000 ![] bcast_S_S850000 (constantI S_ 32 0#32)))
      (addi ix (broadcastInDim S850000 ![] bcast_S_S850000 (constantI S_ 32 50000#32))) ix)

/-- The index words themselves as a column [E, 1] (what the scatter takes). -/
def col (ix : (⟨S850000, .i32⟩ : BufTy).Contents (Elt F)) : (⟨S850000x1, .i32⟩ : BufTy).Contents (Elt F) :=
  broadcastInDim S850000x1 ![0] bcast_S850000_S850000x1_0 ix

/-- deg[n]: the sum of the weights `w` of the edges whose target `d` is node n. -/
def degOf (d : (⟨S850000, .i32⟩ : BufTy).Contents (Elt F)) (w : (⟨S850000, .f32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32)) (col d) w

/-- deg^(-1/2) where deg > 0, and 0 elsewhere. -/
def dinvOf (dg : (⟨S50000, .f32⟩ : BufTy).Contents (Elt F)) : (⟨S50000, .f32⟩ : BufTy).Contents (Elt F) :=
  select (cmpf .ogt dg (broadcastInDim S50000 ![] bcast_S_S50000 (constant S_ .f32 0x00000000#32)))
    (Host.rsqrt dg)
    (broadcastInDim S50000 ![] bcast_S_S50000 (id (constant S_ .f32 0x00000000#32)))

/-- norm(e) = dinv[src e] · w(e) · dinv[dst e], from a given dinv. -/
def normFrom (di : (⟨S50000, .f32⟩ : BufTy).Contents (Elt F)) (s d : (⟨S850000, .i32⟩ : BufTy).Contents (Elt F)) (w : (⟨S850000, .f32⟩ : BufTy).Contents (Elt F)) : (⟨S850000, .f32⟩ : BufTy).Contents (Elt F) :=
  mulf (mulf (Host.gather gather_S50000_S850000x1_S850000_n_0_n_n_0_1_1 di (wrap s)) w)
    (Host.gather gather_S50000_S850000x1_S850000_n_0_n_n_0_1_1 di (wrap d))

/-- norm(e) from the edge list and the weights. -/
def normOf (s d : (⟨S850000, .i32⟩ : BufTy).Contents (Elt F)) (w : (⟨S850000, .f32⟩ : BufTy).Contents (Elt F)) : (⟨S850000, .f32⟩ : BufTy).Contents (Elt F) :=
  normFrom (dinvOf (degOf d w)) s d w

/-- A vector over the 128 columns repeated down the 50000 rows. -/
def rows128 (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

def rows64 (v : (⟨S64, .f32⟩ : BufTy).Contents (Elt F)) : (⟨S50000x64, .f32⟩ : BufTy).Contents (Elt F) :=
  broadcastInDim S50000x64 ![0, 1] bcast_S1x64_S50000x64_0_1 (broadcastInDim S1x64 ![1] bcast_S64_S1x64_1 v)

/-- One aggregation over the edges, 128 columns: gather the source rows, scale each by its edge's norm, add into the
    target rows, add the bias to every row. -/
def aggregate128 (y : (⟨S50000x128, .f32⟩ : BufTy).Contents (Elt F)) (s d : (⟨S850000, .i32⟩ : BufTy).Contents (Elt F))
    (nrm : (⟨S850000, .f32⟩ : BufTy).Contents (Elt F)) (b : (⟨S128, .f32⟩ : BufTy).Contents (Elt F)) : (⟨S50000x128, .f32⟩ : BufTy).Contents (Elt F) :=
  addf
    (Host.scatterAdd scatter_S50000x128_S850000x1_S850000x128_1_0_0_1
      (broadcastInDim S50000x128 ![] bcast_S_S50000x128 (constant S_ .f32 0x00000000#32)) (col d)
      (mulf (Host.gather gather_S50000x128_S850000x1_S850000x128_1_0_n_n_0_1_1128 y (wrap s))
        (broadcastInDim S850000x128 ![0, 1] bcast_S850000x1_S850000x128_0_1
          (broadcastInDim S850000x1 ![0] bcast_S850000_S850000x1_0 nrm))))
    (rows128 b)

/-- The same over 64 columns. -/
def aggregate64 (y : (⟨S50000x64, .f32⟩ : BufTy).Contents (Elt F)) (s d : (⟨S850000, .i32⟩ : BufTy).Contents (Elt F))
    (nrm : (⟨S850000, .f32⟩ : BufTy).Contents (Elt F)) (b : (⟨S64, .f32⟩ : BufTy).Contents (Elt F)) : (⟨S50000x64, .f32⟩ : BufTy).Contents (Elt F) :=
  addf
    (Host.scatterAdd scatter_S50000x64_S850000x1_S850000x64_1_0_0_1
      (broadcastInDim S50000x64 ![] bcast_S_S50000x64 (constant S_ .f32 0x00000000#32)) (col d)
      (mulf (Host.gather gather_S50000x64_S850000x1_S850000x64_1_0_n_n_0_1_164 y (wrap s))
        (broadcastInDim S850000x64 ![0, 1] bcast_S850000x1_S850000x64_0_1
          (broadcastInDim S850000x1 ![0] bcast_S850000_S850000x1_0 nrm))))
    (rows64 b)

/-- The column sums. -/
def colSum (h : (⟨S50000x128, .f32⟩ : BufTy).Contents (Elt F)) : (⟨S128, .f32⟩ : BufTy).Contents (Elt F) :=
  Host.reduceAdd h (constant S_ .f32 0x00000000#32) reducesTo_S50000x128_S128_d0 h_S_

/-- The column means: the column sums over 50000. -/
def colMean (h : (⟨S50000x128, .f32⟩ : BufTy).Contents (Elt F)) : (⟨S128, .f32⟩ : BufTy).Contents (Elt F) :=
  Host.divf (colSum h) (broadcastInDim S128 ![] bcast_S_S128 (constant S_ .f32 0x47435000#32))

/-- The rows centred at the column means (the means taken as a row [1, 128] first, as the variance does). -/
def centred (h : (⟨S50000x128, .f32⟩ : BufTy).Contents (Elt F)) : (⟨S50000x128, .f32⟩ : BufTy).Contents (Elt F) :=
  subf h (broadcastInDim S50000x128 ![0, 1] bcast_S1x128_S50000x128_0_1
    (Host.divf (broadcastInDim S1x128 ![1] bcast_S128_S1x128_1 (colSum h))
      (broadcastInDim S1x128 ![] bcast_S_S1x128 (constant S_ .f32 0x47435000#32))))

/-- The divisor of the variance: 50000 minus the correction 0. -/
def varCount : (⟨S_, .f32⟩ : BufTy).Contents (Elt F) :=
  subf (constant S_ .f32 0x47435000#32) (sitofp .f32 (constantI S_ 32 0#32))

/-- The biased column variances: the column sums of the squared centred rows over the count, where the count is
    positive. -/
def colVar (h : (⟨S50000x128, .f32⟩ : BufTy).Contents (Elt F)) : (⟨S128, .f32⟩ : BufTy).Contents (Elt F) :=
  select (broadcastInDim S128 ![] bcast_S_S128 (cmpf .ogt (varCount (F := F)) (constant S_ .f32 0x00000000#32)))
    (Host.divf (colSum (mulf (centred h) (centred h))) (broadcastInDim S128 ![] bcast_S_S128 (varCount (F := F))))
    (broadcastInDim S128 ![] bcast_S_S128 (id (constant S_ .f32 0x7FC00000#32)))

/-- The normalisation step at given column statistics:
    max( ((h − mu) · (var + ε)^(-1/2)) · g + be , 0 ),  each of mu, var, g, be a vector over the columns. -/
def bnApply (h : (⟨S50000x128, .f32⟩ : BufTy).Contents (Elt F)) (g be mu var : (⟨S128, .f32⟩ : BufTy).Contents (Elt F)) : (⟨S50000x128, .f32⟩ : BufTy).Contents (Elt F) :=
  maximumf
    (addf (mulf (mulf (subf h (rows128 mu))
        (rows128 (Host.rsqrt (addf var (broadcastInDim S128 ![] bcast_S_S128 (constant S_ .f32 0x3727C5AC#32))))))
      (rows128 g)) (rows128 be))
    (broadcastInDim S50000x128 ![] bcast_S_S50000x128 (constant S_ .f32 0x00000000#32))

/-- The normalisation step at the array's own column statistics. -/
def bnRelu (h : (⟨S50000x128, .f32⟩ : BufTy).Contents (Elt F)) (g be : (⟨S128, .f32⟩ : BufTy).Contents (Elt F)) : (⟨S50000x128, .f32⟩ : BufTy).Contents (Elt F) :=
  bnApply h g be (colMean h) (colVar h)

/-- The dense products x · W, contracting the 128 features. -/
def dense128 (x : (⟨S50000x128, .f32⟩ : BufTy).Contents (Elt F)) (w : (⟨S128x128, .f32⟩ : BufTy).Contents (Elt F)) : (⟨S50000x128, .f32⟩ : BufTy).Contents (Elt F) :=
  Host.dotGeneral dot_S50000x128_S128x128_S50000x128_1_0_0_1_n_n none x w

def dense64 (x : (⟨S50000x128, .f32⟩ : BufTy).Contents (Elt F)) (w : (⟨S128x64, .f32⟩ : BufTy).Contents (Elt F)) : (⟨S50000x64, .f32⟩ : BufTy).Contents (Elt F) :=
  Host.dotGeneral dot_S50000x128_S128x64_S50000x64_1_0_0_1_n_n none x w

/-- The three layers over a given edge list `s`, `d` with weights `w`. -/
def layers (x : (⟨S50000x128, .f32⟩ : BufTy).Contents (Elt F)) (s d : (⟨S850000, .i32⟩ : BufTy).Contents (Elt F)) (w : (⟨S850000, .f32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (W3 : (⟨S128x64, .f32⟩ : BufTy).Contents (Elt F)) (b3 : (⟨S64, .f32⟩ : BufTy).Contents (Elt F))
    (g1 be1 g2 be2 : (⟨S128, .f32⟩ : BufTy).Contents (Elt F)) : (⟨S50000x64, .f32⟩ : BufTy).Contents (Elt F) :=
  aggregate64 (dense64
    (bnRelu (aggregate128 (dense128
      (bnRelu (aggregate128 (dense128 x W1) s d (normOf s d w) b1) g1 be1) W2) s d (normOf s d w) b2) g2 be2) W3)
    s d (normOf s d w) b3

/-- The network on the given graph: the edge table's rows with the self-loops appended. -/
def network (x : (⟨S50000x128, .f32⟩ : BufTy).Contents (Elt F)) (ei : (⟨S2x800000, .i32⟩ : BufTy).Contents (Elt F)) (ew : (⟨S800000, .f32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (W3 : (⟨S128x64, .f32⟩ : BufTy).Contents (Elt F)) (b3 : (⟨S64, .f32⟩ : BufTy).Contents (Elt F))
    (g1 be1 g2 be2 : (⟨S128, .f32⟩ : BufTy).Contents (Elt F)) : (⟨S50000x64, .f32⟩ : BufTy).Contents (Elt F) :=
  layers x (withLoops (srcRow ei)) (withLoops (dstRow ei)) (wFull ew) W1 b1 W2 b2 W3 b3 g1 be1 g2 be2

end Cert.Spec

end
-- ==== Proof.RefOps.lean ====
import proofs.«101731_j90555090469651_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's part 0, in order (62 of them). -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_v4 (iotaInDim S50000 32 0),
    StableHlo.binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S50000 ![] bcast_S_S50000 : (⟨S_, .f32⟩ : BufTy).Contents (Elt F) → (⟨S50000, .f32⟩ : BufTy).Contents (Elt F)),
    StableHlo.binary main_arg2 main_v7 main_v8 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_cst_0 (constant S_ .f32 0x00000000#32),
    StableHlo.unary main_cst_0 main_v9 (broadcastInDim S50000 ![] bcast_S_S50000 : (⟨S_, .f32⟩ : BufTy).Contents (Elt F) → (⟨S50000, .f32⟩ : BufTy).Contents (Elt F)),
    StableHlo.unary main_v6 main_v10 (broadcastInDim S850000x1 ![0] bcast_S850000_S850000x1_0 : (⟨S850000, .i32⟩ : BufTy).Contents (Elt F) → (⟨S850000x1, .i32⟩ : BufTy).Contents (Elt F)),
    StableHlo.ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v12 (broadcastInDim S50000 ![] bcast_S_S50000 : (⟨S_, .f32⟩ : BufTy).Contents (Elt F) → (⟨S50000, .f32⟩ : BufTy).Contents (Elt F)),
    StableHlo.binary main_v11 main_v12 main_v13 (cmpf .ogt : (⟨S50000, .f32⟩ : BufTy).Contents (Elt F) → (⟨S50000, .f32⟩ : BufTy).Contents (Elt F) → (⟨S50000, .i1⟩ : BufTy).Contents (Elt F)),
    StableHlo.unary main_v11 main_v14 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S50000 ![] bcast_S_S50000),
    StableHlo.TRef.ternary (.of main_v13 : StableHlo.TRef sig ⟨S50000, .i1⟩) (.of main_v14 : StableHlo.TRef sig ⟨S50000, .f32⟩) main_call0.v1 main_call0.v2 select,
    StableHlo.nullary main_c (constantI S_ 32 0#32),
    StableHlo.unary main_c main_v16 (broadcastInDim S850000 ![] bcast_S_S850000 : (⟨S_, .i32⟩ : BufTy).Contents (Elt F) → (⟨S850000, .i32⟩ : BufTy).Contents (Elt F)),
    StableHlo.binary main_v5 main_v16 main_v17 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v18 (broadcastInDim S850000 ![] bcast_S_S850000 : (⟨S_, .i32⟩ : BufTy).Contents (Elt F) → (⟨S850000, .i32⟩ : BufTy).Contents (Elt F)),
    StableHlo.binary main_v5 main_v18 main_v19 (addi : (⟨S850000, .i32⟩ : BufTy).Contents (Elt F) → (⟨S850000, .i32⟩ : BufTy).Contents (Elt F) → (⟨S850000, .i32⟩ : BufTy).Contents (Elt F)),
    StableHlo.ternary main_v17 main_v19 main_v5 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v20 main_v21 (broadcastInDim S850000x1 ![0] bcast_S850000_S850000x1_0 : (⟨S850000, .i32⟩ : BufTy).Contents (Elt F) → (⟨S850000x1, .i32⟩ : BufTy).Contents (Elt F)),
    StableHlo.binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v22 main_v8 main_v23 (mulf : (⟨S850000, .f32⟩ : BufTy).Contents (Elt F) → (⟨S850000, .f32⟩ : BufTy).Contents (Elt F) → (⟨S850000, .f32⟩ : BufTy).Contents (Elt F)),
    StableHlo.nullary main_c_4 (constantI S_ 32 0#32),
    StableHlo.unary main_c_4 main_v24 (broadcastInDim S850000 ![] bcast_S_S850000 : (⟨S_, .i32⟩ : BufTy).Contents (Elt F) → (⟨S850000, .i32⟩ : BufTy).Contents (Elt F)),
    StableHlo.binary main_v6 main_v24 main_v25 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v26 (broadcastInDim S850000 ![] bcast_S_S850000 : (⟨S_, .i32⟩ : BufTy).Contents (Elt F) → (⟨S850000, .i32⟩ : BufTy).Contents (Elt F)),
    StableHlo.binary main_v6 main_v26 main_v27 (addi : (⟨S850000, .i32⟩ : BufTy).Contents (Elt F) → (⟨S850000, .i32⟩ : BufTy).Contents (Elt F) → (⟨S850000, .i32⟩ : BufTy).Contents (Elt F)),
    StableHlo.ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v28 main_v29 (broadcastInDim S850000x1 ![0] bcast_S850000_S850000x1_0 : (⟨S850000, .i32⟩ : BufTy).Contents (Elt F) → (⟨S850000x1, .i32⟩ : BufTy).Contents (Elt F)),
    StableHlo.binary main_v15 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v23 main_v30 main_v31 (mulf : (⟨S850000, .f32⟩ : BufTy).Contents (Elt F) → (⟨S850000, .f32⟩ : BufTy).Contents (Elt F) → (⟨S850000, .f32⟩ : BufTy).Contents (Elt F)),
    StableHlo.binary main_arg0 main_arg3 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_6 (constantI S_ 32 0#32),
    StableHlo.unary main_c_6 main_v33 (broadcastInDim S850000 ![] bcast_S_S850000 : (⟨S_, .i32⟩ : BufTy).Contents (Elt F) → (⟨S850000, .i32⟩ : BufTy).Contents (Elt F)),
    StableHlo.binary main_v5 main_v33 main_v34 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v35 (broadcastInDim S850000 ![] bcast_S_S850000 : (⟨S_, .i32⟩ : BufTy).Contents (Elt F) → (⟨S850000, .i32⟩ : BufTy).Contents (Elt F)),
    StableHlo.binary main_v5 main_v35 main_v36 (addi : (⟨S850000, .i32⟩ : BufTy).Contents (Elt F) → (⟨S850000, .i32⟩ : BufTy).Contents (Elt F) → (⟨S850000, .i32⟩ : BufTy).Contents (Elt F)),
    StableHlo.ternary main_v34 main_v36 main_v5 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v37 main_v38 (broadcastInDim S850000x1 ![0] bcast_S850000_S850000x1_0 : (⟨S850000, .i32⟩ : BufTy).Contents (Elt F) → (⟨S850000x1, .i32⟩ : BufTy).Contents (Elt F)),
    StableHlo.binary main_v32 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v31 main_v40 (broadcastInDim S850000x1 ![0] bcast_S850000_S850000x1_0 : (⟨S850000, .f32⟩ : BufTy).Contents (Elt F) → (⟨S850000x1, .f32⟩ : BufTy).Contents (Elt F)),
    StableHlo.unary main_v40 main_v41 (broadcastInDim S850000x128 ![0, 1] bcast_S850000x1_S850000x128_0_1 : (⟨S850000x1, .f32⟩ : BufTy).Contents (Elt F) → (⟨S850000x128, .f32⟩ : BufTy).Contents (Elt F)),
    StableHlo.binary main_v39 main_v41 main_v42 (mulf : (⟨S850000x128, .f32⟩ : BufTy).Contents (Elt F) → (⟨S850000x128, .f32⟩ : BufTy).Contents (Elt F) → (⟨S850000x128, .f32⟩ : BufTy).Contents (Elt F)),
    StableHlo.nullary main_cst_8 (constant S_ .f32 0x00000000#32),
    StableHlo.unary main_cst_8 main_v43 (broadcastInDim S50000x128 ![] bcast_S_S50000x128 : (⟨S_, .f32⟩ : BufTy).Contents (Elt F) → (⟨S50000x128, .f32⟩ : BufTy).Contents (Elt F)),
    StableHlo.unary main_v6 main_v44 (broadcastInDim S850000x1 ![0] bcast_S850000_S850000x1_0 : (⟨S850000, .i32⟩ : BufTy).Contents (Elt F) → (⟨S850000x1, .i32⟩ : BufTy).Contents (Elt F)),
    StableHlo.ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg4 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v47 main_v48 (addf : (⟨S50000x128, .f32⟩ : BufTy).Contents (Elt F) → (⟨S50000x128, .f32⟩ : BufTy).Contents (Elt F) → (⟨S50000x128, .f32⟩ : BufTy).Contents (Elt F)) ]

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-- The operations of @main's part 1, in order (85 of them). -/
abbrev ops1 : List (HloOp τ sig (Elt F)) :=
  [ StableHlo.nullary main_cst_9 (constant S_ .f32 0x00000000#32),
    StableHlo.binary main_v48 main_cst_9 main_v49 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_10 (constant S_ .f32 0x47435000#32),
    StableHlo.unary main_cst_10 main_v50 (broadcastInDim S128 ![] bcast_S_S128 : (⟨S_, .f32⟩ : BufTy).Contents (Elt F) → (⟨S128, .f32⟩ : BufTy).Contents (Elt F)),
    StableHlo.binary main_v49 main_v50 main_v51 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call1.cst (constant S_ .f32 0x00000000#32),
    StableHlo.TRef.binary (.of main_v48 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v48 : StableHlo.TRef sig ⟨S50000x128, .f32⟩) main_call1.v4 main_call1.v5 subf,
    StableHlo.TRef.binary main_call1.v5 main_call1.v5 main_call1.v6 mulf,
    StableHlo.TRef.unary (.of main_c_11 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v51 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v54 main_v55 (subf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x3727C5AC#32),
    StableHlo.unary main_cst_12 main_v56 (broadcastInDim S128 ![] bcast_S_S128 : (⟨S_, .f32⟩ : BufTy).Contents (Elt F) → (⟨S128, .f32⟩ : BufTy).Contents (Elt F)),
    StableHlo.binary main_v52 main_v56 main_v57 (addf : (⟨S128, .f32⟩ : BufTy).Contents (Elt F) → (⟨S128, .f32⟩ : BufTy).Contents (Elt F) → (⟨S128, .f32⟩ : BufTy).Contents (Elt F)),
    StableHlo.unary main_v57 main_v58 (Host.rsqrt : (⟨S128, .f32⟩ : BufTy).Contents (Elt F) → (⟨S128, .f32⟩ : BufTy).Contents (Elt F)),
    StableHlo.unary main_v58 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S50000x128 ![0, 1] bcast_S1x128_S50000x128_0_1 : (⟨S1x128, .f32⟩ : BufTy).Contents (Elt F) → (⟨S50000x128, .f32⟩ : BufTy).Contents (Elt F)),
    StableHlo.binary main_v55 main_v60 main_v61 (mulf : (⟨S50000x128, .f32⟩ : BufTy).Contents (Elt F) → (⟨S50000x128, .f32⟩ : BufTy).Contents (Elt F) → (⟨S50000x128, .f32⟩ : BufTy).Contents (Elt F)),
    StableHlo.unary main_arg9 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v61 main_v63 main_v64 (mulf : (⟨S50000x128, .f32⟩ : BufTy).Contents (Elt F) → (⟨S50000x128, .f32⟩ : BufTy).Contents (Elt F) → (⟨S50000x128, .f32⟩ : BufTy).Contents (Elt F)),
    StableHlo.unary main_arg10 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v66 main_v67 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v67 : StableHlo.TRef sig ⟨S50000x128, .f32⟩) main_call2.v0 main_call2.v1 maximumf,
    StableHlo.nullary main_v69 (iotaInDim S50000 32 0),
    StableHlo.binary main_v1 main_v69 main_v70 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v69 main_v71 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_13 (constant S_ .f32 0x3F800000#32),
    StableHlo.unary main_cst_13 main_v72 (broadcastInDim S50000 ![] bcast_S_S50000 : (⟨S_, .f32⟩ : BufTy).Contents (Elt F) → (⟨S50000, .f32⟩ : BufTy).Contents (Elt F)),
    StableHlo.binary main_arg2 main_v72 main_v73 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_cst_14 (constant S_ .f32 0x00000000#32),
    StableHlo.unary main_cst_14 main_v74 (broadcastInDim S50000 ![] bcast_S_S50000 : (⟨S_, .f32⟩ : BufTy).Contents (Elt F) → (⟨S50000, .f32⟩ : BufTy).Contents (Elt F)),
    StableHlo.unary main_v71 main_v75 (broadcastInDim S850000x1 ![0] bcast_S850000_S850000x1_0 : (⟨S850000, .i32⟩ : BufTy).Contents (Elt F) → (⟨S850000x1, .i32⟩ : BufTy).Contents (Elt F)),
    StableHlo.ternary main_v74 main_v75 main_v73 main_v76 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_15 (constant S_ .f32 0x00000000#32),
    StableHlo.unary main_cst_15 main_v77 (broadcastInDim S50000 ![] bcast_S_S50000 : (⟨S_, .f32⟩ : BufTy).Contents (Elt F) → (⟨S50000, .f32⟩ : BufTy).Contents (Elt F)),
    StableHlo.binary main_v76 main_v77 main_v78 (cmpf .ogt : (⟨S50000, .f32⟩ : BufTy).Contents (Elt F) → (⟨S50000, .f32⟩ : BufTy).Contents (Elt F) → (⟨S50000, .i1⟩ : BufTy).Contents (Elt F)),
    StableHlo.unary main_v76 main_v79 (Host.rsqrt : (⟨S50000, .f32⟩ : BufTy).Contents (Elt F) → (⟨S50000, .f32⟩ : BufTy).Contents (Elt F)),
    StableHlo.nullary main_cst_16 (constant S_ .f32 0x00000000#32),
    StableHlo.TRef.unary (.of main_cst_16 : StableHlo.TRef sig ⟨S_, .f32⟩) main_call3.v0 id,
    StableHlo.TRef.unary main_call3.v0 main_call3.v1 (broadcastInDim S50000 ![] bcast_S_S50000),
    StableHlo.TRef.ternary (.of main_v78 : StableHlo.TRef sig ⟨S50000, .i1⟩) (.of main_v79 : StableHlo.TRef sig ⟨S50000, .f32⟩) main_call3.v1 main_call3.v2 select,
    StableHlo.nullary main_c_17 (constantI S_ 32 0#32),
    StableHlo.unary main_c_17 main_v81 (broadcastInDim S850000 ![] bcast_S_S850000 : (⟨S_, .i32⟩ : BufTy).Contents (Elt F) → (⟨S850000, .i32⟩ : BufTy).Contents (Elt F)),
    StableHlo.binary main_v70 main_v81 main_v82 (cmpi .slt : (⟨S850000, .i32⟩ : BufTy).Contents (Elt F) → (⟨S850000, .i32⟩ : BufTy).Contents (Elt F) → (⟨S850000, .i1⟩ : BufTy).Contents (Elt F)),
    StableHlo.nullary main_c_18 (constantI S_ 32 50000#32),
    StableHlo.unary main_c_18 main_v83 (broadcastInDim S850000 ![] bcast_S_S850000 : (⟨S_, .i32⟩ : BufTy).Contents (Elt F) → (⟨S850000, .i32⟩ : BufTy).Contents (Elt F)),
    StableHlo.binary main_v70 main_v83 main_v84 (addi : (⟨S850000, .i32⟩ : BufTy).Contents (Elt F) → (⟨S850000, .i32⟩ : BufTy).Contents (Elt F) → (⟨S850000, .i32⟩ : BufTy).Contents (Elt F)),
    StableHlo.ternary main_v82 main_v84 main_v70 main_v85 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v85 main_v86 (broadcastInDim S850000x1 ![0] bcast_S850000_S850000x1_0 : (⟨S850000, .i32⟩ : BufTy).Contents (Elt F) → (⟨S850000x1, .i32⟩ : BufTy).Contents (Elt F)),
    StableHlo.binary main_v80 main_v86 main_v87 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v87 main_v73 main_v88 (mulf : (⟨S850000, .f32⟩ : BufTy).Contents (Elt F) → (⟨S850000, .f32⟩ : BufTy).Contents (Elt F) → (⟨S850000, .f32⟩ : BufTy).Contents (Elt F)),
    StableHlo.nullary main_c_19 (constantI S_ 32 0#32),
    StableHlo.unary main_c_19 main_v89 (broadcastInDim S850000 ![] bcast_S_S850000 : (⟨S_, .i32⟩ : BufTy).Contents (Elt F) → (⟨S850000, .i32⟩ : BufTy).Contents (Elt F)),
    StableHlo.binary main_v71 main_v89 main_v90 (cmpi .slt : (⟨S850000, .i32⟩ : BufTy).Contents (Elt F) → (⟨S850000, .i32⟩ : BufTy).Contents (Elt F) → (⟨S850000, .i1⟩ : BufTy).Contents (Elt F)),
    StableHlo.nullary main_c_20 (constantI S_ 32 50000#32),
    StableHlo.unary main_c_20 main_v91 (broadcastInDim S850000 ![] bcast_S_S850000 : (⟨S_, .i32⟩ : BufTy).Contents (Elt F) → (⟨S850000, .i32⟩ : BufTy).Contents (Elt F)),
    StableHlo.binary main_v71 main_v91 main_v92 (addi : (⟨S850000, .i32⟩ : BufTy).Contents (Elt F) → (⟨S850000, .i32⟩ : BufTy).Contents (Elt F) → (⟨S850000, .i32⟩ : BufTy).Contents (Elt F)),
    StableHlo.ternary main_v90 main_v92 main_v71 main_v93 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v93 main_v94 (broadcastInDim S850000x1 ![0] bcast_S850000_S850000x1_0 : (⟨S850000, .i32⟩ : BufTy).Contents (Elt F) → (⟨S850000x1, .i32⟩ : BufTy).Contents (Elt F)),
    StableHlo.binary main_v80 main_v94 main_v95 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v88 main_v95 main_v96 (mulf : (⟨S850000, .f32⟩ : BufTy).Contents (Elt F) → (⟨S850000, .f32⟩ : BufTy).Contents (Elt F) → (⟨S850000, .f32⟩ : BufTy).Contents (Elt F)) ]

theorem ops1_sub : (ops1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- The operations of @main's part 2, in order (85 of them). -/
abbrev ops2 : List (HloOp τ sig (Elt F)) :=
  [ StableHlo.binary main_v68 main_arg5 main_v97 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_21 (constantI S_ 32 0#32),
    StableHlo.unary main_c_21 main_v98 (broadcastInDim S850000 ![] bcast_S_S850000 : (⟨S_, .i32⟩ : BufTy).Contents (Elt F) → (⟨S850000, .i32⟩ : BufTy).Contents (Elt F)),
    StableHlo.binary main_v70 main_v98 main_v99 (cmpi .slt : (⟨S850000, .i32⟩ : BufTy).Contents (Elt F) → (⟨S850000, .i32⟩ : BufTy).Contents (Elt F) → (⟨S850000, .i1⟩ : BufTy).Contents (Elt F)),
    StableHlo.nullary main_c_22 (constantI S_ 32 50000#32),
    StableHlo.unary main_c_22 main_v100 (broadcastInDim S850000 ![] bcast_S_S850000 : (⟨S_, .i32⟩ : BufTy).Contents (Elt F) → (⟨S850000, .i32⟩ : BufTy).Contents (Elt F)),
    StableHlo.binary main_v70 main_v100 main_v101 (addi : (⟨S850000, .i32⟩ : BufTy).Contents (Elt F) → (⟨S850000, .i32⟩ : BufTy).Contents (Elt F) → (⟨S850000, .i32⟩ : BufTy).Contents (Elt F)),
    StableHlo.ternary main_v99 main_v101 main_v70 main_v102 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v102 main_v103 (broadcastInDim S850000x1 ![0] bcast_S850000_S850000x1_0 : (⟨S850000, .i32⟩ : BufTy).Contents (Elt F) → (⟨S850000x1, .i32⟩ : BufTy).Contents (Elt F)),
    StableHlo.binary main_v97 main_v103 main_v104 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v96 main_v105 (broadcastInDim S850000x1 ![0] bcast_S850000_S850000x1_0 : (⟨S850000, .f32⟩ : BufTy).Contents (Elt F) → (⟨S850000x1, .f32⟩ : BufTy).Contents (Elt F)),
    StableHlo.unary main_v105 main_v106 (broadcastInDim S850000x128 ![0, 1] bcast_S850000x1_S850000x128_0_1 : (⟨S850000x1, .f32⟩ : BufTy).Contents (Elt F) → (⟨S850000x128, .f32⟩ : BufTy).Contents (Elt F)),
    StableHlo.binary main_v104 main_v106 main_v107 (mulf : (⟨S850000x128, .f32⟩ : BufTy).Contents (Elt F) → (⟨S850000x128, .f32⟩ : BufTy).Contents (Elt F) → (⟨S850000x128, .f32⟩ : BufTy).Contents (Elt F)),
    StableHlo.nullary main_cst_23 (constant S_ .f32 0x00000000#32),
    StableHlo.unary main_cst_23 main_v108 (broadcastInDim S50000x128 ![] bcast_S_S50000x128 : (⟨S_, .f32⟩ : BufTy).Contents (Elt F) → (⟨S50000x128, .f32⟩ : BufTy).Contents (Elt F)),
    StableHlo.unary main_v71 main_v109 (broadcastInDim S850000x1 ![0] bcast_S850000_S850000x1_0 : (⟨S850000, .i32⟩ : BufTy).Contents (Elt F) → (⟨S850000x1, .i32⟩ : BufTy).Contents (Elt F)),
    StableHlo.ternary main_v108 main_v109 main_v107 main_v110 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg6 main_v111 (broadcastInDim S1x128 ![1] bcast_S128_S1x128_1 : (⟨S128, .f32⟩ : BufTy).Contents (Elt F) → (⟨S1x128, .f32⟩ : BufTy).Contents (Elt F)),
    StableHlo.unary main_v111 main_v112 (broadcastInDim S50000x128 ![0, 1] bcast_S1x128_S50000x128_0_1 : (⟨S1x128, .f32⟩ : BufTy).Contents (Elt F) → (⟨S50000x128, .f32⟩ : BufTy).Contents (Elt F)),
    StableHlo.binary main_v110 main_v112 main_v113 (addf : (⟨S50000x128, .f32⟩ : BufTy).Contents (Elt F) → (⟨S50000x128, .f32⟩ : BufTy).Contents (Elt F) → (⟨S50000x128, .f32⟩ : BufTy).Contents (Elt F)),
    StableHlo.nullary main_cst_24 (constant S_ .f32 0x00000000#32),
    StableHlo.binary main_v113 main_cst_24 main_v114 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_25 (constant S_ .f32 0x47435000#32),
    StableHlo.unary main_cst_25 main_v115 (broadcastInDim S128 ![] bcast_S_S128 : (⟨S_, .f32⟩ : BufTy).Contents (Elt F) → (⟨S128, .f32⟩ : BufTy).Contents (Elt F)),
    StableHlo.binary main_v114 main_v115 main_v116 (Host.divf : (⟨S128, .f32⟩ : BufTy).Contents (Elt F) → (⟨S128, .f32⟩ : BufTy).Contents (Elt F) → (⟨S128, .f32⟩ : BufTy).Contents (Elt F)),
    StableHlo.nullary main_c_26 (constantI S_ 32 0#32),
    StableHlo.TRef.nullary main_call4.cst (constant S_ .f32 0x00000000#32),
    StableHlo.TRef.binary (.of main_v113 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v113 : StableHlo.TRef sig ⟨S50000x128, .f32⟩) main_call4.v4 main_call4.v5 subf,
    StableHlo.TRef.binary main_call4.v5 main_call4.v5 main_call4.v6 mulf,
    StableHlo.TRef.unary (.of main_c_26 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v116 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S50000x128 ![0, 1] bcast_S1x128_S50000x128_0_1 : (⟨S1x128, .f32⟩ : BufTy).Contents (Elt F) → (⟨S50000x128, .f32⟩ : BufTy).Contents (Elt F)),
    StableHlo.binary main_v113 main_v119 main_v120 (subf : (⟨S50000x128, .f32⟩ : BufTy).Contents (Elt F) → (⟨S50000x128, .f32⟩ : BufTy).Contents (Elt F) → (⟨S50000x128, .f32⟩ : BufTy).Contents (Elt F)),
    StableHlo.nullary main_cst_27 (constant S_ .f32 0x3727C5AC#32),
    StableHlo.unary main_cst_27 main_v121 (broadcastInDim S128 ![] bcast_S_S128 : (⟨S_, .f32⟩ : BufTy).Contents (Elt F) → (⟨S128, .f32⟩ : BufTy).Contents (Elt F)),
    StableHlo.binary main_v117 main_v121 main_v122 (addf : (⟨S128, .f32⟩ : BufTy).Contents (Elt F) → (⟨S128, .f32⟩ : BufTy).Contents (Elt F) → (⟨S128, .f32⟩ : BufTy).Contents (Elt F)),
    StableHlo.unary main_v122 main_v123 (Host.rsqrt : (⟨S128, .f32⟩ : BufTy).Contents (Elt F) → (⟨S128, .f32⟩ : BufTy).Contents (Elt F)),
    StableHlo.unary main_v123 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S50000x128 ![0, 1] bcast_S1x128_S50000x128_0_1 : (⟨S1x128, .f32⟩ : BufTy).Contents (Elt F) → (⟨S50000x128, .f32⟩ : BufTy).Contents (Elt F)),
    StableHlo.binary main_v120 main_v125 main_v126 (mulf : (⟨S50000x128, .f32⟩ : BufTy).Contents (Elt F) → (⟨S50000x128, .f32⟩ : BufTy).Contents (Elt F) → (⟨S50000x128, .f32⟩ : BufTy).Contents (Elt F)),
    StableHlo.unary main_arg11 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S50000x128 ![0, 1] bcast_S1x128_S50000x128_0_1 : (⟨S1x128, .f32⟩ : BufTy).Contents (Elt F) → (⟨S50000x128, .f32⟩ : BufTy).Contents (Elt F)),
    StableHlo.binary main_v126 main_v128 main_v129 (mulf : (⟨S50000x128, .f32⟩ : BufTy).Contents (Elt F) → (⟨S50000x128, .f32⟩ : BufTy).Contents (Elt F) → (⟨S50000x128, .f32⟩ : BufTy).Contents (Elt F)),
    StableHlo.unary main_arg12 main_v130 (broadcastInDim S1x128 ![1] bcast_S128_S1x128_1 : (⟨S128, .f32⟩ : BufTy).Contents (Elt F) → (⟨S1x128, .f32⟩ : BufTy).Contents (Elt F)),
    StableHlo.unary main_v130 main_v131 (broadcastInDim S50000x128 ![0, 1] bcast_S1x128_S50000x128_0_1 : (⟨S1x128, .f32⟩ : BufTy).Contents (Elt F) → (⟨S50000x128, .f32⟩ : BufTy).Contents (Elt F)),
    StableHlo.binary main_v129 main_v131 main_v132 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v132 : StableHlo.TRef sig ⟨S50000x128, .f32⟩) main_call5.v0 main_call5.v1 maximumf,
    StableHlo.nullary main_v134 (iotaInDim S50000 32 0),
    StableHlo.binary main_v1 main_v134 main_v135 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v134 main_v136 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_28 (constant S_ .f32 0x3F800000#32),
    StableHlo.unary main_cst_28 main_v137 (broadcastInDim S50000 ![] bcast_S_S50000 : (⟨S_, .f32⟩ : BufTy).Contents (Elt F) → (⟨S50000, .f32⟩ : BufTy).Contents (Elt F)),
    StableHlo.binary main_arg2 main_v137 main_v138 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_cst_29 (constant S_ .f32 0x00000000#32),
    StableHlo.unary main_cst_29 main_v139 (broadcastInDim S50000 ![] bcast_S_S50000 : (⟨S_, .f32⟩ : BufTy).Contents (Elt F) → (⟨S50000, .f32⟩ : BufTy).Contents (Elt F)),
    StableHlo.unary main_v136 main_v140 (broadcastInDim S850000x1 ![0] bcast_S850000_S850000x1_0 : (⟨S850000, .i32⟩ : BufTy).Contents (Elt F) → (⟨S850000x1, .i32⟩ : BufTy).Contents (Elt F)),
    StableHlo.ternary main_v139 main_v140 main_v138 main_v141 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_30 (constant S_ .f32 0x00000000#32),
    StableHlo.unary main_cst_30 main_v142 (broadcastInDim S50000 ![] bcast_S_S50000 : (⟨S_, .f32⟩ : BufTy).Contents (Elt F) → (⟨S50000, .f32⟩ : BufTy).Contents (Elt F)),
    StableHlo.binary main_v141 main_v142 main_v143 (cmpf .ogt : (⟨S50000, .f32⟩ : BufTy).Contents (Elt F) → (⟨S50000, .f32⟩ : BufTy).Contents (Elt F) → (⟨S50000, .i1⟩ : BufTy).Contents (Elt F)),
    StableHlo.unary main_v141 main_v144 (Host.rsqrt : (⟨S50000, .f32⟩ : BufTy).Contents (Elt F) → (⟨S50000, .f32⟩ : BufTy).Contents (Elt F)),
    StableHlo.nullary main_cst_31 (constant S_ .f32 0x00000000#32),
    StableHlo.TRef.unary (.of main_cst_31 : StableHlo.TRef sig ⟨S_, .f32⟩) main_call6.v0 id,
    StableHlo.TRef.unary main_call6.v0 main_call6.v1 (broadcastInDim S50000 ![] bcast_S_S50000),
    StableHlo.TRef.ternary (.of main_v143 : StableHlo.TRef sig ⟨S50000, .i1⟩) (.of main_v144 : StableHlo.TRef sig ⟨S50000, .f32⟩) main_call6.v1 main_call6.v2 select ]

theorem ops2_sub : (ops2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub ..⟩

/-- The operations of @main's part 3, in order (40 of them). -/
abbrev ops3 : List (HloOp τ sig (Elt F)) :=
  [ StableHlo.nullary main_c_32 (constantI S_ 32 0#32),
    StableHlo.unary main_c_32 main_v146 (broadcastInDim S850000 ![] bcast_S_S850000 : (⟨S_, .i32⟩ : BufTy).Contents (Elt F) → (⟨S850000, .i32⟩ : BufTy).Contents (Elt F)),
    StableHlo.binary main_v135 main_v146 main_v147 (cmpi .slt : (⟨S850000, .i32⟩ : BufTy).Contents (Elt F) → (⟨S850000, .i32⟩ : BufTy).Contents (Elt F) → (⟨S850000, .i1⟩ : BufTy).Contents (Elt F)),
    StableHlo.nullary main_c_33 (constantI S_ 32 50000#32),
    StableHlo.unary main_c_33 main_v148 (broadcastInDim S850000 ![] bcast_S_S850000 : (⟨S_, .i32⟩ : BufTy).Contents (Elt F) → (⟨S850000, .i32⟩ : BufTy).Contents (Elt F)),
    StableHlo.binary main_v135 main_v148 main_v149 (addi : (⟨S850000, .i32⟩ : BufTy).Contents (Elt F) → (⟨S850000, .i32⟩ : BufTy).Contents (Elt F) → (⟨S850000, .i32⟩ : BufTy).Contents (Elt F)),
    StableHlo.ternary main_v147 main_v149 main_v135 main_v150 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v150 main_v151 (broadcastInDim S850000x1 ![0] bcast_S850000_S850000x1_0 : (⟨S850000, .i32⟩ : BufTy).Contents (Elt F) → (⟨S850000x1, .i32⟩ : BufTy).Contents (Elt F)),
    StableHlo.binary main_v145 main_v151 main_v152 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v152 main_v138 main_v153 (mulf : (⟨S850000, .f32⟩ : BufTy).Contents (Elt F) → (⟨S850000, .f32⟩ : BufTy).Contents (Elt F) → (⟨S850000, .f32⟩ : BufTy).Contents (Elt F)),
    StableHlo.nullary main_c_34 (constantI S_ 32 0#32),
    StableHlo.unary main_c_34 main_v154 (broadcastInDim S850000 ![] bcast_S_S850000 : (⟨S_, .i32⟩ : BufTy).Contents (Elt F) → (⟨S850000, .i32⟩ : BufTy).Contents (Elt F)),
    StableHlo.binary main_v136 main_v154 main_v155 (cmpi .slt : (⟨S850000, .i32⟩ : BufTy).Contents (Elt F) → (⟨S850000, .i32⟩ : BufTy).Contents (Elt F) → (⟨S850000, .i1⟩ : BufTy).Contents (Elt F)),
    StableHlo.nullary main_c_35 (constantI S_ 32 50000#32),
    StableHlo.unary main_c_35 main_v156 (broadcastInDim S850000 ![] bcast_S_S850000 : (⟨S_, .i32⟩ : BufTy).Contents (Elt F) → (⟨S850000, .i32⟩ : BufTy).Contents (Elt F)),
    StableHlo.binary main_v136 main_v156 main_v157 (addi : (⟨S850000, .i32⟩ : BufTy).Contents (Elt F) → (⟨S850000, .i32⟩ : BufTy).Contents (Elt F) → (⟨S850000, .i32⟩ : BufTy).Contents (Elt F)),
    StableHlo.ternary main_v155 main_v157 main_v136 main_v158 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v158 main_v159 (broadcastInDim S850000x1 ![0] bcast_S850000_S850000x1_0 : (⟨S850000, .i32⟩ : BufTy).Contents (Elt F) → (⟨S850000x1, .i32⟩ : BufTy).Contents (Elt F)),
    StableHlo.binary main_v145 main_v159 main_v160 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v153 main_v160 main_v161 (mulf : (⟨S850000, .f32⟩ : BufTy).Contents (Elt F) → (⟨S850000, .f32⟩ : BufTy).Contents (Elt F) → (⟨S850000, .f32⟩ : BufTy).Contents (Elt F)),
    StableHlo.binary main_v133 main_arg7 main_v162 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_c_36 (constantI S_ 32 0#32),
    StableHlo.unary main_c_36 main_v163 (broadcastInDim S850000 ![] bcast_S_S850000 : (⟨S_, .i32⟩ : BufTy).Contents (Elt F) → (⟨S850000, .i32⟩ : BufTy).Contents (Elt F)),
    StableHlo.binary main_v135 main_v163 main_v164 (cmpi .slt : (⟨S850000, .i32⟩ : BufTy).Contents (Elt F) → (⟨S850000, .i32⟩ : BufTy).Contents (Elt F) → (⟨S850000, .i1⟩ : BufTy).Contents (Elt F)),
    StableHlo.nullary main_c_37 (constantI S_ 32 50000#32),
    StableHlo.unary main_c_37 main_v165 (broadcastInDim S850000 ![] bcast_S_S850000 : (⟨S_, .i32⟩ : BufTy).Contents (Elt F) → (⟨S850000, .i32⟩ : BufTy).Contents (Elt F)),
    StableHlo.binary main_v135 main_v165 main_v166 (addi : (⟨S850000, .i32⟩ : BufTy).Contents (Elt F) → (⟨S850000, .i32⟩ : BufTy).Contents (Elt F) → (⟨S850000, .i32⟩ : BufTy).Contents (Elt F)),
    StableHlo.ternary main_v164 main_v166 main_v135 main_v167 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v167 main_v168 (broadcastInDim S850000x1 ![0] bcast_S850000_S850000x1_0 : (⟨S850000, .i32⟩ : BufTy).Contents (Elt F) → (⟨S850000x1, .i32⟩ : BufTy).Contents (Elt F)),
    StableHlo.binary main_v162 main_v168 main_v169 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v161 main_v170 (broadcastInDim S850000x1 ![0] bcast_S850000_S850000x1_0 : (⟨S850000, .f32⟩ : BufTy).Contents (Elt F) → (⟨S850000x1, .f32⟩ : BufTy).Contents (Elt F)),
    StableHlo.unary main_v170 main_v171 (broadcastInDim S850000x64 ![0, 1] bcast_S850000x1_S850000x64_0_1 : (⟨S850000x1, .f32⟩ : BufTy).Contents (Elt F) → (⟨S850000x64, .f32⟩ : BufTy).Contents (Elt F)),
    StableHlo.binary main_v169 main_v171 main_v172 (mulf : (⟨S850000x64, .f32⟩ : BufTy).Contents (Elt F) → (⟨S850000x64, .f32⟩ : BufTy).Contents (Elt F) → (⟨S850000x64, .f32⟩ : BufTy).Contents (Elt F)),
    StableHlo.nullary main_cst_38 (constant S_ .f32 0x00000000#32),
    StableHlo.unary main_cst_38 main_v173 (broadcastInDim S50000x64 ![] bcast_S_S50000x64 : (⟨S_, .f32⟩ : BufTy).Contents (Elt F) → (⟨S50000x64, .f32⟩ : BufTy).Contents (Elt F)),
    StableHlo.unary main_v136 main_v174 (broadcastInDim S850000x1 ![0] bcast_S850000_S850000x1_0 : (⟨S850000, .i32⟩ : BufTy).Contents (Elt F) → (⟨S850000x1, .i32⟩ : BufTy).Contents (Elt F)),
    StableHlo.ternary main_v173 main_v174 main_v172 main_v175 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg8 main_v176 (broadcastInDim S1x64 ![1] bcast_S64_S1x64_1 : (⟨S64, .f32⟩ : BufTy).Contents (Elt F) → (⟨S1x64, .f32⟩ : BufTy).Contents (Elt F)),
    StableHlo.unary main_v176 main_v177 (broadcastInDim S50000x64 ![0, 1] bcast_S1x64_S50000x64_0_1 : (⟨S1x64, .f32⟩ : BufTy).Contents (Elt F) → (⟨S50000x64, .f32⟩ : BufTy).Contents (Elt F)),
    StableHlo.binary main_v175 main_v177 main_v178 (addf : (⟨S50000x64, .f32⟩ : BufTy).Contents (Elt F) → (⟨S50000x64, .f32⟩ : BufTy).Contents (Elt F) → (⟨S50000x64, .f32⟩ : BufTy).Contents (Elt F)) ]

theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

end Cert.ReferenceIdeal.RefRun

end
-- ==== Proof.RefRun.lean ====
/-
  The reference program's run: @main is the straight line of its host operations (the outlined functions' operations in
  place of their calls), so every weakly fair execution terminates with each buffer at the fold of those operations over
  the launch contents.
-/
import proofs.«101731_j90555090469651_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- All of @main's operations: the four parts in order. -/
abbrev ops : List (HloOp τ sig (Elt F)) := ops0 ++ (ops1 ++ (ops2 ++ ops3))

-- each part is one chain of host steps once the outlined functions are opened at their calls and sequencing is
-- re-associated; the rewriting recurses once per statement
set_option maxRecDepth 4096 in
theorem part0_eq (c : Dev nD) : main_part0 (F := F) c = seq ops0 := by
  simp only [main_part0, fn_where.body, seq, bind_assoc, pure_bind]
  rfl

set_option maxRecDepth 4096 in
theorem part1_eq (c : Dev nD) : main_part1 (F := F) c = seq ops1 := by
  simp only [main_part1, fn_where.body, fn_where_0.body, fn_var.body, fn_relu.body, seq, bind_assoc, pure_bind]
  rfl

set_option maxRecDepth 4096 in
theorem part2_eq (c : Dev nD) : main_part2 (F := F) c = seq ops2 := by
  simp only [main_part2, fn_where.body, fn_where_0.body, fn_var.body, fn_relu.body, seq, bind_assoc, pure_bind]

set_option maxRecDepth 4096 in
theorem part3_eq (c : Dev nD) : main_part3 (F := F) c = seq ops3 := by
  simp only [main_part3, seq, bind_assoc, pure_bind]

theorem main_eq (c : Dev nD) : main (F := F) c = seq ops := by
  show (main_part0 (F := F) c >>= fun _ => main_part1 (F := F) c >>= fun _ => main_part2 (F := F) c >>= fun _ => main_part3 (F := F) c) = _
  rw [part0_eq, part1_eq, part2_eq, part3_eq, seq_append, seq_append, seq_append]

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} {l₁ l₂ : List α} (h₁ : l₁.Forall p) (h₂ : l₂.Forall p) : (l₁ ++ l₂).Forall p :=
  List.forall_iff_forall_mem.mpr fun a ha =>
    (List.mem_append.mp ha).elim (List.forall_iff_forall_mem.mp h₁ a) (List.forall_iff_forall_mem.mp h₂ a)

theorem ops_sub : (ops : List (HloOp τ sig (Elt F))).Forall fun op => op.bufs ⊆ tcRefs τ sig :=
  forall_append ops0_sub (forall_append ops1_sub (forall_append ops2_sub ops3_sub))

/-- No operation allocates a buffer. -/
theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor
theorem ops3_fresh : (ops3 : List (HloOp τ sig (Elt F))).Forall fun op => op.fresh = ∅ := by
  simp only [List.Forall]; repeat' constructor

theorem ops_fresh : ∀ op ∈ (ops : List (HloOp τ sig (Elt F))), op.fresh = ∅ :=
  List.forall_iff_forall_mem.mp (forall_append ops0_fresh (forall_append ops1_fresh (forall_append ops2_fresh ops3_fresh)))

/-- At the compiled mesh, from any memory with zero counters: every weakly fair execution of @main terminates, and every
    final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefKeeps.lean ====
/-
  Which buffers the reference's host operations leave alone: no operation of any part writes an argument array, and no
  operation of part 1 writes the two rows of the edge table cut out in part 0.  Each fact is read off the literal list:
  every operation writes exactly its result buffer, and that buffer is another reference.
-/
import proofs.«101731_j90555090469651_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- "no operation of the list writes this buffer", for a literal list and a literal reference. -/
local macro "writes_miss" : tactic => `(tactic| (
  refine List.forall_iff_forall_mem.mp ?_
  simp only [ops0, ops1, ops2, ops3, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

theorem miss0_arg0 : ∀ op ∈ (ops0 : List (HloOp τ sig (Elt F))), (Proc.devRef .tc main_arg0 : DevRef τ sig) ∉ op.writes := by writes_miss
theorem miss0_arg1 : ∀ op ∈ (ops0 : List (HloOp τ sig (Elt F))), (Proc.devRef .tc main_arg1 : DevRef τ sig) ∉ op.writes := by writes_miss
theorem miss0_arg2 : ∀ op ∈ (ops0 : List (HloOp τ sig (Elt F))), (Proc.devRef .tc main_arg2 : DevRef τ sig) ∉ op.writes := by writes_miss
theorem miss0_arg3 : ∀ op ∈ (ops0 : List (HloOp τ sig (Elt F))), (Proc.devRef .tc main_arg3 : DevRef τ sig) ∉ op.writes := by writes_miss
theorem miss0_arg4 : ∀ op ∈ (ops0 : List (HloOp τ sig (Elt F))), (Proc.devRef .tc main_arg4 : DevRef τ sig) ∉ op.writes := by writes_miss
theorem miss0_arg5 : ∀ op ∈ (ops0 : List (HloOp τ sig (Elt F))), (Proc.devRef .tc main_arg5 : DevRef τ sig) ∉ op.writes := by writes_miss
theorem miss0_arg6 : ∀ op ∈ (ops0 : List (HloOp τ sig (Elt F))), (Proc.devRef .tc main_arg6 : DevRef τ sig) ∉ op.writes := by writes_miss
theorem miss0_arg7 : ∀ op ∈ (ops0 : List (HloOp τ sig (Elt F))), (Proc.devRef .tc main_arg7 : DevRef τ sig) ∉ op.writes := by writes_miss
theorem miss0_arg8 : ∀ op ∈ (ops0 : List (HloOp τ sig (Elt F))), (Proc.devRef .tc main_arg8 : DevRef τ sig) ∉ op.writes := by writes_miss
theorem miss0_arg9 : ∀ op ∈ (ops0 : List (HloOp τ sig (Elt F))), (Proc.devRef .tc main_arg9 : DevRef τ sig) ∉ op.writes := by writes_miss
theorem miss0_arg10 : ∀ op ∈ (ops0 : List (HloOp τ sig (Elt F))), (Proc.devRef .tc main_arg10 : DevRef τ sig) ∉ op.writes := by writes_miss
theorem miss0_arg11 : ∀ op ∈ (ops0 : List (HloOp τ sig (Elt F))), (Proc.devRef .tc main_arg11 : DevRef τ sig) ∉ op.writes := by writes_miss
theorem miss0_arg12 : ∀ op ∈ (ops0 : List (HloOp τ sig (Elt F))), (Proc.devRef .tc main_arg12 : DevRef τ sig) ∉ op.writes := by writes_miss
theorem miss1_arg0 : ∀ op ∈ (ops1 : List (HloOp τ sig (Elt F))), (Proc.devRef .tc main_arg0 : DevRef τ sig) ∉ op.writes := by writes_miss
theorem miss1_arg1 : ∀ op ∈ (ops1 : List (HloOp τ sig (Elt F))), (Proc.devRef .tc main_arg1 : DevRef τ sig) ∉ op.writes := by writes_miss
theorem miss1_arg2 : ∀ op ∈ (ops1 : List (HloOp τ sig (Elt F))), (Proc.devRef .tc main_arg2 : DevRef τ sig) ∉ op.writes := by writes_miss
theorem miss1_arg3 : ∀ op ∈ (ops1 : List (HloOp τ sig (Elt F))), (Proc.devRef .tc main_arg3 : DevRef τ sig) ∉ op.writes := by writes_miss
theorem miss1_arg4 : ∀ op ∈ (ops1 : List (HloOp τ sig (Elt F))), (Proc.devRef .tc main_arg4 : DevRef τ sig) ∉ op.writes := by writes_miss
theorem miss1_arg5 : ∀ op ∈ (ops1 : List (HloOp τ sig (Elt F))), (Proc.devRef .tc main_arg5 : DevRef τ sig) ∉ op.writes := by writes_miss
theorem miss1_arg6 : ∀ op ∈ (ops1 : List (HloOp τ sig (Elt F))), (Proc.devRef .tc main_arg6 : DevRef τ sig) ∉ op.writes := by writes_miss
theorem miss1_arg7 : ∀ op ∈ (ops1 : List (HloOp τ sig (Elt F))), (Proc.devRef .tc main_arg7 : DevRef τ sig) ∉ op.writes := by writes_miss
theorem miss1_arg8 : ∀ op ∈ (ops1 : List (HloOp τ sig (Elt F))), (Proc.devRef .tc main_arg8 : DevRef τ sig) ∉ op.writes := by writes_miss
theorem miss1_arg9 : ∀ op ∈ (ops1 : List (HloOp τ sig (Elt F))), (Proc.devRef .tc main_arg9 : DevRef τ sig) ∉ op.writes := by writes_miss
theorem miss1_arg10 : ∀ op ∈ (ops1 : List (HloOp τ sig (Elt F))), (Proc.devRef .tc main_arg10 : DevRef τ sig) ∉ op.writes := by writes_miss
theorem miss1_arg11 : ∀ op ∈ (ops1 : List (HloOp τ sig (Elt F))), (Proc.devRef .tc main_arg11 : DevRef τ sig) ∉ op.writes := by writes_miss
theorem miss1_arg12 : ∀ op ∈ (ops1 : List (HloOp τ sig (Elt F))), (Proc.devRef .tc main_arg12 : DevRef τ sig) ∉ op.writes := by writes_miss
theorem miss2_arg0 : ∀ op ∈ (ops2 : List (HloOp τ sig (Elt F))), (Proc.devRef .tc main_arg0 : DevRef τ sig) ∉ op.writes := by writes_miss
theorem miss2_arg1 : ∀ op ∈ (ops2 : List (HloOp τ sig (Elt F))), (Proc.devRef .tc main_arg1 : DevRef τ sig) ∉ op.writes := by writes_miss
theorem miss2_arg2 : ∀ op ∈ (ops2 : List (HloOp τ sig (Elt F))), (Proc.devRef .tc main_arg2 : DevRef τ sig) ∉ op.writes := by writes_miss
theorem miss2_arg3 : ∀ op ∈ (ops2 : List (HloOp τ sig (Elt F))), (Proc.devRef .tc main_arg3 : DevRef τ sig) ∉ op.writes := by writes_miss
theorem miss2_arg4 : ∀ op ∈ (ops2 : List (HloOp τ sig (Elt F))), (Proc.devRef .tc main_arg4 : DevRef τ sig) ∉ op.writes := by writes_miss
theorem miss2_arg5 : ∀ op ∈ (ops2 : List (HloOp τ sig (Elt F))), (Proc.devRef .tc main_arg5 : DevRef τ sig) ∉ op.writes := by writes_miss
theorem miss2_arg6 : ∀ op ∈ (ops2 : List (HloOp τ sig (Elt F))), (Proc.devRef .tc main_arg6 : DevRef τ sig) ∉ op.writes := by writes_miss
theorem miss2_arg7 : ∀ op ∈ (ops2 : List (HloOp τ sig (Elt F))), (Proc.devRef .tc main_arg7 : DevRef τ sig) ∉ op.writes := by writes_miss
theorem miss2_arg8 : ∀ op ∈ (ops2 : List (HloOp τ sig (Elt F))), (Proc.devRef .tc main_arg8 : DevRef τ sig) ∉ op.writes := by writes_miss
theorem miss2_arg9 : ∀ op ∈ (ops2 : List (HloOp τ sig (Elt F))), (Proc.devRef .tc main_arg9 : DevRef τ sig) ∉ op.writes := by writes_miss
theorem miss2_arg10 : ∀ op ∈ (ops2 : List (HloOp τ sig (Elt F))), (Proc.devRef .tc main_arg10 : DevRef τ sig) ∉ op.writes := by writes_miss
theorem miss2_arg11 : ∀ op ∈ (ops2 : List (HloOp τ sig (Elt F))), (Proc.devRef .tc main_arg11 : DevRef τ sig) ∉ op.writes := by writes_miss
theorem miss2_arg12 : ∀ op ∈ (ops2 : List (HloOp τ sig (Elt F))), (Proc.devRef .tc main_arg12 : DevRef τ sig) ∉ op.writes := by writes_miss
theorem miss3_arg0 : ∀ op ∈ (ops3 : List (HloOp τ sig (Elt F))), (Proc.devRef .tc main_arg0 : DevRef τ sig) ∉ op.writes := by writes_miss
theorem miss3_arg1 : ∀ op ∈ (ops3 : List (HloOp τ sig (Elt F))), (Proc.devRef .tc main_arg1 : DevRef τ sig) ∉ op.writes := by writes_miss
theorem miss3_arg2 : ∀ op ∈ (ops3 : List (HloOp τ sig (Elt F))), (Proc.devRef .tc main_arg2 : DevRef τ sig) ∉ op.writes := by writes_miss
theorem miss3_arg3 : ∀ op ∈ (ops3 : List (HloOp τ sig (Elt F))), (Proc.devRef .tc main_arg3 : DevRef τ sig) ∉ op.writes := by writes_miss
theorem miss3_arg4 : ∀ op ∈ (ops3 : List (HloOp τ sig (Elt F))), (Proc.devRef .tc main_arg4 : DevRef τ sig) ∉ op.writes := by writes_miss
theorem miss3_arg5 : ∀ op ∈ (ops3 : List (HloOp τ sig (Elt F))), (Proc.devRef .tc main_arg5 : DevRef τ sig) ∉ op.writes := by writes_miss
theorem miss3_arg6 : ∀ op ∈ (ops3 : List (HloOp τ sig (Elt F))), (Proc.devRef .tc main_arg6 : DevRef τ sig) ∉ op.writes := by writes_miss
theorem miss3_arg7 : ∀ op ∈ (ops3 : List (HloOp τ sig (Elt F))), (Proc.devRef .tc main_arg7 : DevRef τ sig) ∉ op.writes := by writes_miss
theorem miss3_arg8 : ∀ op ∈ (ops3 : List (HloOp τ sig (Elt F))), (Proc.devRef .tc main_arg8 : DevRef τ sig) ∉ op.writes := by writes_miss
theorem miss3_arg9 : ∀ op ∈ (ops3 : List (HloOp τ sig (Elt F))), (Proc.devRef .tc main_arg9 : DevRef τ sig) ∉ op.writes := by writes_miss
theorem miss3_arg10 : ∀ op ∈ (ops3 : List (HloOp τ sig (Elt F))), (Proc.devRef .tc main_arg10 : DevRef τ sig) ∉ op.writes := by writes_miss
theorem miss3_arg11 : ∀ op ∈ (ops3 : List (HloOp τ sig (Elt F))), (Proc.devRef .tc main_arg11 : DevRef τ sig) ∉ op.writes := by writes_miss
theorem miss3_arg12 : ∀ op ∈ (ops3 : List (HloOp τ sig (Elt F))), (Proc.devRef .tc main_arg12 : DevRef τ sig) ∉ op.writes := by writes_miss
theorem miss1_v1 : ∀ op ∈ (ops1 : List (HloOp τ sig (Elt F))), (Proc.devRef .tc main_v1 : DevRef τ sig) ∉ op.writes := by writes_miss
theorem miss1_v3 : ∀ op ∈ (ops1 : List (HloOp τ sig (Elt F))), (Proc.devRef .tc main_v3 : DevRef τ sig) ∉ op.writes := by writes_miss

end Cert.ReferenceIdeal.RefRun

end
-- ==== Proof.RefValue.lean ====
/-
  What the reference program computes: its result buffer after the run is the network of Spec.lean applied to the
  argument arrays, and the argument arrays are as launched.

  The operations are read one part at a time, from arbitrary contents `V`: each part's results that a later part reads
  are the layer functions of the buffers the part reads (the three layers recompute the edge list, the weights and the
  edge norms from the same rows and weights, so all three are the same functions of the arguments); a buffer a part
  does not write passes through it.  Composing the four parts gives the network.
-/
import proofs.«101731_j90555090469651_1_alg».proof.Proof.RefRun
import proofs.«101731_j90555090469651_1_alg».proof.Proof.RefKeeps
import proofs.«101731_j90555090469651_1_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Spec

variable {F : FTy → Type} [FloatOps F] (V : Valuation τ sig (Elt F))

/-! ## Part 0: the two rows of the edge table, and the first layer up to its bias -/

theorem p0_v1 : after ops0 V (Proc.devRef .tc main_v1) = srcRow (V (Proc.devRef .tc main_arg1)) := by
  after_results_simp <;> rfl

theorem p0_v3 : after ops0 V (Proc.devRef .tc main_v3) = dstRow (V (Proc.devRef .tc main_arg1)) := by
  after_results_simp <;> rfl

theorem p0_v48 : after ops0 V (Proc.devRef .tc main_v48)
    = aggregate128 (dense128 (V (Proc.devRef .tc main_arg0)) (V (Proc.devRef .tc main_arg3)))
        (withLoops (srcRow (V (Proc.devRef .tc main_arg1)))) (withLoops (dstRow (V (Proc.devRef .tc main_arg1))))
        (normOf (withLoops (srcRow (V (Proc.devRef .tc main_arg1)))) (withLoops (dstRow (V (Proc.devRef .tc main_arg1)))) (wFull (V (Proc.devRef .tc main_arg2))))
        (V (Proc.devRef .tc main_arg4)) := by
  after_results_simp <;> rfl

/-! ## Part 1: the first normalisation, and the second layer's edge list and norms -/

theorem p1_v68 : after ops1 V (Proc.devRef .tc main_v68) = bnRelu (V (Proc.devRef .tc main_v48)) (V (Proc.devRef .tc main_arg9)) (V (Proc.devRef .tc main_arg10)) := by
  after_results_simp <;> rfl

theorem p1_v70 : after ops1 V (Proc.devRef .tc main_v70) = withLoops (V (Proc.devRef .tc main_v1)) := by
  after_results_simp <;> rfl

theorem p1_v71 : after ops1 V (Proc.devRef .tc main_v71) = withLoops (V (Proc.devRef .tc main_v3)) := by
  after_results_simp <;> rfl

theorem p1_v96 : after ops1 V (Proc.devRef .tc main_v96)
    = normOf (withLoops (V (Proc.devRef .tc main_v1))) (withLoops (V (Proc.devRef .tc main_v3))) (wFull (V (Proc.devRef .tc main_arg2))) := by
  after_results_simp <;> rfl

/-! ## Part 2: the second layer and normalisation, and the third layer's edge list, weights and dinv -/

theorem p2_v133 : after ops2 V (Proc.devRef .tc main_v133)
    = bnRelu (aggregate128 (dense128 (V (Proc.devRef .tc main_v68)) (V (Proc.devRef .tc main_arg5))) (V (Proc.devRef .tc main_v70)) (V (Proc.devRef .tc main_v71)) (V (Proc.devRef .tc main_v96)) (V (Proc.devRef .tc main_arg6)))
        (V (Proc.devRef .tc main_arg11)) (V (Proc.devRef .tc main_arg12)) := by
  after_results_simp <;> rfl

theorem p2_v135 : after ops2 V (Proc.devRef .tc main_v135) = withLoops (V (Proc.devRef .tc main_v1)) := by
  after_results_simp <;> rfl

theorem p2_v136 : after ops2 V (Proc.devRef .tc main_v136) = withLoops (V (Proc.devRef .tc main_v3)) := by
  after_results_simp <;> rfl

theorem p2_v138 : after ops2 V (Proc.devRef .tc main_v138) = wFull (V (Proc.devRef .tc main_arg2)) := by
  after_results_simp <;> rfl

theorem p2_v145 : after ops2 V (Proc.devRef .tc main_v145)
    = dinvOf (degOf (withLoops (V (Proc.devRef .tc main_v3))) (wFull (V (Proc.devRef .tc main_arg2)))) := by
  after_results_simp <;> rfl

/-! ## Part 3: the third layer -/

theorem p3_v178 : after ops3 V (Proc.devRef .tc main_v178)
    = aggregate64 (dense64 (V (Proc.devRef .tc main_v133)) (V (Proc.devRef .tc main_arg7))) (V (Proc.devRef .tc main_v135)) (V (Proc.devRef .tc main_v136))
        (normFrom (V (Proc.devRef .tc main_v145)) (V (Proc.devRef .tc main_v135)) (V (Proc.devRef .tc main_v136)) (V (Proc.devRef .tc main_v138))) (V (Proc.devRef .tc main_arg8)) := by
  after_results_simp <;> rfl

/-! ## Buffers that pass through a part -/

theorem keep0_arg0 : after ops0 V (Proc.devRef .tc main_arg0) = (V (Proc.devRef .tc main_arg0)) := after_of_forall_not_mem ops0 V miss0_arg0
theorem keep0_arg1 : after ops0 V (Proc.devRef .tc main_arg1) = (V (Proc.devRef .tc main_arg1)) := after_of_forall_not_mem ops0 V miss0_arg1
theorem keep0_arg2 : after ops0 V (Proc.devRef .tc main_arg2) = (V (Proc.devRef .tc main_arg2)) := after_of_forall_not_mem ops0 V miss0_arg2
theorem keep0_arg3 : after ops0 V (Proc.devRef .tc main_arg3) = (V (Proc.devRef .tc main_arg3)) := after_of_forall_not_mem ops0 V miss0_arg3
theorem keep0_arg4 : after ops0 V (Proc.devRef .tc main_arg4) = (V (Proc.devRef .tc main_arg4)) := after_of_forall_not_mem ops0 V miss0_arg4
theorem keep0_arg5 : after ops0 V (Proc.devRef .tc main_arg5) = (V (Proc.devRef .tc main_arg5)) := after_of_forall_not_mem ops0 V miss0_arg5
theorem keep0_arg6 : after ops0 V (Proc.devRef .tc main_arg6) = (V (Proc.devRef .tc main_arg6)) := after_of_forall_not_mem ops0 V miss0_arg6
theorem keep0_arg7 : after ops0 V (Proc.devRef .tc main_arg7) = (V (Proc.devRef .tc main_arg7)) := after_of_forall_not_mem ops0 V miss0_arg7
theorem keep0_arg8 : after ops0 V (Proc.devRef .tc main_arg8) = (V (Proc.devRef .tc main_arg8)) := after_of_forall_not_mem ops0 V miss0_arg8
theorem keep0_arg9 : after ops0 V (Proc.devRef .tc main_arg9) = (V (Proc.devRef .tc main_arg9)) := after_of_forall_not_mem ops0 V miss0_arg9
theorem keep0_arg10 : after ops0 V (Proc.devRef .tc main_arg10) = (V (Proc.devRef .tc main_arg10)) := after_of_forall_not_mem ops0 V miss0_arg10
theorem keep0_arg11 : after ops0 V (Proc.devRef .tc main_arg11) = (V (Proc.devRef .tc main_arg11)) := after_of_forall_not_mem ops0 V miss0_arg11
theorem keep0_arg12 : after ops0 V (Proc.devRef .tc main_arg12) = (V (Proc.devRef .tc main_arg12)) := after_of_forall_not_mem ops0 V miss0_arg12
theorem keep1_arg0 : after ops1 V (Proc.devRef .tc main_arg0) = (V (Proc.devRef .tc main_arg0)) := after_of_forall_not_mem ops1 V miss1_arg0
theorem keep1_arg1 : after ops1 V (Proc.devRef .tc main_arg1) = (V (Proc.devRef .tc main_arg1)) := after_of_forall_not_mem ops1 V miss1_arg1
theorem keep1_arg2 : after ops1 V (Proc.devRef .tc main_arg2) = (V (Proc.devRef .tc main_arg2)) := after_of_forall_not_mem ops1 V miss1_arg2
theorem keep1_arg3 : after ops1 V (Proc.devRef .tc main_arg3) = (V (Proc.devRef .tc main_arg3)) := after_of_forall_not_mem ops1 V miss1_arg3
theorem keep1_arg4 : after ops1 V (Proc.devRef .tc main_arg4) = (V (Proc.devRef .tc main_arg4)) := after_of_forall_not_mem ops1 V miss1_arg4
theorem keep1_arg5 : after ops1 V (Proc.devRef .tc main_arg5) = (V (Proc.devRef .tc main_arg5)) := after_of_forall_not_mem ops1 V miss1_arg5
theorem keep1_arg6 : after ops1 V (Proc.devRef .tc main_arg6) = (V (Proc.devRef .tc main_arg6)) := after_of_forall_not_mem ops1 V miss1_arg6
theorem keep1_arg7 : after ops1 V (Proc.devRef .tc main_arg7) = (V (Proc.devRef .tc main_arg7)) := after_of_forall_not_mem ops1 V miss1_arg7
theorem keep1_arg8 : after ops1 V (Proc.devRef .tc main_arg8) = (V (Proc.devRef .tc main_arg8)) := after_of_forall_not_mem ops1 V miss1_arg8
theorem keep1_arg9 : after ops1 V (Proc.devRef .tc main_arg9) = (V (Proc.devRef .tc main_arg9)) := after_of_forall_not_mem ops1 V miss1_arg9
theorem keep1_arg10 : after ops1 V (Proc.devRef .tc main_arg10) = (V (Proc.devRef .tc main_arg10)) := after_of_forall_not_mem ops1 V miss1_arg10
theorem keep1_arg11 : after ops1 V (Proc.devRef .tc main_arg11) = (V (Proc.devRef .tc main_arg11)) := after_of_forall_not_mem ops1 V miss1_arg11
theorem keep1_arg12 : after ops1 V (Proc.devRef .tc main_arg12) = (V (Proc.devRef .tc main_arg12)) := after_of_forall_not_mem ops1 V miss1_arg12
theorem keep2_arg0 : after ops2 V (Proc.devRef .tc main_arg0) = (V (Proc.devRef .tc main_arg0)) := after_of_forall_not_mem ops2 V miss2_arg0
theorem keep2_arg1 : after ops2 V (Proc.devRef .tc main_arg1) = (V (Proc.devRef .tc main_arg1)) := after_of_forall_not_mem ops2 V miss2_arg1
theorem keep2_arg2 : after ops2 V (Proc.devRef .tc main_arg2) = (V (Proc.devRef .tc main_arg2)) := after_of_forall_not_mem ops2 V miss2_arg2
theorem keep2_arg3 : after ops2 V (Proc.devRef .tc main_arg3) = (V (Proc.devRef .tc main_arg3)) := after_of_forall_not_mem ops2 V miss2_arg3
theorem keep2_arg4 : after ops2 V (Proc.devRef .tc main_arg4) = (V (Proc.devRef .tc main_arg4)) := after_of_forall_not_mem ops2 V miss2_arg4
theorem keep2_arg5 : after ops2 V (Proc.devRef .tc main_arg5) = (V (Proc.devRef .tc main_arg5)) := after_of_forall_not_mem ops2 V miss2_arg5
theorem keep2_arg6 : after ops2 V (Proc.devRef .tc main_arg6) = (V (Proc.devRef .tc main_arg6)) := after_of_forall_not_mem ops2 V miss2_arg6
theorem keep2_arg7 : after ops2 V (Proc.devRef .tc main_arg7) = (V (Proc.devRef .tc main_arg7)) := after_of_forall_not_mem ops2 V miss2_arg7
theorem keep2_arg8 : after ops2 V (Proc.devRef .tc main_arg8) = (V (Proc.devRef .tc main_arg8)) := after_of_forall_not_mem ops2 V miss2_arg8
theorem keep2_arg9 : after ops2 V (Proc.devRef .tc main_arg9) = (V (Proc.devRef .tc main_arg9)) := after_of_forall_not_mem ops2 V miss2_arg9
theorem keep2_arg10 : after ops2 V (Proc.devRef .tc main_arg10) = (V (Proc.devRef .tc main_arg10)) := after_of_forall_not_mem ops2 V miss2_arg10
theorem keep2_arg11 : after ops2 V (Proc.devRef .tc main_arg11) = (V (Proc.devRef .tc main_arg11)) := after_of_forall_not_mem ops2 V miss2_arg11
theorem keep2_arg12 : after ops2 V (Proc.devRef .tc main_arg12) = (V (Proc.devRef .tc main_arg12)) := after_of_forall_not_mem ops2 V miss2_arg12
theorem keep3_arg0 : after ops3 V (Proc.devRef .tc main_arg0) = (V (Proc.devRef .tc main_arg0)) := after_of_forall_not_mem ops3 V miss3_arg0
theorem keep3_arg1 : after ops3 V (Proc.devRef .tc main_arg1) = (V (Proc.devRef .tc main_arg1)) := after_of_forall_not_mem ops3 V miss3_arg1
theorem keep3_arg2 : after ops3 V (Proc.devRef .tc main_arg2) = (V (Proc.devRef .tc main_arg2)) := after_of_forall_not_mem ops3 V miss3_arg2
theorem keep3_arg3 : after ops3 V (Proc.devRef .tc main_arg3) = (V (Proc.devRef .tc main_arg3)) := after_of_forall_not_mem ops3 V miss3_arg3
theorem keep3_arg4 : after ops3 V (Proc.devRef .tc main_arg4) = (V (Proc.devRef .tc main_arg4)) := after_of_forall_not_mem ops3 V miss3_arg4
theorem keep3_arg5 : after ops3 V (Proc.devRef .tc main_arg5) = (V (Proc.devRef .tc main_arg5)) := after_of_forall_not_mem ops3 V miss3_arg5
theorem keep3_arg6 : after ops3 V (Proc.devRef .tc main_arg6) = (V (Proc.devRef .tc main_arg6)) := after_of_forall_not_mem ops3 V miss3_arg6
theorem keep3_arg7 : after ops3 V (Proc.devRef .tc main_arg7) = (V (Proc.devRef .tc main_arg7)) := after_of_forall_not_mem ops3 V miss3_arg7
theorem keep3_arg8 : after ops3 V (Proc.devRef .tc main_arg8) = (V (Proc.devRef .tc main_arg8)) := after_of_forall_not_mem ops3 V miss3_arg8
theorem keep3_arg9 : after ops3 V (Proc.devRef .tc main_arg9) = (V (Proc.devRef .tc main_arg9)) := after_of_forall_not_mem ops3 V miss3_arg9
theorem keep3_arg10 : after ops3 V (Proc.devRef .tc main_arg10) = (V (Proc.devRef .tc main_arg10)) := after_of_forall_not_mem ops3 V miss3_arg10
theorem keep3_arg11 : after ops3 V (Proc.devRef .tc main_arg11) = (V (Proc.devRef .tc main_arg11)) := after_of_forall_not_mem ops3 V miss3_arg11
theorem keep3_arg12 : after ops3 V (Proc.devRef .tc main_arg12) = (V (Proc.devRef .tc main_arg12)) := after_of_forall_not_mem ops3 V miss3_arg12
theorem keep1_v1 : after ops1 V (Proc.devRef .tc main_v1) = (V (Proc.devRef .tc main_v1)) := after_of_forall_not_mem ops1 V miss1_v1
theorem keep1_v3 : after ops1 V (Proc.devRef .tc main_v3) = (V (Proc.devRef .tc main_v3)) := after_of_forall_not_mem ops1 V miss1_v3

/-! ## The whole line -/

theorem ops_split (b : DevRef τ sig) : after ops V b = after ops3 (after ops2 (after ops1 (after ops0 V))) b := by
  show after (ops0 ++ (ops1 ++ (ops2 ++ ops3))) V b = _
  rw [after_append, after_append, after_append]

theorem keep_arg0 : after ops V (Proc.devRef .tc main_arg0) = (V (Proc.devRef .tc main_arg0)) := by
  rw [ops_split, keep3_arg0, keep2_arg0, keep1_arg0, keep0_arg0]
theorem keep_arg1 : after ops V (Proc.devRef .tc main_arg1) = (V (Proc.devRef .tc main_arg1)) := by
  rw [ops_split, keep3_arg1, keep2_arg1, keep1_arg1, keep0_arg1]
theorem keep_arg2 : after ops V (Proc.devRef .tc main_arg2) = (V (Proc.devRef .tc main_arg2)) := by
  rw [ops_split, keep3_arg2, keep2_arg2, keep1_arg2, keep0_arg2]
theorem keep_arg3 : after ops V (Proc.devRef .tc main_arg3) = (V (Proc.devRef .tc main_arg3)) := by
  rw [ops_split, keep3_arg3, keep2_arg3, keep1_arg3, keep0_arg3]
theorem keep_arg4 : after ops V (Proc.devRef .tc main_arg4) = (V (Proc.devRef .tc main_arg4)) := by
  rw [ops_split, keep3_arg4, keep2_arg4, keep1_arg4, keep0_arg4]
theorem keep_arg5 : after ops V (Proc.devRef .tc main_arg5) = (V (Proc.devRef .tc main_arg5)) := by
  rw [ops_split, keep3_arg5, keep2_arg5, keep1_arg5, keep0_arg5]
theorem keep_arg6 : after ops V (Proc.devRef .tc main_arg6) = (V (Proc.devRef .tc main_arg6)) := by
  rw [ops_split, keep3_arg6, keep2_arg6, keep1_arg6, keep0_arg6]
theorem keep_arg7 : after ops V (Proc.devRef .tc main_arg7) = (V (Proc.devRef .tc main_arg7)) := by
  rw [ops_split, keep3_arg7, keep2_arg7, keep1_arg7, keep0_arg7]
theorem keep_arg8 : after ops V (Proc.devRef .tc main_arg8) = (V (Proc.devRef .tc main_arg8)) := by
  rw [ops_split, keep3_arg8, keep2_arg8, keep1_arg8, keep0_arg8]
theorem keep_arg9 : after ops V (Proc.devRef .tc main_arg9) = (V (Proc.devRef .tc main_arg9)) := by
  rw [ops_split, keep3_arg9, keep2_arg9, keep1_arg9, keep0_arg9]
theorem keep_arg10 : after ops V (Proc.devRef .tc main_arg10) = (V (Proc.devRef .tc main_arg10)) := by
  rw [ops_split, keep3_arg10, keep2_arg10, keep1_arg10, keep0_arg10]
theorem keep_arg11 : after ops V (Proc.devRef .tc main_arg11) = (V (Proc.devRef .tc main_arg11)) := by
  rw [ops_split, keep3_arg11, keep2_arg11, keep1_arg11, keep0_arg11]
theorem keep_arg12 : after ops V (Proc.devRef .tc main_arg12) = (V (Proc.devRef .tc main_arg12)) := by
  rw [ops_split, keep3_arg12, keep2_arg12, keep1_arg12, keep0_arg12]

/-- The result buffer after the run: the network of the argument arrays. -/
theorem out_eq : after ops V (Proc.devRef .tc main_v178)
    = network (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [ops_split, p3_v178]
  rw [p2_v133, p2_v135, p2_v136, p2_v138, p2_v145, keep2_arg7, keep2_arg8]
  rw [p1_v68, p1_v70, p1_v71, p1_v96, keep1_v1, keep1_v3, keep1_arg2, keep1_arg5, keep1_arg6, keep1_arg7, keep1_arg8,
    keep1_arg11, keep1_arg12]
  rw [p0_v48, p0_v1, p0_v3, keep0_arg2, keep0_arg5, keep0_arg6, keep0_arg7, keep0_arg8, keep0_arg9, keep0_arg10,
    keep0_arg11, keep0_arg12]
  rfl

end Cert.ReferenceIdeal.RefRun

end
-- ==== Proof.KernelRun.lean ====
/-
  The kernel program's run with its result named: @main is the generated chain of host stretches and kernel regions,
  and the last thread state of that chain holds every unscoped buffer at the last boundary's contents.  Read against a
  final state, the result buffer is those contents at the result's reference, and each argument array is as launched
  (no host operation and no region writes one).
-/
import proofs.«101731_j90555090469651_1_alg».proof.Proof.Gen.KernelIdeal.Frame

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- Every weakly fair execution of @main terminates, nothing faulting, with the result buffer at the last boundary's
    contents and the argument arrays as launched. -/
theorem run_out : θ_run defs (onTc (τ := τ) (main (F := F))) ⟨m, fun _ => 0, ρ⟩ (fun r => ∀ c : Dev nD,
      r.2.mem ((c.tc : Thread nD τ).loc main_v100) = W15 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v100 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c)⟩)

end Cert.KernelIdeal.RunValue

end
-- ==== Proof.KernelWindows.lean ====
/-
  The kernel program's host operations, read one stretch at a time.

  Between its five calls the kernel program runs plain host operations on whole arrays: it lays out the edge list (the two rows
  of the edge table, each followed by one self-loop per node), the edge weights (weight 1 on a self-loop), the degrees and the
  edge norms once; after each dense product it aggregates over the edges and adds the bias; after the first two aggregations it
  takes the column means and the biased column variances and reshapes them, with the scale and the shift, into the one-row
  arrays the normalisation calls read.  Each stretch is read here from ARBITRARY contents `W` of the buffers: a buffer the
  stretch writes is the composition of the stretch's operations, spelt as the layer functions of Spec.lean, of the contents of
  the buffers the stretch reads.  Nothing is computed: every equation is the operations composed in their order, and the two
  sides are one term.  The variance call reads the correction count from a buffer an earlier stretch wrote; its reading takes
  that buffer's contents (the integer 0) as a hypothesis, and the stretch that writes it supplies the fact.
-/
import proofs.«101731_j90555090469651_1_alg».proof.Proof.Gen.KernelIdeal.Frame
import proofs.«101731_j90555090469651_1_alg».proof.Proof.Gen.ReferenceIdeal
import proofs.«101731_j90555090469651_1_alg».proof.Proof.Spec
import Idealize.ShloMosaic.PureOps.Ideal
import Idealize.ShloMosaic.Lib.StableHlo.Run

noncomputable section
namespace Cert.KernelIdeal.HostValue
open Cert.KernelIdeal Cert.KernelIdeal.Gen Idealize.ShloMosaic Idealize.ShloMosaic.TcCoe Idealize.SL.Sem Idealize.ShloMosaic.StableHlo
open Cert.Spec

variable {F : FTy → Type} [FloatOps F] (W : Valuation τ sig (Elt F))

/-! ## Before the first call: the edge list with self-loops, the weights, the degrees -/

theorem h0_v5 : after hostOps0 W (Proc.devRef .tc main_v5) = withLoops (srcRow (W (Proc.devRef .tc main_arg1))) := by
  after_results_simp <;> rfl

theorem h0_v6 : after hostOps0 W (Proc.devRef .tc main_v6) = withLoops (dstRow (W (Proc.devRef .tc main_arg1))) := by
  after_results_simp <;> rfl

theorem h0_v8 : after hostOps0 W (Proc.devRef .tc main_v8) = wFull (W (Proc.devRef .tc main_arg2)) := by
  after_results_simp <;> rfl

theorem h0_v13 : after hostOps0 W (Proc.devRef .tc main_v13) = cmpf .ogt (degOf (withLoops (dstRow (W (Proc.devRef .tc main_arg1)))) (wFull (W (Proc.devRef .tc main_arg2)))) (broadcastInDim S50000 ![] bcast_S_S50000 (constant S_ .f32 0x00000000#32)) := by
  after_results_simp <;> rfl

theorem h0_v14 : after hostOps0 W (Proc.devRef .tc main_v14) = Host.rsqrt (degOf (withLoops (dstRow (W (Proc.devRef .tc main_arg1)))) (wFull (W (Proc.devRef .tc main_arg2)))) := by
  after_results_simp <;> rfl

theorem h0_cst2 : after hostOps0 W (Proc.devRef .tc main_cst_2) = constant S_ .f32 0x00000000#32 := by
  after_results_simp <;> rfl

/-! ## The reciprocal square roots of the positive degrees, 0 elsewhere; then the edge norms -/

theorem h01_v15 : after hostOps0_1 W (Proc.devRef .tc main_v15) = select (W (Proc.devRef .tc main_v13)) (W (Proc.devRef .tc main_v14)) (broadcastInDim S50000 ![] bcast_S_S50000 (id (W (Proc.devRef .tc main_cst_2)))) := by
  after_results_simp <;> rfl

theorem h02_v31 : after hostOps0_2 W (Proc.devRef .tc main_v31) = normFrom (W (Proc.devRef .tc main_v15)) (W (Proc.devRef .tc main_v5)) (W (Proc.devRef .tc main_v6)) (W (Proc.devRef .tc main_v8)) := by
  after_results_simp <;> rfl

/-! ## After the first dense product: the aggregation, its column means and variances, the one-row operands -/

theorem h1_v48 : after hostOps1 W (Proc.devRef .tc main_v48) = aggregate128 (W (Proc.devRef .tc main_v32)) (W (Proc.devRef .tc main_v5)) (W (Proc.devRef .tc main_v6)) (W (Proc.devRef .tc main_v31)) (W (Proc.devRef .tc main_arg4)) := by
  after_results_simp <;> rfl

theorem h1_v51 : after hostOps1 W (Proc.devRef .tc main_v51) = colMean (aggregate128 (W (Proc.devRef .tc main_v32)) (W (Proc.devRef .tc main_v5)) (W (Proc.devRef .tc main_v6)) (W (Proc.devRef .tc main_v31)) (W (Proc.devRef .tc main_arg4))) := by
  after_results_simp <;> rfl

theorem h1_c11 : after hostOps1 W (Proc.devRef .tc main_c_11) = constantI S_ 32 0#32 := by
  after_results_simp <;> rfl

theorem h11_v52 (hc : W (Proc.devRef .tc main_c_11) = constantI S_ 32 0#32) :
    after hostOps1_1 W (Proc.devRef .tc main_v52) = colVar (W (Proc.devRef .tc main_v48)) := by
  after_results_simp
  rw [hc]
  rfl

theorem h12_v53 : after hostOps1_2 W (Proc.devRef .tc main_v53) = shapeCast S1x128 (W (Proc.devRef .tc main_arg9)) shapeCasts_S128_S1x128 := by
  after_results_simp <;> rfl

theorem h12_v54 : after hostOps1_2 W (Proc.devRef .tc main_v54) = shapeCast S1x128 (W (Proc.devRef .tc main_arg10)) shapeCasts_S128_S1x128 := by
  after_results_simp <;> rfl

theorem h12_v55 : after hostOps1_2 W (Proc.devRef .tc main_v55) = shapeCast S1x128 (W (Proc.devRef .tc main_v51)) shapeCasts_S128_S1x128 := by
  after_results_simp <;> rfl

theorem h12_v56 : after hostOps1_2 W (Proc.devRef .tc main_v56) = shapeCast S1x128 (W (Proc.devRef .tc main_v52)) shapeCasts_S128_S1x128 := by
  after_results_simp <;> rfl

/-! ## After the second dense product: the same -/

theorem h3_v74 : after hostOps3 W (Proc.devRef .tc main_v74) = aggregate128 (W (Proc.devRef .tc main_v58)) (W (Proc.devRef .tc main_v5)) (W (Proc.devRef .tc main_v6)) (W (Proc.devRef .tc main_v31)) (W (Proc.devRef .tc main_arg6)) := by
  after_results_simp <;> rfl

theorem h3_v77 : after hostOps3 W (Proc.devRef .tc main_v77) = colMean (aggregate128 (W (Proc.devRef .tc main_v58)) (W (Proc.devRef .tc main_v5)) (W (Proc.devRef .tc main_v6)) (W (Proc.devRef .tc main_v31)) (W (Proc.devRef .tc main_arg6))) := by
  after_results_simp <;> rfl

theorem h3_c17 : after hostOps3 W (Proc.devRef .tc main_c_17) = constantI S_ 32 0#32 := by
  after_results_simp <;> rfl

theorem h31_v78 (hc : W (Proc.devRef .tc main_c_17) = constantI S_ 32 0#32) :
    after hostOps3_1 W (Proc.devRef .tc main_v78) = colVar (W (Proc.devRef .tc main_v74)) := by
  after_results_simp
  rw [hc]
  rfl

theorem h32_v79 : after hostOps3_2 W (Proc.devRef .tc main_v79) = shapeCast S1x128 (W (Proc.devRef .tc main_arg11)) shapeCasts_S128_S1x128 := by
  after_results_simp <;> rfl

theorem h32_v80 : after hostOps3_2 W (Proc.devRef .tc main_v80) = shapeCast S1x128 (W (Proc.devRef .tc main_arg12)) shapeCasts_S128_S1x128 := by
  after_results_simp <;> rfl

theorem h32_v81 : after hostOps3_2 W (Proc.devRef .tc main_v81) = shapeCast S1x128 (W (Proc.devRef .tc main_v77)) shapeCasts_S128_S1x128 := by
  after_results_simp <;> rfl

theorem h32_v82 : after hostOps3_2 W (Proc.devRef .tc main_v82) = shapeCast S1x128 (W (Proc.devRef .tc main_v78)) shapeCasts_S128_S1x128 := by
  after_results_simp <;> rfl

/-! ## After the third dense product: the last aggregation -/

theorem h5_v100 : after hostOps5 W (Proc.devRef .tc main_v100) = aggregate64 (W (Proc.devRef .tc main_v84)) (W (Proc.devRef .tc main_v5)) (W (Proc.devRef .tc main_v6)) (W (Proc.devRef .tc main_v31)) (W (Proc.devRef .tc main_arg8)) := by
  after_results_simp <;> rfl

end Cert.KernelIdeal.HostValue
end
-- ==== Proof.KernelStretchKeeps.lean ====
/-
  What each stretch of host operations leaves alone.

  Between its five regions the program runs ten stretches of host operations.  Each operation writes exactly one buffer,
  its result; so a buffer that is not the result of any operation of a stretch holds after the stretch what it held
  before.  For each stretch: the list of the buffers its operations write, in the operations' order, and that fact for
  every buffer outside the list (membership in a literal list of buffers is decided by comparing buffers).
-/
import proofs.«101731_j90555090469651_1_alg».proof.Proof.Gen.KernelIdeal.Frame
import Idealize.ShloMosaic.Lib.StableHlo.Run

noncomputable section
namespace Cert.KernelIdeal.HostValue
open Cert.KernelIdeal Cert.KernelIdeal.Gen Idealize.ShloMosaic Idealize.ShloMosaic.TcCoe Idealize.SL.Sem Idealize.ShloMosaic.StableHlo

variable {F : FTy → Type} [FloatOps F]

/-- The results of the first stretch, before the first product: the two rows of the edge table as flat lists, the node numbers (the self-loops), the full source and target lists, the full weights, the degrees, their test against 0 and their inverse square roots. -/
def written0 : List (Ref sig .tc) :=
  [main_v0, main_v1, main_v2, main_v3, main_v4, main_v5, main_v6, main_cst, main_v7, main_v8, main_cst_0,
   main_v9, main_v10, main_v11, main_cst_1, main_v12, main_v13, main_v14, main_cst_2]

/-- A buffer outside that list is as the stretch found it. -/
theorem keep0 (W : Valuation τ sig (Elt F)) (b : Ref sig .tc) (hb : b ∉ written0) :
    StableHlo.after hostOps0 W (Proc.devRef .tc b) = W (Proc.devRef .tc b) :=
  StableHlo.after_of_writes_sub hostOps0 W (by
    simp only [hostOps0, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

/-- The results of the selection that keeps deg^(-1/2) where deg > 0 and puts 0 elsewhere. -/
def written0_1 : List (Ref sig .tc) :=
  [main_call0_v0, main_call0_v1, main_v15]

/-- A buffer outside that list is as the stretch found it. -/
theorem keep0_1 (W : Valuation τ sig (Elt F)) (b : Ref sig .tc) (hb : b ∉ written0_1) :
    StableHlo.after hostOps0_1 W (Proc.devRef .tc b) = W (Proc.devRef .tc b) :=
  StableHlo.after_of_writes_sub hostOps0_1 W (by
    simp only [hostOps0_1, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

/-- The results of the stretch computing the edges' norms: the wrapped source and target indices, dinv gathered at each, and the products dinv[src] · w · dinv[dst]. -/
def written0_2 : List (Ref sig .tc) :=
  [main_c, main_v16, main_v17, main_c_3, main_v18, main_v19, main_v20, main_v21, main_v22, main_v23,
   main_c_4, main_v24, main_v25, main_c_5, main_v26, main_v27, main_v28, main_v29, main_v30, main_v31]

/-- A buffer outside that list is as the stretch found it. -/
theorem keep0_2 (W : Valuation τ sig (Elt F)) (b : Ref sig .tc) (hb : b ∉ written0_2) :
    StableHlo.after hostOps0_2 W (Proc.devRef .tc b) = W (Proc.devRef .tc b) :=
  StableHlo.after_of_writes_sub hostOps0_2 W (by
    simp only [hostOps0_2, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

/-- The results of the stretch after the first product: the first aggregation over the edges with its bias, and that array's column sums and column means. -/
def written1 : List (Ref sig .tc) :=
  [main_c_6, main_v33, main_v34, main_c_7, main_v35, main_v36, main_v37, main_v38, main_v39, main_v40,
   main_v41, main_v42, main_cst_8, main_v43, main_v44, main_v45, main_v46, main_v47, main_v48, main_cst_9,
   main_v49, main_cst_10, main_v50, main_v51, main_c_11]

/-- A buffer outside that list is as the stretch found it. -/
theorem keep1 (W : Valuation τ sig (Elt F)) (b : Ref sig .tc) (hb : b ∉ written1) :
    StableHlo.after hostOps1 W (Proc.devRef .tc b) = W (Proc.devRef .tc b) :=
  StableHlo.after_of_writes_sub hostOps1 W (by
    simp only [hostOps1, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

/-- The results of the first column-variance computation. -/
def written1_1 : List (Ref sig .tc) :=
  [main_call1_cst, main_call1_v0, main_call1_v1, main_call1_cst_0, main_call1_v2, main_call1_v3,
   main_call1_v4, main_call1_v5, main_call1_v6, main_call1_v7, main_call1_cst_1, main_call1_v8,
   main_call1_cst_2, main_call1_v9, main_call1_v10, main_call1_v11, main_call1_cst_3, main_call1_v12,
   main_call1_cst_4, main_call1_call0_v0, main_call1_call0_v1, main_v52]

/-- A buffer outside that list is as the stretch found it. -/
theorem keep1_1 (W : Valuation τ sig (Elt F)) (b : Ref sig .tc) (hb : b ∉ written1_1) :
    StableHlo.after hostOps1_1 W (Proc.devRef .tc b) = W (Proc.devRef .tc b) :=
  StableHlo.after_of_writes_sub hostOps1_1 W (by
    simp only [hostOps1_1, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

/-- The results of the four reshapes to a row [1, 128] before the first normalisation: scale, shift, mean, variance. -/
def written1_2 : List (Ref sig .tc) :=
  [main_v53, main_v54, main_v55, main_v56]

/-- A buffer outside that list is as the stretch found it. -/
theorem keep1_2 (W : Valuation τ sig (Elt F)) (b : Ref sig .tc) (hb : b ∉ written1_2) :
    StableHlo.after hostOps1_2 W (Proc.devRef .tc b) = W (Proc.devRef .tc b) :=
  StableHlo.after_of_writes_sub hostOps1_2 W (by
    simp only [hostOps1_2, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

/-- The results of the stretch after the second product: the second aggregation over the edges with its bias, and that array's column sums and column means. -/
def written3 : List (Ref sig .tc) :=
  [main_c_12, main_v59, main_v60, main_c_13, main_v61, main_v62, main_v63, main_v64, main_v65, main_v66,
   main_v67, main_v68, main_cst_14, main_v69, main_v70, main_v71, main_v72, main_v73, main_v74,
   main_cst_15, main_v75, main_cst_16, main_v76, main_v77, main_c_17]

/-- A buffer outside that list is as the stretch found it. -/
theorem keep3 (W : Valuation τ sig (Elt F)) (b : Ref sig .tc) (hb : b ∉ written3) :
    StableHlo.after hostOps3 W (Proc.devRef .tc b) = W (Proc.devRef .tc b) :=
  StableHlo.after_of_writes_sub hostOps3 W (by
    simp only [hostOps3, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

/-- The results of the second column-variance computation. -/
def written3_1 : List (Ref sig .tc) :=
  [main_call2_cst, main_call2_v0, main_call2_v1, main_call2_cst_0, main_call2_v2, main_call2_v3,
   main_call2_v4, main_call2_v5, main_call2_v6, main_call2_v7, main_call2_cst_1, main_call2_v8,
   main_call2_cst_2, main_call2_v9, main_call2_v10, main_call2_v11, main_call2_cst_3, main_call2_v12,
   main_call2_cst_4, main_call2_call0_v0, main_call2_call0_v1, main_v78]

/-- A buffer outside that list is as the stretch found it. -/
theorem keep3_1 (W : Valuation τ sig (Elt F)) (b : Ref sig .tc) (hb : b ∉ written3_1) :
    StableHlo.after hostOps3_1 W (Proc.devRef .tc b) = W (Proc.devRef .tc b) :=
  StableHlo.after_of_writes_sub hostOps3_1 W (by
    simp only [hostOps3_1, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

/-- The results of the four reshapes to a row [1, 128] before the second normalisation: scale, shift, mean, variance. -/
def written3_2 : List (Ref sig .tc) :=
  [main_v79, main_v80, main_v81, main_v82]

/-- A buffer outside that list is as the stretch found it. -/
theorem keep3_2 (W : Valuation τ sig (Elt F)) (b : Ref sig .tc) (hb : b ∉ written3_2) :
    StableHlo.after hostOps3_2 W (Proc.devRef .tc b) = W (Proc.devRef .tc b) :=
  StableHlo.after_of_writes_sub hostOps3_2 W (by
    simp only [hostOps3_2, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

/-- The results of the last stretch, after the third product: the third aggregation over the edges, 64 columns, with its bias. -/
def written5 : List (Ref sig .tc) :=
  [main_c_18, main_v85, main_v86, main_c_19, main_v87, main_v88, main_v89, main_v90, main_v91, main_v92,
   main_v93, main_v94, main_cst_20, main_v95, main_v96, main_v97, main_v98, main_v99, main_v100]

/-- A buffer outside that list is as the stretch found it. -/
theorem keep5 (W : Valuation τ sig (Elt F)) (b : Ref sig .tc) (hb : b ∉ written5) :
    StableHlo.after hostOps5 W (Proc.devRef .tc b) = W (Proc.devRef .tc b) :=
  StableHlo.after_of_writes_sub hostOps5 W (by
    simp only [hostOps5, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hb

end Cert.KernelIdeal.HostValue
end
-- ==== Proof.KernelValue.lean ====
/-
  What the kernel program leaves in its result buffer: the network of Spec.lean applied to the argument arrays.

  The program's run passes fifteen boundaries: ten stretches of host operations and five kernel regions.  The buffer
  contents at each boundary are a fold from the launch memory.  Going forward from the launch:
    · the first three stretches build the edge list with the self-loops, the weights, the degrees, dinv and the
      edges' norms from the edge table and the edge weights;
    · region 0 leaves the product x · W1 in its output array (the region's value, taken here as a hypothesis);
    · the next stretches aggregate it over the edges, add the bias, take the column means and variances and reshape
      them, with gamma and beta, to one row each; region 1 leaves the normalised, clamped array; region 2 its product
      with W2;
    · the same again for the second layer (regions 3 and 4), and the last stretch aggregates the third product and
      adds the last bias.
  Between the boundary that writes a buffer and the one that reads it nothing touches it: a host stretch leaves alone
  every buffer it does not write, a region every buffer that is not one of its arrays.  That bookkeeping is the relation
  `Same` below (every buffer of a list holds at one boundary what it held at an earlier one), chained along the run.
-/
import proofs.«101731_j90555090469651_1_alg».proof.Proof.Gen.KernelIdeal.Frame
import proofs.«101731_j90555090469651_1_alg».proof.Proof.Gen.ReferenceIdeal
import proofs.«101731_j90555090469651_1_alg».proof.Proof.Spec
import proofs.«101731_j90555090469651_1_alg».proof.Proof.KernelWindows
import proofs.«101731_j90555090469651_1_alg».proof.Proof.KernelStretchKeeps
import Idealize.ShloMosaic.PureOps.Ideal
import Idealize.ShloMosaic.Lib.StableHlo.Run

noncomputable section
namespace Cert.KernelIdeal.HostValue
open Cert.KernelIdeal Cert.KernelIdeal.Gen Idealize.ShloMosaic Idealize.ShloMosaic.TcCoe Idealize.SL.Sem Idealize.ShloMosaic.StableHlo
open Cert.Spec

/-! ## Buffers that hold their contents from one boundary to another -/

section Same
variable {F : FTy → Type} [FloatOps F]

/-- Every buffer of the list holds at `W'` what it holds at `W`. -/
def Same (L : List (Ref sig .tc)) (W W' : Valuation τ sig (Elt F)) : Prop :=
  ∀ b ∈ L, W' (Proc.devRef .tc b) = W (Proc.devRef .tc b)

theorem Same.trans {L : List (Ref sig .tc)} {W W' W'' : Valuation τ sig (Elt F)} (h : Same L W W') (h' : Same L W' W'') :
    Same L W W'' := fun b hb => (h' b hb).trans (h b hb)

theorem Same.sub {L L' : List (Ref sig .tc)} {W W' : Valuation τ sig (Elt F)} (hs : ∀ b ∈ L', b ∈ L) (h : Same L W W') :
    Same L' W W' := fun b hb => h b (hs b hb)

/-- A stretch that writes none of the list keeps it. -/
theorem same_host (ops : List (HloOp τ sig (Elt F))) (written : List (Ref sig .tc))
    (keep : ∀ (W : Valuation τ sig (Elt F)) (b : Ref sig .tc), b ∉ written → after ops W (Proc.devRef .tc b) = W (Proc.devRef .tc b))
    (L : List (Ref sig .tc)) (hL : ∀ b ∈ L, b ∉ written) (W : Valuation τ sig (Elt F)) : Same L W (after ops W) :=
  fun b hb => keep W b (hL b hb)
end Same

variable (m : (ℓ : Loc nD τ sig) → Buf (Elt Ideal) ℓ) (ρ : Dev nD → PrngReg) (c : Dev nD)

/-- The argument arrays. -/
abbrev argL : List (Ref sig .tc) :=
  [main_arg0, main_arg1, main_arg2, main_arg3, main_arg4, main_arg5, main_arg6, main_arg7, main_arg8, main_arg9, main_arg10, main_arg11, main_arg12]
/-- What every later boundary keeps: the edge list, the norms, and the arguments no region takes as an array. -/
abbrev keptL : List (Ref sig .tc) :=
  [main_v5, main_v6, main_v31, main_arg4, main_arg6, main_arg8, main_arg9, main_arg10, main_arg11, main_arg12]
abbrev keptL57 : List (Ref sig .tc) :=
  [main_v5, main_v6, main_v31, main_arg4, main_arg6, main_arg8, main_arg9, main_arg10, main_arg11, main_arg12, main_arg5, main_arg7]
abbrev keptL7 : List (Ref sig .tc) :=
  [main_v5, main_v6, main_v31, main_arg4, main_arg6, main_arg8, main_arg9, main_arg10, main_arg11, main_arg12, main_arg7]

/-! ## Each boundary and what it keeps: a host stretch by the list of the buffers it writes, a region by its arrays -/

theorem s_0_1 : Same (argL ++ []) (W0 (F := Ideal) m ρ c) (W1 (F := Ideal) m ρ c) := same_host hostOps0 written0 keep0 _ (by decide) _
theorem s_1_2 : Same (argL ++ [main_v5, main_v6, main_v8]) (W1 (F := Ideal) m ρ c) (W2 (F := Ideal) m ρ c) := same_host hostOps0_1 written0_1 keep0_1 _ (by decide) _
theorem s_2_3 : Same (argL ++ [main_v5, main_v6]) (W2 (F := Ideal) m ρ c) (W3 (F := Ideal) m ρ c) := same_host hostOps0_2 written0_2 keep0_2 _ (by decide) _
theorem s_3_4 : Same keptL57 (W3 (F := Ideal) m ρ c) (W4 (F := Ideal) m ρ c) :=
  fun b hb => W4_of_ne m ρ c b ((by decide : ∀ b ∈ keptL57, ∀ w, Pipeline.arrRef spec0 w ≠ b) b hb)
theorem s_4_5 : Same keptL57 (W4 (F := Ideal) m ρ c) (W5 (F := Ideal) m ρ c) := same_host hostOps1 written1 keep1 _ (by decide) _
theorem s_5_6 : Same (keptL57 ++ [main_v48, main_v51]) (W5 (F := Ideal) m ρ c) (W6 (F := Ideal) m ρ c) := same_host hostOps1_1 written1_1 keep1_1 _ (by decide) _
theorem s_6_7 : Same (keptL57 ++ [main_v48]) (W6 (F := Ideal) m ρ c) (W7 (F := Ideal) m ρ c) := same_host hostOps1_2 written1_2 keep1_2 _ (by decide) _
theorem s_7_8 : Same keptL57 (W7 (F := Ideal) m ρ c) (W8 (F := Ideal) m ρ c) :=
  fun b hb => W8_of_ne m ρ c b ((by decide : ∀ b ∈ keptL57, ∀ w, Pipeline.arrRef spec1 w ≠ b) b hb)
theorem s_8_9 : Same keptL7 (W8 (F := Ideal) m ρ c) (W9 (F := Ideal) m ρ c) :=
  fun b hb => W9_of_ne m ρ c b ((by decide : ∀ b ∈ keptL7, ∀ w, Pipeline.arrRef spec2 w ≠ b) b hb)
theorem s_9_10 : Same keptL7 (W9 (F := Ideal) m ρ c) (W10 (F := Ideal) m ρ c) := same_host hostOps3 written3 keep3 _ (by decide) _
theorem s_10_11 : Same (keptL7 ++ [main_v74, main_v77]) (W10 (F := Ideal) m ρ c) (W11 (F := Ideal) m ρ c) := same_host hostOps3_1 written3_1 keep3_1 _ (by decide) _
theorem s_11_12 : Same (keptL7 ++ [main_v74]) (W11 (F := Ideal) m ρ c) (W12 (F := Ideal) m ρ c) := same_host hostOps3_2 written3_2 keep3_2 _ (by decide) _
theorem s_12_13 : Same keptL7 (W12 (F := Ideal) m ρ c) (W13 (F := Ideal) m ρ c) :=
  fun b hb => W13_of_ne m ρ c b ((by decide : ∀ b ∈ keptL7, ∀ w, Pipeline.arrRef spec3 w ≠ b) b hb)
theorem s_13_14 : Same keptL (W13 (F := Ideal) m ρ c) (W14 (F := Ideal) m ρ c) :=
  fun b hb => W14_of_ne m ρ c b ((by decide : ∀ b ∈ keptL, ∀ w, Pipeline.arrRef spec4 w ≠ b) b hb)

/-! ## The values along the run -/

/-- The edge list with the self-loops, the weights, the norms, and the layers' arrays, of the launch contents. -/
abbrev sIx : (⟨Cert.ReferenceIdeal.S850000, .i32⟩ : BufTy).Contents (Elt Ideal) := withLoops (srcRow (F := Ideal) (m ((c : Thread nD τ).loc main_arg1)))
abbrev dIx : (⟨Cert.ReferenceIdeal.S850000, .i32⟩ : BufTy).Contents (Elt Ideal) := withLoops (dstRow (F := Ideal) (m ((c : Thread nD τ).loc main_arg1)))
abbrev wts : (⟨Cert.ReferenceIdeal.S850000, .f32⟩ : BufTy).Contents (Elt Ideal) := wFull (F := Ideal) (m ((c : Thread nD τ).loc main_arg2))
abbrev nrm : (⟨Cert.ReferenceIdeal.S850000, .f32⟩ : BufTy).Contents (Elt Ideal) := normOf (sIx m c) (dIx m c) (wts m c)
abbrev lay1 : (⟨Cert.ReferenceIdeal.S50000x128, .f32⟩ : BufTy).Contents (Elt Ideal) :=
  aggregate128 (dense128 (F := Ideal) (m ((c : Thread nD τ).loc main_arg0)) (m ((c : Thread nD τ).loc main_arg3))) (sIx m c) (dIx m c) (nrm m c) (m ((c : Thread nD τ).loc main_arg4))
abbrev act1 : (⟨Cert.ReferenceIdeal.S50000x128, .f32⟩ : BufTy).Contents (Elt Ideal) := bnRelu (lay1 m c) (m ((c : Thread nD τ).loc main_arg9)) (m ((c : Thread nD τ).loc main_arg10))
abbrev lay2 : (⟨Cert.ReferenceIdeal.S50000x128, .f32⟩ : BufTy).Contents (Elt Ideal) :=
  aggregate128 (dense128 (act1 m c) (m ((c : Thread nD τ).loc main_arg5))) (sIx m c) (dIx m c) (nrm m c) (m ((c : Thread nD τ).loc main_arg6))
abbrev act2 : (⟨Cert.ReferenceIdeal.S50000x128, .f32⟩ : BufTy).Contents (Elt Ideal) := bnRelu (lay2 m c) (m ((c : Thread nD τ).loc main_arg11)) (m ((c : Thread nD τ).loc main_arg12))

/-- The arguments at the first region's entry are the launch contents. -/
theorem args3 : Same argL (W0 (F := Ideal) m ρ c) (W3 (F := Ideal) m ρ c) :=
  (((s_0_1 m ρ c).sub (by decide)).trans ((s_1_2 m ρ c).sub (by decide))).trans ((s_2_3 m ρ c).sub (by decide))

theorem c_3_5 : Same keptL57 (W3 (F := Ideal) m ρ c) (W5 (F := Ideal) m ρ c) := (s_3_4 m ρ c).trans (s_4_5 m ρ c)
theorem c_3_6 : Same keptL57 (W3 (F := Ideal) m ρ c) (W6 (F := Ideal) m ρ c) := (c_3_5 m ρ c).trans ((s_5_6 m ρ c).sub (by decide))
theorem c_3_7 : Same keptL57 (W3 (F := Ideal) m ρ c) (W7 (F := Ideal) m ρ c) := (c_3_6 m ρ c).trans ((s_6_7 m ρ c).sub (by decide))
theorem c_3_8 : Same keptL57 (W3 (F := Ideal) m ρ c) (W8 (F := Ideal) m ρ c) := (c_3_7 m ρ c).trans (s_7_8 m ρ c)
theorem c_3_9 : Same keptL7 (W3 (F := Ideal) m ρ c) (W9 (F := Ideal) m ρ c) := ((c_3_8 m ρ c).sub (by decide)).trans (s_8_9 m ρ c)
theorem c_3_10 : Same keptL7 (W3 (F := Ideal) m ρ c) (W10 (F := Ideal) m ρ c) := (c_3_9 m ρ c).trans (s_9_10 m ρ c)
theorem c_3_11 : Same keptL7 (W3 (F := Ideal) m ρ c) (W11 (F := Ideal) m ρ c) := (c_3_10 m ρ c).trans ((s_10_11 m ρ c).sub (by decide))
theorem c_3_12 : Same keptL7 (W3 (F := Ideal) m ρ c) (W12 (F := Ideal) m ρ c) := (c_3_11 m ρ c).trans ((s_11_12 m ρ c).sub (by decide))
theorem c_3_13 : Same keptL7 (W3 (F := Ideal) m ρ c) (W13 (F := Ideal) m ρ c) := (c_3_12 m ρ c).trans (s_12_13 m ρ c)
theorem c_3_14 : Same keptL (W3 (F := Ideal) m ρ c) (W14 (F := Ideal) m ρ c) := ((c_3_13 m ρ c).sub (by decide)).trans (s_13_14 m ρ c)

/-- The edge list and the norms at the first region's entry. -/
theorem at3 : W3 (F := Ideal) m ρ c (Proc.devRef .tc main_v5) = sIx m c ∧ W3 (F := Ideal) m ρ c (Proc.devRef .tc main_v6) = dIx m c ∧ W3 (F := Ideal) m ρ c (Proc.devRef .tc main_v31) = nrm m c := by
  have f1_5 : W1 (F := Ideal) m ρ c (Proc.devRef .tc main_v5) = sIx m c := h0_v5 _
  have f1_6 : W1 (F := Ideal) m ρ c (Proc.devRef .tc main_v6) = dIx m c := h0_v6 _
  have f1_8 : W1 (F := Ideal) m ρ c (Proc.devRef .tc main_v8) = wts m c := h0_v8 _
  have f1_13 : W1 (F := Ideal) m ρ c (Proc.devRef .tc main_v13) = cmpf .ogt (degOf (dIx m c) (wts m c)) (broadcastInDim S50000 ![] bcast_S_S50000 (constant (F := Ideal) S_ .f32 0x00000000#32)) := h0_v13 _
  have f1_14 : W1 (F := Ideal) m ρ c (Proc.devRef .tc main_v14) = Host.rsqrt (degOf (dIx m c) (wts m c)) := h0_v14 _
  have f1_c2 : W1 (F := Ideal) m ρ c (Proc.devRef .tc main_cst_2) = constant (F := Ideal) S_ .f32 0x00000000#32 := h0_cst2 _
  have f2_15 : W2 (F := Ideal) m ρ c (Proc.devRef .tc main_v15) = dinvOf (degOf (dIx m c) (wts m c)) := by
    have e := h01_v15 (W1 (F := Ideal) m ρ c)
    rw [f1_13, f1_14, f1_c2] at e
    exact e
  have f2_5 : W2 (F := Ideal) m ρ c (Proc.devRef .tc main_v5) = sIx m c := (s_1_2 m ρ c main_v5 (by decide)).trans f1_5
  have f2_6 : W2 (F := Ideal) m ρ c (Proc.devRef .tc main_v6) = dIx m c := (s_1_2 m ρ c main_v6 (by decide)).trans f1_6
  have f2_8 : W2 (F := Ideal) m ρ c (Proc.devRef .tc main_v8) = wts m c := (s_1_2 m ρ c main_v8 (by decide)).trans f1_8
  refine ⟨(s_2_3 m ρ c main_v5 (by decide)).trans f2_5, (s_2_3 m ρ c main_v6 (by decide)).trans f2_6, ?_⟩
  have e := h02_v31 (W2 (F := Ideal) m ρ c)
  rw [f2_15, f2_5, f2_6, f2_8] at e
  exact e

/-- The result buffer at the last boundary is the network of the launch contents of the arguments, given that each
    region's output array is the dense product, resp. the normalisation step, of its input arrays. -/
theorem out_value
    (hmm0 : ∀ (V : (c : Dev nD) → (b : Ref sig .tc) → Buf (Elt Ideal) ((c : Thread nD τ).loc b)) (c : Dev nD),
      (dat0 (F := Ideal) V c).arrAt 2 cfg0.N = Cert.Spec.dense128 (F := Ideal) (V c main_arg0) (V c main_arg3))
    (hmm2 : ∀ (V : (c : Dev nD) → (b : Ref sig .tc) → Buf (Elt Ideal) ((c : Thread nD τ).loc b)) (c : Dev nD),
      (dat2 (F := Ideal) V c).arrAt 2 cfg2.N = Cert.Spec.dense128 (F := Ideal) (V c main_v57) (V c main_arg5))
    (hmm4 : ∀ (V : (c : Dev nD) → (b : Ref sig .tc) → Buf (Elt Ideal) ((c : Thread nD τ).loc b)) (c : Dev nD),
      (dat4 (F := Ideal) V c).arrAt 2 cfg4.N = Cert.Spec.dense64 (F := Ideal) (V c main_v83) (V c main_arg7))
    (hbn1 : ∀ (V : (c : Dev nD) → (b : Ref sig .tc) → Buf (Elt Ideal) ((c : Thread nD τ).loc b)) (c : Dev nD)
      (g be mu var : (⟨Cert.ReferenceIdeal.S128, .f32⟩ : BufTy).Contents (Elt Ideal)),
      V c main_v53 = shapeCast S1x128 g shapeCasts_S128_S1x128 → V c main_v54 = shapeCast S1x128 be shapeCasts_S128_S1x128 →
      V c main_v55 = shapeCast S1x128 mu shapeCasts_S128_S1x128 → V c main_v56 = shapeCast S1x128 var shapeCasts_S128_S1x128 →
      (dat1 (F := Ideal) V c).arrAt 5 cfg1.N = Cert.Spec.bnApply (F := Ideal) (V c main_v48) g be mu var)
    (hbn3 : ∀ (V : (c : Dev nD) → (b : Ref sig .tc) → Buf (Elt Ideal) ((c : Thread nD τ).loc b)) (c : Dev nD)
      (g be mu var : (⟨Cert.ReferenceIdeal.S128, .f32⟩ : BufTy).Contents (Elt Ideal)),
      V c main_v79 = shapeCast S1x128 g shapeCasts_S128_S1x128 → V c main_v80 = shapeCast S1x128 be shapeCasts_S128_S1x128 →
      V c main_v81 = shapeCast S1x128 mu shapeCasts_S128_S1x128 → V c main_v82 = shapeCast S1x128 var shapeCasts_S128_S1x128 →
      (dat3 (F := Ideal) V c).arrAt 5 cfg3.N = Cert.Spec.bnApply (F := Ideal) (V c main_v74) g be mu var)
    (c : Dev nD) :
    W15 (F := Ideal) m ρ c (Proc.devRef .tc main_v100)
      = Cert.Spec.network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  obtain ⟨f3_5, f3_6, f3_31⟩ := at3 m ρ c
  have A3 := args3 m ρ c
  -- the first product
  have f4_32 : W4 (F := Ideal) m ρ c (Proc.devRef .tc main_v32) = dense128 (F := Ideal) (m ((c : Thread nD τ).loc main_arg0)) (m ((c : Thread nD τ).loc main_arg3)) := by
    have e : W4 (F := Ideal) m ρ c (Proc.devRef .tc main_v32) = dense128 (F := Ideal) (W3 (F := Ideal) m ρ c (Proc.devRef .tc main_arg0)) (W3 (F := Ideal) m ρ c (Proc.devRef .tc main_arg3)) := (W4_arr m ρ c 2).trans (hmm0 (V3 m ρ) c)
    rw [A3 main_arg0 (by decide), A3 main_arg3 (by decide)] at e
    exact e
  -- the first aggregation, its column statistics, the first normalisation
  have f5_48 : W5 (F := Ideal) m ρ c (Proc.devRef .tc main_v48) = lay1 m c := by
    have e := h1_v48 (W4 (F := Ideal) m ρ c)
    rw [f4_32, (s_3_4 m ρ c main_v5 (by decide)).trans f3_5, (s_3_4 m ρ c main_v6 (by decide)).trans f3_6,
      (s_3_4 m ρ c main_v31 (by decide)).trans f3_31, (s_3_4 m ρ c main_arg4 (by decide)).trans (A3 main_arg4 (by decide))] at e
    exact e
  have f5_51 : W5 (F := Ideal) m ρ c (Proc.devRef .tc main_v51) = colMean (lay1 m c) := by
    have e := h1_v51 (W4 (F := Ideal) m ρ c)
    rw [f4_32, (s_3_4 m ρ c main_v5 (by decide)).trans f3_5, (s_3_4 m ρ c main_v6 (by decide)).trans f3_6,
      (s_3_4 m ρ c main_v31 (by decide)).trans f3_31, (s_3_4 m ρ c main_arg4 (by decide)).trans (A3 main_arg4 (by decide))] at e
    exact e
  have f6_52 : W6 (F := Ideal) m ρ c (Proc.devRef .tc main_v52) = colVar (lay1 m c) := by
    have e := h11_v52 (W5 (F := Ideal) m ρ c) (h1_c11 (W4 (F := Ideal) m ρ c))
    rw [f5_48] at e
    exact e
  have f6_48 : W6 (F := Ideal) m ρ c (Proc.devRef .tc main_v48) = lay1 m c := (s_5_6 m ρ c main_v48 (by decide)).trans f5_48
  have f6_51 : W6 (F := Ideal) m ρ c (Proc.devRef .tc main_v51) = colMean (lay1 m c) := (s_5_6 m ρ c main_v51 (by decide)).trans f5_51
  have f7_53 : W7 (F := Ideal) m ρ c (Proc.devRef .tc main_v53) = shapeCast S1x128 (m ((c : Thread nD τ).loc main_arg9)) shapeCasts_S128_S1x128 := by
    have e := h12_v53 (W6 (F := Ideal) m ρ c)
    rw [(c_3_6 m ρ c main_arg9 (by decide)).trans (A3 main_arg9 (by decide))] at e
    exact e
  have f7_54 : W7 (F := Ideal) m ρ c (Proc.devRef .tc main_v54) = shapeCast S1x128 (m ((c : Thread nD τ).loc main_arg10)) shapeCasts_S128_S1x128 := by
    have e := h12_v54 (W6 (F := Ideal) m ρ c)
    rw [(c_3_6 m ρ c main_arg10 (by decide)).trans (A3 main_arg10 (by decide))] at e
    exact e
  have f7_55 : W7 (F := Ideal) m ρ c (Proc.devRef .tc main_v55) = shapeCast S1x128 (colMean (lay1 m c)) shapeCasts_S128_S1x128 := by
    have e := h12_v55 (W6 (F := Ideal) m ρ c)
    rw [f6_51] at e
    exact e
  have f7_56 : W7 (F := Ideal) m ρ c (Proc.devRef .tc main_v56) = shapeCast S1x128 (colVar (lay1 m c)) shapeCasts_S128_S1x128 := by
    have e := h12_v56 (W6 (F := Ideal) m ρ c)
    rw [f6_52] at e
    exact e
  have f7_48 : W7 (F := Ideal) m ρ c (Proc.devRef .tc main_v48) = lay1 m c := (s_6_7 m ρ c main_v48 (by decide)).trans f6_48
  have f8_57 : W8 (F := Ideal) m ρ c (Proc.devRef .tc main_v57) = act1 m c := by
    have e : W8 (F := Ideal) m ρ c (Proc.devRef .tc main_v57) = bnApply (F := Ideal) (W7 (F := Ideal) m ρ c (Proc.devRef .tc main_v48)) (m ((c : Thread nD τ).loc main_arg9)) (m ((c : Thread nD τ).loc main_arg10)) (colMean (lay1 m c)) (colVar (lay1 m c)) :=
      (W8_arr m ρ c 5).trans (hbn1 (V7 m ρ) c _ _ _ _ f7_53 f7_54 f7_55 f7_56)
    rw [f7_48] at e
    exact e
  -- the second product, aggregation, statistics, normalisation
  have f9_58 : W9 (F := Ideal) m ρ c (Proc.devRef .tc main_v58) = dense128 (act1 m c) (m ((c : Thread nD τ).loc main_arg5)) := by
    have e : W9 (F := Ideal) m ρ c (Proc.devRef .tc main_v58) = dense128 (F := Ideal) (W8 (F := Ideal) m ρ c (Proc.devRef .tc main_v57)) (W8 (F := Ideal) m ρ c (Proc.devRef .tc main_arg5)) := (W9_arr m ρ c 2).trans (hmm2 (V8 m ρ) c)
    rw [f8_57, (c_3_8 m ρ c main_arg5 (by decide)).trans (A3 main_arg5 (by decide))] at e
    exact e
  have f10_74 : W10 (F := Ideal) m ρ c (Proc.devRef .tc main_v74) = lay2 m c := by
    have e := h3_v74 (W9 (F := Ideal) m ρ c)
    rw [f9_58, (c_3_9 m ρ c main_v5 (by decide)).trans f3_5, (c_3_9 m ρ c main_v6 (by decide)).trans f3_6,
      (c_3_9 m ρ c main_v31 (by decide)).trans f3_31, (c_3_9 m ρ c main_arg6 (by decide)).trans (A3 main_arg6 (by decide))] at e
    exact e
  have f10_77 : W10 (F := Ideal) m ρ c (Proc.devRef .tc main_v77) = colMean (lay2 m c) := by
    have e := h3_v77 (W9 (F := Ideal) m ρ c)
    rw [f9_58, (c_3_9 m ρ c main_v5 (by decide)).trans f3_5, (c_3_9 m ρ c main_v6 (by decide)).trans f3_6,
      (c_3_9 m ρ c main_v31 (by decide)).trans f3_31, (c_3_9 m ρ c main_arg6 (by decide)).trans (A3 main_arg6 (by decide))] at e
    exact e
  have f11_78 : W11 (F := Ideal) m ρ c (Proc.devRef .tc main_v78) = colVar (lay2 m c) := by
    have e := h31_v78 (W10 (F := Ideal) m ρ c) (h3_c17 (W9 (F := Ideal) m ρ c))
    rw [f10_74] at e
    exact e
  have f11_74 : W11 (F := Ideal) m ρ c (Proc.devRef .tc main_v74) = lay2 m c := (s_10_11 m ρ c main_v74 (by decide)).trans f10_74
  have f11_77 : W11 (F := Ideal) m ρ c (Proc.devRef .tc main_v77) = colMean (lay2 m c) := (s_10_11 m ρ c main_v77 (by decide)).trans f10_77
  have f12_79 : W12 (F := Ideal) m ρ c (Proc.devRef .tc main_v79) = shapeCast S1x128 (m ((c : Thread nD τ).loc main_arg11)) shapeCasts_S128_S1x128 := by
    have e := h32_v79 (W11 (F := Ideal) m ρ c)
    rw [(c_3_11 m ρ c main_arg11 (by decide)).trans (A3 main_arg11 (by decide))] at e
    exact e
  have f12_80 : W12 (F := Ideal) m ρ c (Proc.devRef .tc main_v80) = shapeCast S1x128 (m ((c : Thread nD τ).loc main_arg12)) shapeCasts_S128_S1x128 := by
    have e := h32_v80 (W11 (F := Ideal) m ρ c)
    rw [(c_3_11 m ρ c main_arg12 (by decide)).trans (A3 main_arg12 (by decide))] at e
    exact e
  have f12_81 : W12 (F := Ideal) m ρ c (Proc.devRef .tc main_v81) = shapeCast S1x128 (colMean (lay2 m c)) shapeCasts_S128_S1x128 := by
    have e := h32_v81 (W11 (F := Ideal) m ρ c)
    rw [f11_77] at e
    exact e
  have f12_82 : W12 (F := Ideal) m ρ c (Proc.devRef .tc main_v82) = shapeCast S1x128 (colVar (lay2 m c)) shapeCasts_S128_S1x128 := by
    have e := h32_v82 (W11 (F := Ideal) m ρ c)
    rw [f11_78] at e
    exact e
  have f12_74 : W12 (F := Ideal) m ρ c (Proc.devRef .tc main_v74) = lay2 m c := (s_11_12 m ρ c main_v74 (by decide)).trans f11_74
  have f13_83 : W13 (F := Ideal) m ρ c (Proc.devRef .tc main_v83) = act2 m c := by
    have e : W13 (F := Ideal) m ρ c (Proc.devRef .tc main_v83) = bnApply (F := Ideal) (W12 (F := Ideal) m ρ c (Proc.devRef .tc main_v74)) (m ((c : Thread nD τ).loc main_arg11)) (m ((c : Thread nD τ).loc main_arg12)) (colMean (lay2 m c)) (colVar (lay2 m c)) :=
      (W13_arr m ρ c 5).trans (hbn3 (V12 m ρ) c _ _ _ _ f12_79 f12_80 f12_81 f12_82)
    rw [f12_74] at e
    exact e
  -- the third product and the last aggregation
  have f14_84 : W14 (F := Ideal) m ρ c (Proc.devRef .tc main_v84) = dense64 (act2 m c) (m ((c : Thread nD τ).loc main_arg7)) := by
    have e : W14 (F := Ideal) m ρ c (Proc.devRef .tc main_v84) = dense64 (F := Ideal) (W13 (F := Ideal) m ρ c (Proc.devRef .tc main_v83)) (W13 (F := Ideal) m ρ c (Proc.devRef .tc main_arg7)) := (W14_arr m ρ c 2).trans (hmm4 (V13 m ρ) c)
    rw [f13_83, (c_3_13 m ρ c main_arg7 (by decide)).trans (A3 main_arg7 (by decide))] at e
    exact e
  have e := h5_v100 (W14 (F := Ideal) m ρ c)
  rw [f14_84, (c_3_14 m ρ c main_v5 (by decide)).trans f3_5, (c_3_14 m ρ c main_v6 (by decide)).trans f3_6,
    (c_3_14 m ρ c main_v31 (by decide)).trans f3_31, (c_3_14 m ρ c main_arg8 (by decide)).trans (A3 main_arg8 (by decide))] at e
  exact e

end Cert.KernelIdeal.HostValue
end
-- ==== Proof.MatmulRegion.lean ====
/-
  The three dense products of the graph network, region by region: each region's output array, as a whole array, is the
  product of its input array with its weight array.

  A region runs its body at ten grid points.  Point t loads rows 5000·t … 5000·t + 4999 of the input and the whole weight
  array, casts both to bf16 (the identity on the extended reals), multiplies them into a zero accumulator, and stores the
  5000-row result, which is written back to rows 5000·t … 5000·t + 4999 of the output.  So entry (5000·t + p, q) of the
  output is  0 + Σ_k x(5000·t + p, k) · w(k, q),  and the whole product at (r, q) is  Σ_k x(r, k) · w(k, q):  the two
  agree by 0 + s = s, which holds on all of the extended reals, so no finiteness is used.
-/
import proofs.«101731_j90555090469651_1_alg».proof.Proof.Gen.KernelIdeal.Frame
import proofs.«101731_j90555090469651_1_alg».proof.Proof.Gen.ReferenceIdeal
import proofs.«101731_j90555090469651_1_alg».proof.Proof.Spec
import Idealize.ShloMosaic.PureOps.Ideal
import Idealize.ShloMosaic.PureOps.Ideal.Laws
import Idealize.ShloMosaic.Lib.ValueIdx
import Idealize.ShloMosaic.Lib.Pipeline.Value

noncomputable section
namespace Cert.KernelIdeal.RegionValue
open Cert.KernelIdeal Cert.KernelIdeal.Gen Idealize.ShloMosaic Idealize.ShloMosaic.TcCoe Idealize.SL.Sem
open Idealize.ShloMosaic.ValueIdx

namespace Matmul

/-! ## The contraction of a two-dimensional product, coordinate by coordinate

For each of the four products (the kernels' 5000-row blocks and the whole arrays; 128 or 64 output columns): the left
operand's index at output index i and contraction index κ is (i 0, κ), the right operand's is (κ, i 1); summing over the
contraction index is summing over its one coordinate. -/

theorem blockDot128_lhs0 (i : S5000x128.Idx) (κ : (dot_S5000x128_S128x128_S5000x128_1_0_0_1_n_n).contr.Idx) :
    ((dot_S5000x128_S128x128_S5000x128_1_0_0_1_n_n).lhsIdx i κ 0).val = (i 0).val := by
  unfold DotDims.lhsIdx
  rw [dif_neg (show ¬(0 : Fin S5000x128.rank) ∈ (dot_S5000x128_S128x128_S5000x128_1_0_0_1_n_n).lhsBatch by decide),
    dif_pos (show (0 : Fin S5000x128.rank) ∈ (dot_S5000x128_S128x128_S5000x128_1_0_0_1_n_n).lhsNonContracting by decide)]
  rfl
theorem blockDot128_lhs1 (i : S5000x128.Idx) (κ : (dot_S5000x128_S128x128_S5000x128_1_0_0_1_n_n).contr.Idx) :
    ((dot_S5000x128_S128x128_S5000x128_1_0_0_1_n_n).lhsIdx i κ 1).val = (κ ⟨0, by decide⟩).val :=
  (dot_S5000x128_S128x128_S5000x128_1_0_0_1_n_n).lhsIdx_val_of_single rfl i κ
theorem blockDot128_rhs0 (i : S5000x128.Idx) (κ : (dot_S5000x128_S128x128_S5000x128_1_0_0_1_n_n).contr.Idx) :
    ((dot_S5000x128_S128x128_S5000x128_1_0_0_1_n_n).rhsIdx i κ 0).val = (κ ⟨0, by decide⟩).val :=
  (dot_S5000x128_S128x128_S5000x128_1_0_0_1_n_n).rhsIdx_val_of_single rfl i κ
theorem blockDot128_rhs1 (i : S5000x128.Idx) (κ : (dot_S5000x128_S128x128_S5000x128_1_0_0_1_n_n).contr.Idx) :
    ((dot_S5000x128_S128x128_S5000x128_1_0_0_1_n_n).rhsIdx i κ 1).val = (i 1).val := by
  unfold DotDims.rhsIdx
  rw [dif_neg (show ¬(1 : Fin S128x128.rank) ∈ (dot_S5000x128_S128x128_S5000x128_1_0_0_1_n_n).rhsBatch by decide),
    dif_pos (show (1 : Fin S128x128.rank) ∈ (dot_S5000x128_S128x128_S5000x128_1_0_0_1_n_n).rhsNonContracting by decide)]
  rfl

/-- A 5000 × 128 block times the 128 × 128 weights, the contraction written over its one coordinate: entry (p, q) sums A(p, k) · B(k, q) over the 128 values of k. -/
theorem blockDot128_sum (A : S5000x128.Idx → EReal) (B : S128x128.Idx → EReal) (p : Fin 5000) (q : Fin 128) :
    ∑ κ : (dot_S5000x128_S128x128_S5000x128_1_0_0_1_n_n).contr.Idx, A ((dot_S5000x128_S128x128_S5000x128_1_0_0_1_n_n).lhsIdx (ix2 p q) κ) * B ((dot_S5000x128_S128x128_S5000x128_1_0_0_1_n_n).rhsIdx (ix2 p q) κ)
      = ∑ k : Fin 128, A (ix2 p k) * B (ix2 k q) := by
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : (dot_S5000x128_S128x128_S5000x128_1_0_0_1_n_n).lhsIdx (ix2 p q) ((contrEquiv1 dot_S5000x128_S128x128_S5000x128_1_0_0_1_n_n 128 rfl rfl).symm k) = ix2 p k :=
    funext fun a => Fin.ext (by
      match a with
      | ⟨0, _⟩ => exact blockDot128_lhs0 _ _
      | ⟨1, _⟩ => exact (blockDot128_lhs1 _ _).trans hk)
  have er : (dot_S5000x128_S128x128_S5000x128_1_0_0_1_n_n).rhsIdx (ix2 p q) ((contrEquiv1 dot_S5000x128_S128x128_S5000x128_1_0_0_1_n_n 128 rfl rfl).symm k) = ix2 k q :=
    funext fun a => Fin.ext (by
      match a with
      | ⟨0, _⟩ => exact (blockDot128_rhs0 _ _).trans hk
      | ⟨1, _⟩ => exact blockDot128_rhs1 _ _)
  rw [el, er]

theorem blockDot64_lhs0 (i : S5000x64.Idx) (κ : (dot_S5000x128_S128x64_S5000x64_1_0_0_1_n_n).contr.Idx) :
    ((dot_S5000x128_S128x64_S5000x64_1_0_0_1_n_n).lhsIdx i κ 0).val = (i 0).val := by
  unfold DotDims.lhsIdx
  rw [dif_neg (show ¬(0 : Fin S5000x128.rank) ∈ (dot_S5000x128_S128x64_S5000x64_1_0_0_1_n_n).lhsBatch by decide),
    dif_pos (show (0 : Fin S5000x128.rank) ∈ (dot_S5000x128_S128x64_S5000x64_1_0_0_1_n_n).lhsNonContracting by decide)]
  rfl
theorem blockDot64_lhs1 (i : S5000x64.Idx) (κ : (dot_S5000x128_S128x64_S5000x64_1_0_0_1_n_n).contr.Idx) :
    ((dot_S5000x128_S128x64_S5000x64_1_0_0_1_n_n).lhsIdx i κ 1).val = (κ ⟨0, by decide⟩).val :=
  (dot_S5000x128_S128x64_S5000x64_1_0_0_1_n_n).lhsIdx_val_of_single rfl i κ
theorem blockDot64_rhs0 (i : S5000x64.Idx) (κ : (dot_S5000x128_S128x64_S5000x64_1_0_0_1_n_n).contr.Idx) :
    ((dot_S5000x128_S128x64_S5000x64_1_0_0_1_n_n).rhsIdx i κ 0).val = (κ ⟨0, by decide⟩).val :=
  (dot_S5000x128_S128x64_S5000x64_1_0_0_1_n_n).rhsIdx_val_of_single rfl i κ
theorem blockDot64_rhs1 (i : S5000x64.Idx) (κ : (dot_S5000x128_S128x64_S5000x64_1_0_0_1_n_n).contr.Idx) :
    ((dot_S5000x128_S128x64_S5000x64_1_0_0_1_n_n).rhsIdx i κ 1).val = (i 1).val := by
  unfold DotDims.rhsIdx
  rw [dif_neg (show ¬(1 : Fin S128x64.rank) ∈ (dot_S5000x128_S128x64_S5000x64_1_0_0_1_n_n).rhsBatch by decide),
    dif_pos (show (1 : Fin S128x64.rank) ∈ (dot_S5000x128_S128x64_S5000x64_1_0_0_1_n_n).rhsNonContracting by decide)]
  rfl

/-- The same for the 128 × 64 weights: entry (p, q) of the 5000 × 64 block sums A(p, k) · B(k, q) over the 128 values of k. -/
theorem blockDot64_sum (A : S5000x128.Idx → EReal) (B : S128x64.Idx → EReal) (p : Fin 5000) (q : Fin 64) :
    ∑ κ : (dot_S5000x128_S128x64_S5000x64_1_0_0_1_n_n).contr.Idx, A ((dot_S5000x128_S128x64_S5000x64_1_0_0_1_n_n).lhsIdx (ix2 p q) κ) * B ((dot_S5000x128_S128x64_S5000x64_1_0_0_1_n_n).rhsIdx (ix2 p q) κ)
      = ∑ k : Fin 128, A (ix2 p k) * B (ix2 k q) := by
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : (dot_S5000x128_S128x64_S5000x64_1_0_0_1_n_n).lhsIdx (ix2 p q) ((contrEquiv1 dot_S5000x128_S128x64_S5000x64_1_0_0_1_n_n 128 rfl rfl).symm k) = ix2 p k :=
    funext fun a => Fin.ext (by
      match a with
      | ⟨0, _⟩ => exact blockDot64_lhs0 _ _
      | ⟨1, _⟩ => exact (blockDot64_lhs1 _ _).trans hk)
  have er : (dot_S5000x128_S128x64_S5000x64_1_0_0_1_n_n).rhsIdx (ix2 p q) ((contrEquiv1 dot_S5000x128_S128x64_S5000x64_1_0_0_1_n_n 128 rfl rfl).symm k) = ix2 k q :=
    funext fun a => Fin.ext (by
      match a with
      | ⟨0, _⟩ => exact (blockDot64_rhs0 _ _).trans hk
      | ⟨1, _⟩ => exact blockDot64_rhs1 _ _)
  rw [el, er]

theorem wholeDot128_lhs0 (i : Cert.ReferenceIdeal.S50000x128.Idx) (κ : (Cert.ReferenceIdeal.dot_S50000x128_S128x128_S50000x128_1_0_0_1_n_n).contr.Idx) :
    ((Cert.ReferenceIdeal.dot_S50000x128_S128x128_S50000x128_1_0_0_1_n_n).lhsIdx i κ 0).val = (i 0).val := by
  unfold DotDims.lhsIdx
  rw [dif_neg (show ¬(0 : Fin Cert.ReferenceIdeal.S50000x128.rank) ∈ (Cert.ReferenceIdeal.dot_S50000x128_S128x128_S50000x128_1_0_0_1_n_n).lhsBatch by decide),
    dif_pos (show (0 : Fin Cert.ReferenceIdeal.S50000x128.rank) ∈ (Cert.ReferenceIdeal.dot_S50000x128_S128x128_S50000x128_1_0_0_1_n_n).lhsNonContracting by decide)]
  rfl
theorem wholeDot128_lhs1 (i : Cert.ReferenceIdeal.S50000x128.Idx) (κ : (Cert.ReferenceIdeal.dot_S50000x128_S128x128_S50000x128_1_0_0_1_n_n).contr.Idx) :
    ((Cert.ReferenceIdeal.dot_S50000x128_S128x128_S50000x128_1_0_0_1_n_n).lhsIdx i κ 1).val = (κ ⟨0, by decide⟩).val :=
  (Cert.ReferenceIdeal.dot_S50000x128_S128x128_S50000x128_1_0_0_1_n_n).lhsIdx_val_of_single rfl i κ
theorem wholeDot128_rhs0 (i : Cert.ReferenceIdeal.S50000x128.Idx) (κ : (Cert.ReferenceIdeal.dot_S50000x128_S128x128_S50000x128_1_0_0_1_n_n).contr.Idx) :
    ((Cert.ReferenceIdeal.dot_S50000x128_S128x128_S50000x128_1_0_0_1_n_n).rhsIdx i κ 0).val = (κ ⟨0, by decide⟩).val :=
  (Cert.ReferenceIdeal.dot_S50000x128_S128x128_S50000x128_1_0_0_1_n_n).rhsIdx_val_of_single rfl i κ
theorem wholeDot128_rhs1 (i : Cert.ReferenceIdeal.S50000x128.Idx) (κ : (Cert.ReferenceIdeal.dot_S50000x128_S128x128_S50000x128_1_0_0_1_n_n).contr.Idx) :
    ((Cert.ReferenceIdeal.dot_S50000x128_S128x128_S50000x128_1_0_0_1_n_n).rhsIdx i κ 1).val = (i 1).val := by
  unfold DotDims.rhsIdx
  rw [dif_neg (show ¬(1 : Fin Cert.ReferenceIdeal.S128x128.rank) ∈ (Cert.ReferenceIdeal.dot_S50000x128_S128x128_S50000x128_1_0_0_1_n_n).rhsBatch by decide),
    dif_pos (show (1 : Fin Cert.ReferenceIdeal.S128x128.rank) ∈ (Cert.ReferenceIdeal.dot_S50000x128_S128x128_S50000x128_1_0_0_1_n_n).rhsNonContracting by decide)]
  rfl

/-- The whole 50000 × 128 array times the 128 × 128 weights: entry (r, q) sums A(r, k) · B(k, q) over the 128 values of k. -/
theorem wholeDot128_sum (A : Cert.ReferenceIdeal.S50000x128.Idx → EReal) (B : Cert.ReferenceIdeal.S128x128.Idx → EReal) (p : Fin 50000) (q : Fin 128) :
    ∑ κ : (Cert.ReferenceIdeal.dot_S50000x128_S128x128_S50000x128_1_0_0_1_n_n).contr.Idx, A ((Cert.ReferenceIdeal.dot_S50000x128_S128x128_S50000x128_1_0_0_1_n_n).lhsIdx (ix2 p q) κ) * B ((Cert.ReferenceIdeal.dot_S50000x128_S128x128_S50000x128_1_0_0_1_n_n).rhsIdx (ix2 p q) κ)
      = ∑ k : Fin 128, A (ix2 p k) * B (ix2 k q) := by
  rw [← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : (Cert.ReferenceIdeal.dot_S50000x128_S128x128_S50000x128_1_0_0_1_n_n).lhsIdx (ix2 p q) ((contrEquiv1 Cert.ReferenceIdeal.dot_S50000x128_S128x128_S50000x128_1_0_0_1_n_n 128 rfl rfl).symm k) = ix2 p k :=
    funext fun a => Fin.ext (by
      match a with
      | ⟨0, _⟩ => exact wholeDot128_lhs0 _ _
      | ⟨1, _⟩ => exact (wholeDot128_lhs1 _ _).trans hk)
  have er : (Cert.ReferenceIdeal.dot_S50000x128_S128x128_S50000x128_1_0_0_1_n_n).rhsIdx (ix2 p q) ((contrEquiv1 Cert.ReferenceIdeal.dot_S50000x128_S128x128_S50000x128_1_0_0_1_n_n 128 rfl rfl).symm k) = ix2 k q :=
    funext fun a => Fin.ext (by
      match a with
      | ⟨0, _⟩ => exact (wholeDot128_rhs0 _ _).trans hk
      | ⟨1, _⟩ => exact wholeDot128_rhs1 _ _)
  rw [el, er]

theorem wholeDot64_lhs0 (i : Cert.ReferenceIdeal.S50000x64.Idx) (κ : (Cert.ReferenceIdeal.dot_S50000x128_S128x64_S50000x64_1_0_0_1_n_n).contr.Idx) :
    ((Cert.ReferenceIdeal.dot_S50000x128_S128x64_S50000x64_1_0_0_1_n_n).lhsIdx i κ 0).val = (i 0).val := by
  unfold DotDims.lhsIdx
  rw [dif_neg (show ¬(0 : Fin Cert.ReferenceIdeal.S50000x128.rank) ∈ (Cert.ReferenceIdeal.dot_S50000x128_S128x64_S50000x64_1_0_0_1_n_n).lhsBatch by decide),
    dif_pos (show (0 : Fin Cert.ReferenceIdeal.S50000x128.rank) ∈ (Cert.ReferenceIdeal.dot_S50000x128_S128x64_S50000x64_1_0_0_1_n_n).lhsNonContracting by decide)]
  rfl
theorem wholeDot64_lhs1 (i : Cert.ReferenceIdeal.S50000x64.Idx) (κ : (Cert.ReferenceIdeal.dot_S50000x128_S128x64_S50000x64_1_0_0_1_n_n).contr.Idx) :
    ((Cert.ReferenceIdeal.dot_S50000x128_S128x64_S50000x64_1_0_0_1_n_n).lhsIdx i κ 1).val = (κ ⟨0, by decide⟩).val :=
  (Cert.ReferenceIdeal.dot_S50000x128_S128x64_S50000x64_1_0_0_1_n_n).lhsIdx_val_of_single rfl i κ
theorem wholeDot64_rhs0 (i : Cert.ReferenceIdeal.S50000x64.Idx) (κ : (Cert.ReferenceIdeal.dot_S50000x128_S128x64_S50000x64_1_0_0_1_n_n).contr.Idx) :
    ((Cert.ReferenceIdeal.dot_S50000x128_S128x64_S50000x64_1_0_0_1_n_n).rhsIdx i κ 0).val = (κ ⟨0, by decide⟩).val :=
  (Cert.ReferenceIdeal.dot_S50000x128_S128x64_S50000x64_1_0_0_1_n_n).rhsIdx_val_of_single rfl i κ
theorem wholeDot64_rhs1 (i : Cert.ReferenceIdeal.S50000x64.Idx) (κ : (Cert.ReferenceIdeal.dot_S50000x128_S128x64_S50000x64_1_0_0_1_n_n).contr.Idx) :
    ((Cert.ReferenceIdeal.dot_S50000x128_S128x64_S50000x64_1_0_0_1_n_n).rhsIdx i κ 1).val = (i 1).val := by
  unfold DotDims.rhsIdx
  rw [dif_neg (show ¬(1 : Fin Cert.ReferenceIdeal.S128x64.rank) ∈ (Cert.ReferenceIdeal.dot_S50000x128_S128x64_S50000x64_1_0_0_1_n_n).rhsBatch by decide),
    dif_pos (show (1 : Fin Cert.ReferenceIdeal.S128x64.rank) ∈ (Cert.ReferenceIdeal.dot_S50000x128_S128x64_S50000x64_1_0_0_1_n_n).rhsNonContracting by decide)]
  rfl

/-- The whole 50000 × 128 array times the 128 × 64 weights: entry (r, q) sums A(r, k) · B(k, q) over the 128 values of k. -/
theorem wholeDot64_sum (A : Cert.ReferenceIdeal.S50000x128.Idx → EReal) (B : Cert.ReferenceIdeal.S128x64.Idx → EReal) (p : Fin 50000) (q : Fin 64) :
    ∑ κ : (Cert.ReferenceIdeal.dot_S50000x128_S128x64_S50000x64_1_0_0_1_n_n).contr.Idx, A ((Cert.ReferenceIdeal.dot_S50000x128_S128x64_S50000x64_1_0_0_1_n_n).lhsIdx (ix2 p q) κ) * B ((Cert.ReferenceIdeal.dot_S50000x128_S128x64_S50000x64_1_0_0_1_n_n).rhsIdx (ix2 p q) κ)
      = ∑ k : Fin 128, A (ix2 p k) * B (ix2 k q) := by
  rw [← Equiv.sum_comp (contrEquiv1 Cert.ReferenceIdeal.dot_S50000x128_S128x64_S50000x64_1_0_0_1_n_n 128 rfl rfl).symm]
  refine Finset.sum_congr rfl fun k _ => ?_
  have hk := contrEquiv1_symm_val Cert.ReferenceIdeal.dot_S50000x128_S128x64_S50000x64_1_0_0_1_n_n 128 rfl rfl k
  have el : (Cert.ReferenceIdeal.dot_S50000x128_S128x64_S50000x64_1_0_0_1_n_n).lhsIdx (ix2 p q) ((contrEquiv1 Cert.ReferenceIdeal.dot_S50000x128_S128x64_S50000x64_1_0_0_1_n_n 128 rfl rfl).symm k) = ix2 p k :=
    funext fun a => Fin.ext (by
      match a with
      | ⟨0, _⟩ => exact wholeDot64_lhs0 _ _
      | ⟨1, _⟩ => exact (wholeDot64_lhs1 _ _).trans hk)
  have er : (Cert.ReferenceIdeal.dot_S50000x128_S128x64_S50000x64_1_0_0_1_n_n).rhsIdx (ix2 p q) ((contrEquiv1 Cert.ReferenceIdeal.dot_S50000x128_S128x64_S50000x64_1_0_0_1_n_n 128 rfl rfl).symm k) = ix2 k q :=
    funext fun a => Fin.ext (by
      match a with
      | ⟨0, _⟩ => exact (wholeDot64_rhs0 _ _).trans hk
      | ⟨1, _⟩ => exact wholeDot64_rhs1 _ _)
  rw [el, er]

/-! ## The stored block of each product kernel, and the whole product, at an index

Each kernel body casts its two loaded blocks to bf16 (the identity on the extended reals), multiplies them into a zero
accumulator and stores the result; so its stored entry (p, q) is 0 + Σ_k x(p, k) · w(k, q) = Σ_k x(p, k) · w(k, q).
The whole-array product at (r, q) is Σ_k X(r, k) · W(k, q), with no accumulator.  Nothing here needs finiteness. -/

/-- The first layer's stored block at (p, q). -/
theorem pay0_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  refine (Ideal.matmul_constant_zero_apply dot_S5000x128_S128x128_S5000x128_1_0_0_1_n_n none _ _ (ix2 p q)).trans ?_
  exact blockDot128_sum _ _ p q

/-- The second layer's stored block at (p, q): the same sum (its block is first cast to its own shape, the identity). -/
theorem pay2_apply (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  unfold k2_pay1
  simp only [shapeCast_self]
  refine (Ideal.matmul_constant_zero_apply dot_S5000x128_S128x128_S5000x128_1_0_0_1_n_n none _ _ (ix2 p q)).trans ?_
  exact blockDot128_sum _ _ p q

/-- The third layer's stored block at (p, q), 64 columns. -/
theorem pay4_apply (x0 : Vec Ideal S5000x128 .f32) (x1 : Vec Ideal S128x64 .f32) (p : Fin 5000) (q : Fin 64) :
    k4_pay1 x0 x1 (ix2 p q) = ∑ k : Fin 128, x0 (ix2 p k) * x1 (ix2 k q) := by
  unfold k4_pay1
  simp only [shapeCast_self]
  refine (Ideal.matmul_constant_zero_apply dot_S5000x128_S128x64_S5000x64_1_0_0_1_n_n none _ _ (ix2 p q)).trans ?_
  exact blockDot64_sum _ _ p q

/-- The whole product with 128 × 128 weights at (r, q). -/
theorem dense128_apply (X : (⟨Cert.ReferenceIdeal.S50000x128, .f32⟩ : BufTy).Contents (Elt Ideal))
    (W : (⟨Cert.ReferenceIdeal.S128x128, .f32⟩ : BufTy).Contents (Elt Ideal)) (r : Fin 50000) (q : Fin 128) :
    Cert.Spec.dense128 (F := Ideal) X W (ix2 r q) = ∑ k : Fin 128, X (ix2 r k) * W (ix2 k q) := by
  unfold Cert.Spec.dense128
  refine (Ideal.dotGeneral_apply Cert.ReferenceIdeal.dot_S50000x128_S128x128_S50000x128_1_0_0_1_n_n none _ _ _ (ix2 r q)).trans ?_
  exact wholeDot128_sum _ _ r q

/-- The whole product with 128 × 64 weights at (r, q). -/
theorem dense64_apply (X : (⟨Cert.ReferenceIdeal.S50000x128, .f32⟩ : BufTy).Contents (Elt Ideal))
    (W : (⟨Cert.ReferenceIdeal.S128x64, .f32⟩ : BufTy).Contents (Elt Ideal)) (r : Fin 50000) (q : Fin 64) :
    Cert.Spec.dense64 (F := Ideal) X W (ix2 r q) = ∑ k : Fin 128, X (ix2 r k) * W (ix2 k q) := by
  unfold Cert.Spec.dense64
  refine (Ideal.dotGeneral_apply Cert.ReferenceIdeal.dot_S50000x128_S128x64_S50000x64_1_0_0_1_n_n none _ _ _ (ix2 r q)).trans ?_
  exact wholeDot64_sum _ _ r q

/-- A block of rows against the whole product: when row p of the block x0 is row r of X and the weight block x1 is W,
    entry (p, q) of the first layer's stored block is entry (r, q) of X · W. -/
theorem block_point0 (x0 : Vec Ideal S5000x128 .f32) (x1 : Vec Ideal S128x128 .f32)
    (X : (⟨Cert.ReferenceIdeal.S50000x128, .f32⟩ : BufTy).Contents (Elt Ideal))
    (W : (⟨Cert.ReferenceIdeal.S128x128, .f32⟩ : BufTy).Contents (Elt Ideal))
    (p : Fin 5000) (q : Fin 128) (r : Fin 50000)
    (hx : ∀ k : Fin 128, x0 (ix2 p k) = X (ix2 r k)) (hw : ∀ k : Fin 128, x1 (ix2 k q) = W (ix2 k q)) :
    k0_pay1 x0 x1 (ix2 p q) = Cert.Spec.dense128 (F := Ideal) X W (ix2 r q) := by
  rw [pay0_apply, dense128_apply]
  exact Finset.sum_congr rfl fun k _ => by rw [hx k, hw k]

/-- The same for the second layer's stored block. -/
theorem block_point2 (x0 : Vec Ideal S5000x128 .f32) (x1 : Vec Ideal S128x128 .f32)
    (X : (⟨Cert.ReferenceIdeal.S50000x128, .f32⟩ : BufTy).Contents (Elt Ideal))
    (W : (⟨Cert.ReferenceIdeal.S128x128, .f32⟩ : BufTy).Contents (Elt Ideal))
    (p : Fin 5000) (q : Fin 128) (r : Fin 50000)
    (hx : ∀ k : Fin 128, x0 (ix2 p k) = X (ix2 r k)) (hw : ∀ k : Fin 128, x1 (ix2 k q) = W (ix2 k q)) :
    k2_pay1 x0 x1 (ix2 p q) = Cert.Spec.dense128 (F := Ideal) X W (ix2 r q) := by
  rw [pay2_apply, dense128_apply]
  exact Finset.sum_congr rfl fun k _ => by rw [hx k, hw k]

/-- The same for the third layer's stored block, 64 columns. -/
theorem block_point4 (x0 : Vec Ideal S5000x128 .f32) (x1 : Vec Ideal S128x64 .f32)
    (X : (⟨Cert.ReferenceIdeal.S50000x128, .f32⟩ : BufTy).Contents (Elt Ideal))
    (W : (⟨Cert.ReferenceIdeal.S128x64, .f32⟩ : BufTy).Contents (Elt Ideal))
    (p : Fin 5000) (q : Fin 64) (r : Fin 50000)
    (hx : ∀ k : Fin 128, x0 (ix2 p k) = X (ix2 r k)) (hw : ∀ k : Fin 128, x1 (ix2 k q) = W (ix2 k q)) :
    k4_pay1 x0 x1 (ix2 p q) = Cert.Spec.dense64 (F := Ideal) X W (ix2 r q) := by
  rw [pay4_apply, dense64_apply]
  exact Finset.sum_congr rfl fun k _ => by rw [hx k, hw k]

variable (V : (c : Dev nD) → (b : Ref sig .tc) → Buf (Elt Ideal) ((c : Thread nD τ).loc b))

/-- The zero offsets of a whole-block rectangle, however spelt. -/
theorem hz : (![0, 0] : Fin 2 → Nat) = fun _ => 0 := funext fun a => by fin_cases a <;> rfl

/-! ## Region 0: the first layer's product

The grid has ten points.  At point t the input window holds rows 5000·t … 5000·t + 4999 of the 50000 × 128 input, the
weight window holds the whole 128 × 128 weight array, and the output window's block is rows 5000·t … 5000·t + 4999 of the
50000 × 128 output.  So what point t writes back is that block of rows of input · weights, and the ten blocks cover the
output. -/

/-- The index maps over the ten grid points: block t of each row-blocked array is block row t, block column 0; the
    weights are the one block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the input block at point t is row 5000·t + p of the input array. -/
theorem iblk0_rows (c : Dev nD) (t : Fin cfg0.N) (p : Fin 5000) (k : Fin 128) (r : Fin 50000)
    (hr : r.val = 5000 * t.val + p.val) :
    (iblk0 V c 0 t : Vec Ideal S5000x128 .f32) (ix2 p k) = (V c main_arg0 : S50000x128.Idx → Elt Ideal .f32) (ix2 r k) := by
  obtain ⟨e0, e1, -⟩ := idx0 t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weight block at every point is the weight array. -/
theorem iblk0_weights (c : Dev nD) (t : Fin cfg0.N) (k : Fin 128) (q : Fin 128) :
    (iblk0 V c 1 t : Vec Ideal S128x128 .f32) (ix2 k q) = (V c main_arg3 : S128x128.Idx → Elt Ideal .f32) (ix2 k q) := by
  obtain ⟨-, -, e2, e3, -⟩ := idx0 t
  unfold iblk0
  rw [View.read_apply]
  show V c main_arg3 _ = V c main_arg3 _
  refine congrArg (V c main_arg3) ?_
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point t writes back is block t of input · weights: entry (p, q) of the stored block is entry
    (5000·t + p, q) of the whole product, each input block read where the output block's rows say. -/
theorem flushed0_eq (c : Dev nD) (t : Fin cfg0.N) :
    (dat0 (F := Ideal) V c).flushed 2 t
      = ((cfg0.win 2).blk t).view.read (Elt Ideal) (Cert.Spec.dense128 (F := Ideal) (V c main_arg0) (V c main_arg3)) := by
  have hN : grid0.N = 10 := N_0
  have ht : t.val < 10 := hN ▸ t.isLt
  obtain ⟨-, -, -, -, e4, e5⟩ := idx0 t
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  rw [View.read_apply]
  show k0_pay1 (iblk0 V c 0 t) (iblk0 V c 1 t) (ix2 p q)
    = Cert.Spec.dense128 (F := Ideal) (V c main_arg0) (V c main_arg3) (((cfg0.win 2).blk t).view.emb (ix2 p q))
  have hemb : ((cfg0.win 2).blk t).view.emb (ix2 p q)
      = (ix2 (⟨5000 * t.val + p.val, by omega⟩ : Fin 50000) q : S50000x128.Idx) := by
    funext a
    apply Fin.ext
    match a with
    | ⟨0, _⟩ => show win0_2.index t (0 : Fin 2) * 5000 + 1 * p.val = 5000 * t.val + p.val; rw [e4]; omega
    | ⟨1, _⟩ => show win0_2.index t (1 : Fin 2) * 128 + 1 * q.val = q.val; rw [e5]; omega
  rw [hemb]
  exact block_point0 (iblk0 V c 0 t) (iblk0 V c 1 t) (V c main_arg0) (V c main_arg3) p q ⟨5000 * t.val + p.val, by omega⟩
    (fun k => iblk0_rows V c t p k _ rfl) (fun k => iblk0_weights V c t k q)

/-- An index of the output array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- Row r of the output is in the block of point r / 5000, and every point writes back. -/
theorem cover0 (i : S50000x128.Idx) :
    ∃ t : Fin cfg0.N, (cfg0.win 2).flush t = true ∧ i ∈ ((cfg0.win 2).blk t).view.set := by
  have hN : grid0.N = 10 := N_0
  have hi0 : (i 0).val < 50000 := (i 0).isLt
  have hi1 : (i 1).val < 128 := (i 1).isLt
  have hlt : (i 0).val / 5000 < grid0.N := by rw [hN]; omega
  obtain ⟨-, -, -, -, e4, e5⟩ := idx0 ⟨(i 0).val / 5000, hlt⟩
  refine ⟨⟨(i 0).val / 5000, hlt⟩, flush0_2 _, ?_⟩
  rw [mem_blk0]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 128 ≤ (i 1).val
      ∧ (i 1).val < win0_2.index ⟨(i 0).val / 5000, hlt⟩ (1 : Fin 2) * 128 + 128
    rw [e5]; omega

/-! ## Region 2: the second layer's product

The grid has ten points.  At point t the input window holds rows 5000·t … 5000·t + 4999 of the 50000 × 128 input, the
weight window holds the whole 128 × 128 weight array, and the output window's block is rows 5000·t … 5000·t + 4999 of the
50000 × 128 output.  So what point t writes back is that block of rows of input · weights, and the ten blocks cover the
output. -/

/-- The index maps over the ten grid points: block t of each row-blocked array is block row t, block column 0; the
    weights are the one block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the input block at point t is row 5000·t + p of the input array. -/
theorem iblk2_rows (c : Dev nD) (t : Fin cfg2.N) (p : Fin 5000) (k : Fin 128) (r : Fin 50000)
    (hr : r.val = 5000 * t.val + p.val) :
    (iblk2 V c 0 t : Vec Ideal S5000x128 .f32) (ix2 p k) = (V c main_v57 : S50000x128.Idx → Elt Ideal .f32) (ix2 r k) := by
  obtain ⟨e0, e1, -⟩ := idx2 t
  unfold iblk2
  rw [View.read_apply]
  show V c main_v57 _ = V c main_v57 _
  refine congrArg (V c main_v57) ?_
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The weight block at every point is the weight array. -/
theorem iblk2_weights (c : Dev nD) (t : Fin cfg2.N) (k : Fin 128) (q : Fin 128) :
    (iblk2 V c 1 t : Vec Ideal S128x128 .f32) (ix2 k q) = (V c main_arg5 : S128x128.Idx → Elt Ideal .f32) (ix2 k q) := by
  obtain ⟨-, -, e2, e3, -⟩ := idx2 t
  unfold iblk2
  rw [View.read_apply]
  show V c main_arg5 _ = V c main_arg5 _
  refine congrArg (V c main_arg5) ?_
  funext a
  apply Fin.ext
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- What point t writes back is block t of input · weights: entry (p, q) of the stored block is entry
    (5000·t + p, q) of the whole product, each input block read where the output block's rows say. -/
theorem flushed2_eq (c : Dev nD) (t : Fin cfg2.N) :
    (dat2 (F := Ideal) V c).flushed 2 t
      = ((cfg2.win 2).blk t).view.read (Elt Ideal) (Cert.Spec.dense128 (F := Ideal) (V c main_v57) (V c main_arg5)) := by
  have hN : grid2.N = 10 := N_2
  have ht : t.val < 10 := hN ▸ t.isLt
  obtain ⟨-, -, -, -, e4, e5⟩ := idx2 t
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  rw [View.read_apply]
  show k2_pay1 (iblk2 V c 0 t) (iblk2 V c 1 t) (ix2 p q)
    = Cert.Spec.dense128 (F := Ideal) (V c main_v57) (V c main_arg5) (((cfg2.win 2).blk t).view.emb (ix2 p q))
  have hemb : ((cfg2.win 2).blk t).view.emb (ix2 p q)
      = (ix2 (⟨5000 * t.val + p.val, by omega⟩ : Fin 50000) q : S50000x128.Idx) := by
    funext a
    apply Fin.ext
    match a with
    | ⟨0, _⟩ => show win2_2.index t (0 : Fin 2) * 5000 + 1 * p.val = 5000 * t.val + p.val; rw [e4]; omega
    | ⟨1, _⟩ => show win2_2.index t (1 : Fin 2) * 128 + 1 * q.val = q.val; rw [e5]; omega
  rw [hemb]
  exact block_point2 (iblk2 V c 0 t) (iblk2 V c 1 t) (V c main_v57) (V c main_arg5) p q ⟨5000 * t.val + p.val, by omega⟩
    (fun k => iblk2_rows V c t p k _ rfl) (fun k => iblk2_weights V c t k q)

/-- An index of the output array is in point t's block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v58).slice (win2_2.rect t)).set ↔ _
  rw [View.set_slice_whole, Rect.mem_set_unit]
  exact Iff.rfl

/-- Row r of the output is in the block of point r / 5000, and every point writes back. -/
theorem cover2 (i : S50000x128.Idx) :
    ∃ t : Fin cfg2.N, (cfg2.win 2).flush t = true ∧ i ∈ ((cfg2.win 2).blk t).view.set := by
  have hN : grid2.N = 10 := N_2
  have hi0 : (i 0).val < 50000 := (i 0).isLt
  have hi1 : (i 1).val < 128 := (i 1).isLt
  have hlt : (i 0).val / 5000 < grid2.N := by rw [hN]; omega
  obtain ⟨-, -, -, -, e4, e5⟩ := idx2 ⟨(i 0).val / 5000, hlt⟩
  refine ⟨⟨(i 0).val / 5000, hlt⟩, flush2_2 _, ?_⟩
  rw [mem_blk2]
  intro a
  match a with
  | ⟨0, _⟩ =>
    show win2_2.index ⟨(i 0).val / 5000, hlt⟩ (0 : Fin 2) * 5000 ≤ (i 0).val
      ∧ (i 0).val < win2_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, hlt⟩ (1 : Fin 2) * 128 ≤ (i 1).val
      ∧ (i 1).val < win2_2.index ⟨(i 0).val / 5000, hlt⟩ (1 : Fin 2) * 128 + 128
    rw [e5]; omega

/-! ## Region 4: the third layer's product

The grid has ten points.  At point t the input window holds rows 5000·t … 5000·t + 4999 of the 50000 × 128 input, the
weight window holds the whole 128 × 64 weight array, and the output window's block is rows 5000·t … 5000·t + 4999 of the
50000 × 64 output.  So what point t writes back is that block of rows of input · weights, and the ten blocks cover the
output. -/

/-- The index maps over the ten grid points: block t of each row-blocked array is block row t, block column 0; the
    weights are the one block (0, 0). -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row p of the input block at point t is row 5000·t + p of the input array. -/
theorem iblk4_rows (c : Dev nD) (t : Fin cfg4.N) (p : Fin 5000) (k : Fin 128) (r : Fin 50000)
    (hr : r.val = 5000 * t.val + p.val) :
    (iblk4 V c 0 t : Vec Ideal S5000x128 .f32) (ix2 p k) = (V c main_v83 : S50000x128.Idx → Elt Ideal .f32) (ix2 r k) := by
  obtain ⟨e0, e1, -⟩ := idx4 t
  unfold iblk4
  rw [View.read_apply]
  show V c main_v83 _ = V c main_v83 _
  refine congrArg (V c main_v83) ?_
  funext a
  apply Fin.ext
  match a with
  | ⟨0, _⟩ => show win4_0.index t (0 : Fin 2) * 5000 + 1 * p.val = r.val; rw [e0, hr]; omega
  | ⟨1, _⟩ => show win4_0.index t (1 : Fin 2) * 128 + 1 * k.val = k.val; rw [e1]; omega

/-- The weight block at every point is the weight array. -/
theorem iblk4_weights (c : Dev nD) (t : Fin cfg4.N) (k : Fin 128) (q : Fin 64) :
    (iblk4 V c 1 t : Vec Ideal S128x64 .f32) (ix2 k q) = (V c main_arg7 : S128x64.Idx → Elt Ideal .f32) (ix2 k q) := by
  obtain ⟨-, -, e2, e3, -⟩ := idx4 t
  unfold iblk4
  rw [View.read_apply]
  show V c main_arg7 _ = V c main_arg7 _
  refine congrArg (V c main_arg7) ?_
  funext a
  apply Fin.ext
  match a with
  | ⟨0, _⟩ => show win4_1.index t (0 : Fin 2) * 128 + 1 * k.val = k.val; rw [e2]; omega
  | ⟨1, _⟩ => show win4_1.index t (1 : Fin 2) * 64 + 1 * q.val = q.val; rw [e3]; omega

/-- What point t writes back is block t of input · weights: entry (p, q) of the stored block is entry
    (5000·t + p, q) of the whole product, each input block read where the output block's rows say. -/
theorem flushed4_eq (c : Dev nD) (t : Fin cfg4.N) :
    (dat4 (F := Ideal) V c).flushed 2 t
      = ((cfg4.win 2).blk t).view.read (Elt Ideal) (Cert.Spec.dense64 (F := Ideal) (V c main_v83) (V c main_arg7)) := by
  have hN : grid4.N = 10 := N_4
  have ht : t.val < 10 := hN ▸ t.isLt
  obtain ⟨-, -, -, -, e4, e5⟩ := idx4 t
  show (cfg4.win 2).cut (grid4.coords t) ((dat4 V c).after 2 t) = _
  rw [after4_2]
  unfold out4_2
  rw [View.canon_unit_zero hz]
  simp only [View.ld_unit_zero (S := S5000x128) hz, View.ld_unit_zero (S := S128x64) hz]
  funext j
  obtain ⟨p, q, rfl⟩ : ∃ (p : Fin 5000) (q : Fin 64), j = ix2 p q := ⟨j 0, j 1, eq_ix2 j⟩
  rw [View.read_apply]
  show k4_pay1 (iblk4 V c 0 t) (iblk4 V c 1 t) (ix2 p q)
    = Cert.Spec.dense64 (F := Ideal) (V c main_v83) (V c main_arg7) (((cfg4.win 2).blk t).view.emb (ix2 p q))
  have hemb : ((cfg4.win 2).blk t).view.emb (ix2 p q)
      = (ix2 (⟨5000 * t.val + p.val, by omega⟩ : Fin 50000) q : S50000x64.Idx) := by
    funext a
    apply Fin.ext
    match a with
    | ⟨0, _⟩ => show win4_2.index t (0 : Fin 2) * 5000 + 1 * p.val = 5000 * t.val + p.val; rw [e4]; omega
    | ⟨1, _⟩ => show win4_2.index t (1 : Fin 2) * 64 + 1 * q.val = q.val; rw [e5]; omega
  rw [hemb]
  exact block_point4 (iblk4 V c 0 t) (iblk4 V c 1 t) (V c main_v83) (V c main_arg7) p q ⟨5000 * t.val + p.val, by omega⟩
    (fun k => iblk4_rows V c t p k _ rfl) (fun k => iblk4_weights V c t k q)

/-- An index of the output array is in point t's block iff each coordinate is in the block's range on its axis. -/
theorem mem_blk4 (t : Fin cfg4.N) (i : S50000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v84).slice (win4_2.rect t)).set ↔ _
  rw [View.set_slice_whole, Rect.mem_set_unit]
  exact Iff.rfl

/-- Row r of the output is in the block of point r / 5000, and every point writes back. -/
theorem cover4 (i : S50000x64.Idx) :
    ∃ t : Fin cfg4.N, (cfg4.win 2).flush t = true ∧ i ∈ ((cfg4.win 2).blk t).view.set := by
  have hN : grid4.N = 10 := N_4
  have hi0 : (i 0).val < 50000 := (i 0).isLt
  have hi1 : (i 1).val < 64 := (i 1).isLt
  have hlt : (i 0).val / 5000 < grid4.N := by rw [hN]; omega
  obtain ⟨-, -, -, -, e4, e5⟩ := idx4 ⟨(i 0).val / 5000, hlt⟩
  refine ⟨⟨(i 0).val / 5000, hlt⟩, flush4_2 _, ?_⟩
  rw [mem_blk4]
  intro a
  match a with
  | ⟨0, _⟩ =>
    show win4_2.index ⟨(i 0).val / 5000, hlt⟩ (0 : Fin 2) * 5000 ≤ (i 0).val
      ∧ (i 0).val < win4_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, hlt⟩ (1 : Fin 2) * 64 ≤ (i 1).val
      ∧ (i 1).val < win4_2.index ⟨(i 0).val / 5000, hlt⟩ (1 : Fin 2) * 64 + 64
    rw [e5]; omega

end Matmul

/-! ## The three regions' output arrays -/

variable (V : (c : Dev nD) → (b : Ref sig .tc) → Buf (Elt Ideal) ((c : Thread nD τ).loc b))

/-- The output array of region 0, as a whole array, is input · weights. -/
theorem mm0_value (c : Dev nD) :
    (dat0 (F := Ideal) V c).arrAt 2 cfg0.N = Cert.Spec.dense128 (F := Ideal) (V c main_arg0) (V c main_arg3) :=
  (dat0 (F := Ideal) V c).arrAt_eq_of_cover 2 _ (fun t _ => Matmul.flushed0_eq V c t) Matmul.cover0

/-- The output array of region 2, as a whole array, is input · weights. -/
theorem mm2_value (c : Dev nD) :
    (dat2 (F := Ideal) V c).arrAt 2 cfg2.N = Cert.Spec.dense128 (F := Ideal) (V c main_v57) (V c main_arg5) :=
  (dat2 (F := Ideal) V c).arrAt_eq_of_cover 2 _ (fun t _ => Matmul.flushed2_eq V c t) Matmul.cover2

/-- The output array of region 4, as a whole array, is input · weights. -/
theorem mm4_value (c : Dev nD) :
    (dat4 (F := Ideal) V c).arrAt 2 cfg4.N = Cert.Spec.dense64 (F := Ideal) (V c main_v83) (V c main_arg7) :=
  (dat4 (F := Ideal) V c).arrAt_eq_of_cover 2 _ (fun t _ => Matmul.flushed4_eq V c t) Matmul.cover4

end Cert.KernelIdeal.RegionValue
end
-- ==== Proof.BnLemmas.lean ====
/-
  The normalisation step, entry by entry.

  Both programs compute, at row r and column q of a [50000, 128] array h,
      max( ((h(r,q) − mu(q)) · (var(q) + ε)^(-1/2)) · g(q) + be(q) , 0 ),
  with mu, var, g, be vectors over the 128 columns and ε one fixed float literal.  The kernel body sees a block of 5000 rows of h
  and the four vectors as one-row arrays [1, 128], which it repeats down its 5000 rows; the reference repeats each vector
  down all 50000 rows.  Here each side is read at one entry, as the same expression `bnAt` of the entries it depends on:
  the reciprocal square root is one function of an extended real whether the body or the host asks for it, and a float
  literal is the extended real its word encodes, the same word on both sides, never evaluated.
-/
import proofs.«101731_j90555090469651_1_alg».proof.Proof.Gen.KernelIdeal.Skeleton
import proofs.«101731_j90555090469651_1_alg».proof.Proof.Gen.ReferenceIdeal
import proofs.«101731_j90555090469651_1_alg».proof.Proof.Spec
import Idealize.ShloMosaic.PureOps.Ideal
import Idealize.ShloMosaic.Lib.ValueLayout

noncomputable section
namespace Cert.KernelIdeal.RegionValue
open Cert.KernelIdeal Cert.KernelIdeal.Gen Idealize.ShloMosaic
open Idealize.ShloMosaic.ValueIdx

/-- One entry of the normalisation step: max( ((h − mu) · (var + ε)^(-1/2)) · g + be , 0 ), the two float literals kept as
    the extended reals their words encode. -/
def bnAt (h mu var g be : EReal) : EReal :=
  max (((h - mu) * Ideal.rsqrt (var + Ideal.ofBits .f32 0x3727C5AC#32)) * g + be) (Ideal.ofBits .f32 0x00000000#32)

/-- The body's stored value at row `p`, column `q` of its block (operands in the body's order: var, h, mean, gamma, beta):
    the entry of the block of `h` there, normalised by the one row each of the four small operands holds, read at column
    `q`.  A shape cast to the same shape is the identity, and a one-row array repeated down the rows reads its row. -/
theorem bn_pay_apply (v0 : Vec Ideal S1x128 .f32) (v5 : Vec Ideal S5000x128 .f32) (v7 v13 v17 : Vec Ideal S1x128 .f32)
    (p : Fin 5000) (q : Fin 128) :
    k1_pay1 v0 v5 v7 v13 v17 (ix2 p q)
      = bnAt (v5 (ix2 p q)) (v7 (ix2 (0 : Fin 1) q)) (v0 (ix2 (0 : Fin 1) q)) (v13 (ix2 (0 : Fin 1) q)) (v17 (ix2 (0 : Fin 1) q)) := by
  unfold k1_pay1
  simp only [shapeCast_self]
  rw [maximumf_apply, addf_apply, mulf_apply, mulf_apply, subf_apply, broadcastTo_1b_ab_apply, broadcastTo_1b_ab_apply,
    broadcastTo_1b_ab_apply, broadcastTo_1b_ab_apply]
  rfl

/-- The second normalisation body is the first one, operation for operation. -/
theorem bn_pay3_eq (v0 : Vec Ideal S1x128 .f32) (v5 : Vec Ideal S5000x128 .f32) (v7 v13 v17 : Vec Ideal S1x128 .f32) :
    k3_pay1 v0 v5 v7 v13 v17 = k1_pay1 v0 v5 v7 v13 v17 := rfl

/-- A vector over the 128 columns repeated down the 50000 rows (first laid out as one row [1, 128], then that row repeated)
    reads, at `(r, q)`, the vector at `q`. -/
theorem bn_rows128_apply (v : (⟨Cert.ReferenceIdeal.S128, .f32⟩ : BufTy).Contents (Elt Ideal)) (r : Fin 50000) (q : Fin 128) :
    Cert.Spec.rows128 (F := Ideal) v (ix2 r q) = v (ix1 q) := by
  unfold Cert.Spec.rows128
  refine (broadcastInDim_apply _ _ _ (ix2 r q) (ix2 (0 : Fin 1) q) fun a => ?_).trans
    (broadcastInDim_apply _ _ v (ix2 (0 : Fin 1) q) (ix1 q) fun a => ?_)
  · match a with
    | ⟨0, _⟩ => rfl
    | ⟨1, _⟩ => rfl
  · match a with
    | ⟨0, _⟩ => rfl

/-- The reference's normalisation step at row `r`, column `q`: the host's reciprocal square root is the body's, and the
    host's constant arrays read their constant at every index. -/
theorem bnApply_apply (h : (⟨Cert.ReferenceIdeal.S50000x128, .f32⟩ : BufTy).Contents (Elt Ideal))
    (g be mu var : (⟨Cert.ReferenceIdeal.S128, .f32⟩ : BufTy).Contents (Elt Ideal)) (r : Fin 50000) (q : Fin 128) :
    Cert.Spec.bnApply (F := Ideal) h g be mu var (ix2 r q)
      = bnAt (h (ix2 r q)) (mu (ix1 q)) (var (ix1 q)) (g (ix1 q)) (be (ix1 q)) := by
  unfold Cert.Spec.bnApply
  rw [maximumf_apply, addf_apply, mulf_apply, mulf_apply, subf_apply, bn_rows128_apply, bn_rows128_apply, bn_rows128_apply, bn_rows128_apply]
  rfl

end Cert.KernelIdeal.RegionValue
end
-- ==== Proof.BnRegion.lean ====
/-
  The two normalisation calls, as whole arrays.

  Each call runs its body at ten grid points.  At point t the body is handed rows 5000·t … 5000·t + 4999 of the array h (all 128
  columns) and, whole, the four one-row arrays [1, 128] the host made by reshaping the vectors gamma, beta, mean and variance; it
  writes back rows 5000·t … 5000·t + 4999 of the output.  So what point t writes back is block t of ONE function of the whole
  array h — the reference's normalisation step `Cert.Spec.bnApply` —: entry (p, q) of the block is that step at row
  5000·t + p, column q (`bn1_flushed`, by the entry-by-entry readings of both sides); every row r of the output lies in the
  block of point r / 5000 (`bn1_cover`); hence the output array after the call is the step of h (`bn1_value`).  The second
  call is the first over other arrays (`bn3_…`).
-/
import proofs.«101731_j90555090469651_1_alg».proof.Proof.Gen.KernelIdeal.Frame
import proofs.«101731_j90555090469651_1_alg».proof.Proof.Gen.ReferenceIdeal
import proofs.«101731_j90555090469651_1_alg».proof.Proof.Spec
import proofs.«101731_j90555090469651_1_alg».proof.Proof.BnLemmas
import Idealize.ShloMosaic.PureOps.Ideal
import Idealize.ShloMosaic.Lib.Pipeline.Value
import Idealize.ShloMosaic.Lib.ValueLayout

noncomputable section
namespace Cert.KernelIdeal.RegionValue
open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The zero offsets of a rank-2 rectangle, as the constant function. -/
theorem bn_hz : (![0, 0] : Fin 2 → Nat) = fun _ => 0 := funext fun a => by fin_cases a <;> rfl

/-! ## The first normalisation call -/

/-- The printed index maps of the first normalisation call, decided over its ten grid points: the block of `h` and the
    output block at point `t` are both block `t` along the rows and block 0 along the columns; each small operand is its
    whole array at every point. -/
theorem bn1_idx_facts : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The block of `h` at point `t` holds, at row `p` and column `q`, the array's entry at row `5000·t + p`, column `q`. -/
theorem bn1_iblk0_apply (c : Dev nD) (t : Fin cfg1.N) (p : Fin 5000) (q : Fin 128) (r : Fin 50000)
    (hr : r.val = t.val * 5000 + p.val) :
    (iblk1 V c 0 t : Vec Ideal S5000x128 .f32) (ix2 p q) = (V c main_v48 : S50000x128.Idx → EReal) (ix2 r q) := by
  obtain ⟨e0, e1, -⟩ := bn1_idx_facts t
  unfold iblk1
  rw [View.read_apply]
  show V c main_v48 _ = V c main_v48 _
  refine congrArg _ ?_
  funext a
  apply Fin.ext
  match a with
  | ⟨0, _⟩ => show win1_0.index t 0 * 5000 + 1 * p.val = r.val; rw [e0, hr]; omega
  | ⟨1, _⟩ => show win1_0.index t 1 * 128 + 1 * q.val = q.val; rw [e1]; omega

/-- A small operand's block at any point is its whole one-row array: the entry at column `q` of the block is the array's.
    Here for the scale operand. -/
theorem bn1_iblk1_apply (c : Dev nD) (t : Fin cfg1.N) (q : Fin 128) :
    (iblk1 V c 1 t : Vec Ideal S1x128 .f32) (ix2 (0 : Fin 1) q) = (V c main_v53 : S1x128.Idx → EReal) (ix2 (0 : Fin 1) q) := by
  obtain ⟨-, -, -, -, e0, e1, -⟩ := bn1_idx_facts t
  unfold iblk1
  rw [View.read_apply]
  show V c main_v53 _ = V c main_v53 _
  refine congrArg _ ?_
  funext a
  apply Fin.ext
  match a with
  | ⟨0, _⟩ => show win1_1.index t 0 * 1 + 1 * 0 = 0; rw [e0]
  | ⟨1, _⟩ => show win1_1.index t 1 * 128 + 1 * q.val = q.val; rw [e1]; omega

/-- The same for the shift operand. -/
theorem bn1_iblk2_apply (c : Dev nD) (t : Fin cfg1.N) (q : Fin 128) :
    (iblk1 V c 2 t : Vec Ideal S1x128 .f32) (ix2 (0 : Fin 1) q) = (V c main_v54 : S1x128.Idx → EReal) (ix2 (0 : Fin 1) q) := by
  obtain ⟨-, -, -, -, -, -, e0, e1, -⟩ := bn1_idx_facts t
  unfold iblk1
  rw [View.read_apply]
  show V c main_v54 _ = V c main_v54 _
  refine congrArg _ ?_
  funext a
  apply Fin.ext
  match a with
  | ⟨0, _⟩ => show win1_2.index t 0 * 1 + 1 * 0 = 0; rw [e0]
  | ⟨1, _⟩ => show win1_2.index t 1 * 128 + 1 * q.val = q.val; rw [e1]; omega

/-- The same for the mean operand. -/
theorem bn1_iblk3_apply (c : Dev nD) (t : Fin cfg1.N) (q : Fin 128) :
    (iblk1 V c 3 t : Vec Ideal S1x128 .f32) (ix2 (0 : Fin 1) q) = (V c main_v55 : S1x128.Idx → EReal) (ix2 (0 : Fin 1) q) := by
  obtain ⟨-, -, -, -, -, -, -, -, e0, e1, -⟩ := bn1_idx_facts t
  unfold iblk1
  rw [View.read_apply]
  show V c main_v55 _ = V c main_v55 _
  refine congrArg _ ?_
  funext a
  apply Fin.ext
  match a with
  | ⟨0, _⟩ => show win1_3.index t 0 * 1 + 1 * 0 = 0; rw [e0]
  | ⟨1, _⟩ => show win1_3.index t 1 * 128 + 1 * q.val = q.val; rw [e1]; omega

/-- The same for the variance operand. -/
theorem bn1_iblk4_apply (c : Dev nD) (t : Fin cfg1.N) (q : Fin 128) :
    (iblk1 V c 4 t : Vec Ideal S1x128 .f32) (ix2 (0 : Fin 1) q) = (V c main_v56 : S1x128.Idx → EReal) (ix2 (0 : Fin 1) q) := by
  obtain ⟨-, -, -, -, -, -, -, -, -, -, e0, e1⟩ := bn1_idx_facts t
  unfold iblk1
  rw [View.read_apply]
  show V c main_v56 _ = V c main_v56 _
  refine congrArg _ ?_
  funext a
  apply Fin.ext
  match a with
  | ⟨0, _⟩ => show win1_4.index t 0 * 1 + 1 * 0 = 0; rw [e0]
  | ⟨1, _⟩ => show win1_4.index t 1 * 128 + 1 * q.val = q.val; rw [e1]; omega

/-- What point `t` writes back is block `t` of the reference's normalisation step of the whole array `h`: entry `(p, q)` of
    the block is the step at row `5000·t + p`, column `q`, and both sides are the same expression of the same entries —
    the host's reshape of a vector to one row reads the vector. -/
theorem bn1_flushed (c : Dev nD) (g be mu var : (⟨Cert.ReferenceIdeal.S128, .f32⟩ : BufTy).Contents (Elt Ideal))
    (hg : V c main_v53 = shapeCast S1x128 g shapeCasts_S128_S1x128)
    (hb : V c main_v54 = shapeCast S1x128 be shapeCasts_S128_S1x128)
    (hm : V c main_v55 = shapeCast S1x128 mu shapeCasts_S128_S1x128)
    (hv : V c main_v56 = shapeCast S1x128 var shapeCasts_S128_S1x128) (t : Fin cfg1.N) :
    (dat1 (F := Ideal) V c).flushed 5 t
      = ((cfg1.win 5).blk t).view.read (Elt Ideal) (Cert.Spec.bnApply (F := Ideal) (V c main_v48) g be mu var) := by
  show (cfg1.win 5).cut (grid1.coords t) ((dat1 V c).after 5 t) = _
  rw [after1_5]
  unfold out1_5
  rw [View.canon_unit_zero bn_hz]
  simp only [View.ld_unit_zero (S := S5000x128) bn_hz, View.ld_unit_zero (S := S1x128) bn_hz]
  obtain ⟨-, -, e0, e1, -⟩ := bn1_idx_facts t
  have hN : cfg1.N = 10 := N_1
  funext j
  obtain ⟨p, q, rfl⟩ : ∃ (p : Fin 5000) (q : Fin 128), j = ix2 p q := ⟨j 0, j 1, eq_ix2 j⟩
  have hr : t.val * 5000 + p.val < 50000 := by have := t.isLt; omega
  show k1_pay1 (iblk1 V c 4 t) (iblk1 V c 0 t) (iblk1 V c 3 t) (iblk1 V c 1 t) (iblk1 V c 2 t) (ix2 p q)
    = Cert.Spec.bnApply (F := Ideal) (V c main_v48) g be mu var (((cfg1.win 5).blk t).view.emb (ix2 p q))
  have hi : ((cfg1.win 5).blk t).view.emb (ix2 p q) = ix2 (⟨t.val * 5000 + p.val, hr⟩ : Fin 50000) q := by
    funext a
    apply Fin.ext
    match a with
    | ⟨0, _⟩ => show win1_5.index t 0 * 5000 + 1 * p.val = t.val * 5000 + p.val; rw [e0]; omega
    | ⟨1, _⟩ => show win1_5.index t 1 * 128 + 1 * q.val = q.val; rw [e1]; omega
  rw [hi, bnApply_apply]
  refine (bn_pay_apply (iblk1 V c 4 t) (iblk1 V c 0 t) (iblk1 V c 3 t) (iblk1 V c 1 t) (iblk1 V c 2 t) p q).trans ?_
  rw [bn1_iblk0_apply V c t p q ⟨t.val * 5000 + p.val, hr⟩ rfl, bn1_iblk1_apply V c t q, bn1_iblk2_apply V c t q,
    bn1_iblk3_apply V c t q, bn1_iblk4_apply V c t q, hg, hb, hm, hv,
    shapeCast_a_1a_apply, shapeCast_a_1a_apply, shapeCast_a_1a_apply, shapeCast_a_1a_apply]

/-- An index of the output array is in point `t`'s block iff each coordinate is in the block's range on its axis. -/
theorem bn1_mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v57).slice (win1_5.rect t)).set ↔ _
  rw [View.set_slice_whole, Rect.mem_set_unit]
  exact Iff.rfl

/-- Every entry of the output array is written back by some point: row `r` lies in the block of point `r / 5000`. -/
theorem bn1_cover (i : S50000x128.Idx) :
    ∃ t : Fin cfg1.N, (cfg1.win 5).flush t = true ∧ i ∈ ((cfg1.win 5).blk t).view.set := by
  have hN : cfg1.N = 10 := N_1
  have hi0 : (i 0).val < 50000 := (i 0).isLt
  have hi1 : (i 1).val < 128 := (i 1).isLt
  have ht : (i 0).val / 5000 < cfg1.N := by rw [hN]; omega
  obtain ⟨-, -, e0, e1, -⟩ := bn1_idx_facts ⟨(i 0).val / 5000, ht⟩
  refine ⟨⟨(i 0).val / 5000, ht⟩, flush1_5 _, ?_⟩
  rw [bn1_mem_blk]
  intro a
  match a with
  | ⟨0, _⟩ =>
    show win1_5.index ⟨(i 0).val / 5000, ht⟩ 0 * 5000 ≤ (i 0).val
      ∧ (i 0).val < win1_5.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win1_5.index ⟨(i 0).val / 5000, ht⟩ 1 * 128 ≤ (i 1).val
      ∧ (i 1).val < win1_5.index ⟨(i 0).val / 5000, ht⟩ 1 * 128 + 128
    rw [e1]
    omega

/-- The first normalisation call leaves, in its output array, the reference's normalisation step of the array `h` it was
    given, at the column statistics and the scale and shift the host reshaped into its four one-row operands. -/
theorem bn1_value (c : Dev nD) (g be mu var : (⟨Cert.ReferenceIdeal.S128, .f32⟩ : BufTy).Contents (Elt Ideal))
    (hg : V c main_v53 = shapeCast S1x128 g shapeCasts_S128_S1x128)
    (hb : V c main_v54 = shapeCast S1x128 be shapeCasts_S128_S1x128)
    (hm : V c main_v55 = shapeCast S1x128 mu shapeCasts_S128_S1x128)
    (hv : V c main_v56 = shapeCast S1x128 var shapeCasts_S128_S1x128) :
    (dat1 (F := Ideal) V c).arrAt 5 cfg1.N = Cert.Spec.bnApply (F := Ideal) (V c main_v48) g be mu var :=
  (dat1 (F := Ideal) V c).arrAt_eq_of_cover 5 (Cert.Spec.bnApply (F := Ideal) (V c main_v48) g be mu var)
    (fun t _ => bn1_flushed V c g be mu var hg hb hm hv t) bn1_cover

/-! ## The second normalisation call: the same body over the second layer's arrays -/

/-- The printed index maps of the second normalisation call, decided over its ten grid points: the block of `h` and the
    output block at point `t` are both block `t` along the rows and block 0 along the columns; each small operand is its
    whole array at every point. -/
theorem bn3_idx_facts : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- The block of `h` at point `t` holds, at row `p` and column `q`, the array's entry at row `5000·t + p`, column `q`. -/
theorem bn3_iblk0_apply (c : Dev nD) (t : Fin cfg3.N) (p : Fin 5000) (q : Fin 128) (r : Fin 50000)
    (hr : r.val = t.val * 5000 + p.val) :
    (iblk3 V c 0 t : Vec Ideal S5000x128 .f32) (ix2 p q) = (V c main_v74 : S50000x128.Idx → EReal) (ix2 r q) := by
  obtain ⟨e0, e1, -⟩ := bn3_idx_facts t
  unfold iblk3
  rw [View.read_apply]
  show V c main_v74 _ = V c main_v74 _
  refine congrArg _ ?_
  funext a
  apply Fin.ext
  match a with
  | ⟨0, _⟩ => show win3_0.index t 0 * 5000 + 1 * p.val = r.val; rw [e0, hr]; omega
  | ⟨1, _⟩ => show win3_0.index t 1 * 128 + 1 * q.val = q.val; rw [e1]; omega

/-- A small operand's block at any point is its whole one-row array: the entry at column `q` of the block is the array's.
    Here for the scale operand. -/
theorem bn3_iblk1_apply (c : Dev nD) (t : Fin cfg3.N) (q : Fin 128) :
    (iblk3 V c 1 t : Vec Ideal S1x128 .f32) (ix2 (0 : Fin 1) q) = (V c main_v79 : S1x128.Idx → EReal) (ix2 (0 : Fin 1) q) := by
  obtain ⟨-, -, -, -, e0, e1, -⟩ := bn3_idx_facts t
  unfold iblk3
  rw [View.read_apply]
  show V c main_v79 _ = V c main_v79 _
  refine congrArg _ ?_
  funext a
  apply Fin.ext
  match a with
  | ⟨0, _⟩ => show win3_1.index t 0 * 1 + 1 * 0 = 0; rw [e0]
  | ⟨1, _⟩ => show win3_1.index t 1 * 128 + 1 * q.val = q.val; rw [e1]; omega

/-- The same for the shift operand. -/
theorem bn3_iblk2_apply (c : Dev nD) (t : Fin cfg3.N) (q : Fin 128) :
    (iblk3 V c 2 t : Vec Ideal S1x128 .f32) (ix2 (0 : Fin 1) q) = (V c main_v80 : S1x128.Idx → EReal) (ix2 (0 : Fin 1) q) := by
  obtain ⟨-, -, -, -, -, -, e0, e1, -⟩ := bn3_idx_facts t
  unfold iblk3
  rw [View.read_apply]
  show V c main_v80 _ = V c main_v80 _
  refine congrArg _ ?_
  funext a
  apply Fin.ext
  match a with
  | ⟨0, _⟩ => show win3_2.index t 0 * 1 + 1 * 0 = 0; rw [e0]
  | ⟨1, _⟩ => show win3_2.index t 1 * 128 + 1 * q.val = q.val; rw [e1]; omega

/-- The same for the mean operand. -/
theorem bn3_iblk3_apply (c : Dev nD) (t : Fin cfg3.N) (q : Fin 128) :
    (iblk3 V c 3 t : Vec Ideal S1x128 .f32) (ix2 (0 : Fin 1) q) = (V c main_v81 : S1x128.Idx → EReal) (ix2 (0 : Fin 1) q) := by
  obtain ⟨-, -, -, -, -, -, -, -, e0, e1, -⟩ := bn3_idx_facts t
  unfold iblk3
  rw [View.read_apply]
  show V c main_v81 _ = V c main_v81 _
  refine congrArg _ ?_
  funext a
  apply Fin.ext
  match a with
  | ⟨0, _⟩ => show win3_3.index t 0 * 1 + 1 * 0 = 0; rw [e0]
  | ⟨1, _⟩ => show win3_3.index t 1 * 128 + 1 * q.val = q.val; rw [e1]; omega

/-- The same for the variance operand. -/
theorem bn3_iblk4_apply (c : Dev nD) (t : Fin cfg3.N) (q : Fin 128) :
    (iblk3 V c 4 t : Vec Ideal S1x128 .f32) (ix2 (0 : Fin 1) q) = (V c main_v82 : S1x128.Idx → EReal) (ix2 (0 : Fin 1) q) := by
  obtain ⟨-, -, -, -, -, -, -, -, -, -, e0, e1⟩ := bn3_idx_facts t
  unfold iblk3
  rw [View.read_apply]
  show V c main_v82 _ = V c main_v82 _
  refine congrArg _ ?_
  funext a
  apply Fin.ext
  match a with
  | ⟨0, _⟩ => show win3_4.index t 0 * 1 + 1 * 0 = 0; rw [e0]
  | ⟨1, _⟩ => show win3_4.index t 1 * 128 + 1 * q.val = q.val; rw [e1]; omega

/-- What point `t` writes back is block `t` of the reference's normalisation step of the whole array `h`: entry `(p, q)` of
    the block is the step at row `5000·t + p`, column `q`, and both sides are the same expression of the same entries —
    the host's reshape of a vector to one row reads the vector. -/
theorem bn3_flushed (c : Dev nD) (g be mu var : (⟨Cert.ReferenceIdeal.S128, .f32⟩ : BufTy).Contents (Elt Ideal))
    (hg : V c main_v79 = shapeCast S1x128 g shapeCasts_S128_S1x128)
    (hb : V c main_v80 = shapeCast S1x128 be shapeCasts_S128_S1x128)
    (hm : V c main_v81 = shapeCast S1x128 mu shapeCasts_S128_S1x128)
    (hv : V c main_v82 = shapeCast S1x128 var shapeCasts_S128_S1x128) (t : Fin cfg3.N) :
    (dat3 (F := Ideal) V c).flushed 5 t
      = ((cfg3.win 5).blk t).view.read (Elt Ideal) (Cert.Spec.bnApply (F := Ideal) (V c main_v74) g be mu var) := by
  show (cfg3.win 5).cut (grid3.coords t) ((dat3 V c).after 5 t) = _
  rw [after3_5]
  unfold out3_5
  rw [View.canon_unit_zero bn_hz]
  simp only [View.ld_unit_zero (S := S5000x128) bn_hz, View.ld_unit_zero (S := S1x128) bn_hz]
  obtain ⟨-, -, e0, e1, -⟩ := bn3_idx_facts t
  have hN : cfg3.N = 10 := N_3
  funext j
  obtain ⟨p, q, rfl⟩ : ∃ (p : Fin 5000) (q : Fin 128), j = ix2 p q := ⟨j 0, j 1, eq_ix2 j⟩
  have hr : t.val * 5000 + p.val < 50000 := by have := t.isLt; omega
  show k3_pay1 (iblk3 V c 4 t) (iblk3 V c 0 t) (iblk3 V c 3 t) (iblk3 V c 1 t) (iblk3 V c 2 t) (ix2 p q)
    = Cert.Spec.bnApply (F := Ideal) (V c main_v74) g be mu var (((cfg3.win 5).blk t).view.emb (ix2 p q))
  have hi : ((cfg3.win 5).blk t).view.emb (ix2 p q) = ix2 (⟨t.val * 5000 + p.val, hr⟩ : Fin 50000) q := by
    funext a
    apply Fin.ext
    match a with
    | ⟨0, _⟩ => show win3_5.index t 0 * 5000 + 1 * p.val = t.val * 5000 + p.val; rw [e0]; omega
    | ⟨1, _⟩ => show win3_5.index t 1 * 128 + 1 * q.val = q.val; rw [e1]; omega
  rw [hi, bnApply_apply]
  refine ((congrFun (bn_pay3_eq (iblk3 V c 4 t) (iblk3 V c 0 t) (iblk3 V c 3 t) (iblk3 V c 1 t) (iblk3 V c 2 t)) (ix2 p q)).trans
    (bn_pay_apply (iblk3 V c 4 t) (iblk3 V c 0 t) (iblk3 V c 3 t) (iblk3 V c 1 t) (iblk3 V c 2 t) p q)).trans ?_
  rw [bn3_iblk0_apply V c t p q ⟨t.val * 5000 + p.val, hr⟩ rfl, bn3_iblk1_apply V c t q, bn3_iblk2_apply V c t q,
    bn3_iblk3_apply V c t q, bn3_iblk4_apply V c t q, hg, hb, hm, hv,
    shapeCast_a_1a_apply, shapeCast_a_1a_apply, shapeCast_a_1a_apply, shapeCast_a_1a_apply]

/-- An index of the output array is in point `t`'s block iff each coordinate is in the block's range on its axis. -/
theorem bn3_mem_blk (t : Fin cfg3.N) (i : S50000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v83).slice (win3_5.rect t)).set ↔ _
  rw [View.set_slice_whole, Rect.mem_set_unit]
  exact Iff.rfl

/-- Every entry of the output array is written back by some point: row `r` lies in the block of point `r / 5000`. -/
theorem bn3_cover (i : S50000x128.Idx) :
    ∃ t : Fin cfg3.N, (cfg3.win 5).flush t = true ∧ i ∈ ((cfg3.win 5).blk t).view.set := by
  have hN : cfg3.N = 10 := N_3
  have hi0 : (i 0).val < 50000 := (i 0).isLt
  have hi1 : (i 1).val < 128 := (i 1).isLt
  have ht : (i 0).val / 5000 < cfg3.N := by rw [hN]; omega
  obtain ⟨-, -, e0, e1, -⟩ := bn3_idx_facts ⟨(i 0).val / 5000, ht⟩
  refine ⟨⟨(i 0).val / 5000, ht⟩, flush3_5 _, ?_⟩
  rw [bn3_mem_blk]
  intro a
  match a with
  | ⟨0, _⟩ =>
    show win3_5.index ⟨(i 0).val / 5000, ht⟩ 0 * 5000 ≤ (i 0).val
      ∧ (i 0).val < win3_5.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win3_5.index ⟨(i 0).val / 5000, ht⟩ 1 * 128 ≤ (i 1).val
      ∧ (i 1).val < win3_5.index ⟨(i 0).val / 5000, ht⟩ 1 * 128 + 128
    rw [e1]
    omega

/-- The second normalisation call leaves, in its output array, the reference's normalisation step of the array `h` it was
    given, at the column statistics and the scale and shift the host reshaped into its four one-row operands. -/
theorem bn3_value (c : Dev nD) (g be mu var : (⟨Cert.ReferenceIdeal.S128, .f32⟩ : BufTy).Contents (Elt Ideal))
    (hg : V c main_v79 = shapeCast S1x128 g shapeCasts_S128_S1x128)
    (hb : V c main_v80 = shapeCast S1x128 be shapeCasts_S128_S1x128)
    (hm : V c main_v81 = shapeCast S1x128 mu shapeCasts_S128_S1x128)
    (hv : V c main_v82 = shapeCast S1x128 var shapeCasts_S128_S1x128) :
    (dat3 (F := Ideal) V c).arrAt 5 cfg3.N = Cert.Spec.bnApply (F := Ideal) (V c main_v74) g be mu var :=
  (dat3 (F := Ideal) V c).arrAt_eq_of_cover 5 (Cert.Spec.bnApply (F := Ideal) (V c main_v74) g be mu var)
    (fun t _ => bn3_flushed V c g be mu var hg hb hm hv t) bn3_cover

end Cert.KernelIdeal.RegionValue
end
-- ==== Proof.lean ====
/-
  The certificate of the three-layer graph network: the Pallas program (three dense products and two normalisation
  steps as kernels, the gather / scatter-add aggregation over the edges as host operations) against the plain reference.

  At the ideal instance both programs compute ONE function of the argument arrays, `Cert.Spec.network`: the aggregation
  over the edges, the column statistics and every other host operation are the same operations in both programs and are
  carried as they stand; a dense-product kernel's output array, written block by block (5000 rows per grid point, the
  operands cast to bf16 — the identity on extended reals — and multiplied into a zero accumulator), is the host's one
  contraction Σ_k x(r,k) · w(k,q) of the whole arrays; and a normalisation kernel's output array is, entry by entry, the
  host's max(((h − mean) · (var + ε)^(-1/2)) · γ + β, 0) with the same ε word, the same rsqrt and the same max, its four
  small operands the host's vectors reshaped to one row.  No algebraic law beyond 0 + s = s joins the two sides, so the
  precondition is not used.

  The kernel program's run is the generated chain of host stretches and regions (its last boundary's contents read at
  the result buffer); the reference's run is the straight line of its operations; the frames of the two kernel programs
  are generated whole, the reference's is its run with the result dropped; the ideal pass rewrote nothing.
-/
import proofs.«101731_j90555090469651_1_alg».proof.Defs
import proofs.«101731_j90555090469651_1_alg».proof.Proof.Gen.Kernel
import proofs.«101731_j90555090469651_1_alg».proof.Proof.Gen.Kernel.Frame
import proofs.«101731_j90555090469651_1_alg».proof.Proof.Gen.KernelIdeal
import proofs.«101731_j90555090469651_1_alg».proof.Proof.Gen.KernelIdeal.Frame
import proofs.«101731_j90555090469651_1_alg».proof.Proof.Gen.ReferenceIdeal
import proofs.«101731_j90555090469651_1_alg».proof.Proof.Gen.Pre_finite_inputs
import proofs.«101731_j90555090469651_1_alg».proof.Proof.Spec
import proofs.«101731_j90555090469651_1_alg».proof.Proof.RefRun
import proofs.«101731_j90555090469651_1_alg».proof.Proof.RefValue
import proofs.«101731_j90555090469651_1_alg».proof.Proof.KernelRun
import proofs.«101731_j90555090469651_1_alg».proof.Proof.KernelValue
import proofs.«101731_j90555090469651_1_alg».proof.Proof.MatmulRegion
import proofs.«101731_j90555090469651_1_alg».proof.Proof.BnRegion
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel program runs and leaves its arguments: generated whole. -/
theorem frame_k : Cert.frame_Kernel := fun m ρ _ => Cert.Kernel.Gen.frame m ρ

/-- The idealized kernel program runs and leaves its arguments: generated whole. -/
theorem frame_ki : Cert.frame_KernelIdeal := fun m ρ _ => Cert.KernelIdeal.Gen.frame m ρ

/-- The reference runs and leaves its arguments: its run, with no operation writing an argument array. -/
theorem frame_ri : Cert.frame_ReferenceIdeal := fun m ρ _ =>
  (θ_run Cert.ReferenceIdeal.defs _ _).mono
    (fun r h c => ⟨(h c Cert.ReferenceIdeal.main_arg0).trans (Cert.ReferenceIdeal.RefRun.keep_arg0 _),
      (h c Cert.ReferenceIdeal.main_arg1).trans (Cert.ReferenceIdeal.RefRun.keep_arg1 _),
      (h c Cert.ReferenceIdeal.main_arg2).trans (Cert.ReferenceIdeal.RefRun.keep_arg2 _),
      (h c Cert.ReferenceIdeal.main_arg3).trans (Cert.ReferenceIdeal.RefRun.keep_arg3 _),
      (h c Cert.ReferenceIdeal.main_arg4).trans (Cert.ReferenceIdeal.RefRun.keep_arg4 _),
      (h c Cert.ReferenceIdeal.main_arg5).trans (Cert.ReferenceIdeal.RefRun.keep_arg5 _),
      (h c Cert.ReferenceIdeal.main_arg6).trans (Cert.ReferenceIdeal.RefRun.keep_arg6 _),
      (h c Cert.ReferenceIdeal.main_arg7).trans (Cert.ReferenceIdeal.RefRun.keep_arg7 _),
      (h c Cert.ReferenceIdeal.main_arg8).trans (Cert.ReferenceIdeal.RefRun.keep_arg8 _),
      (h c Cert.ReferenceIdeal.main_arg9).trans (Cert.ReferenceIdeal.RefRun.keep_arg9 _),
      (h c Cert.ReferenceIdeal.main_arg10).trans (Cert.ReferenceIdeal.RefRun.keep_arg10 _),
      (h c Cert.ReferenceIdeal.main_arg11).trans (Cert.ReferenceIdeal.RefRun.keep_arg11 _),
      (h c Cert.ReferenceIdeal.main_arg12).trans (Cert.ReferenceIdeal.RefRun.keep_arg12 _)⟩)
    (Cert.ReferenceIdeal.RefRun.run_main (F := Ideal) m ρ)

/-- The ideal pass rewrote no operation. -/
theorem preserves : Cert.preserves_Kernel_KernelIdeal := trivial

/-- Both programs end with the network of the argument arrays in their result buffers. -/
theorem algebraic : Cert.algebraic_KernelIdeal_ReferenceIdeal := by
  intro m ρ m' ρ' _ hagree
  refine ⟨fun c => Cert.Spec.network (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.HostValue.out_value m ρ
          Cert.KernelIdeal.RegionValue.mm0_value Cert.KernelIdeal.RegionValue.mm2_value Cert.KernelIdeal.RegionValue.mm4_value
          Cert.KernelIdeal.RegionValue.bn1_value Cert.KernelIdeal.RegionValue.bn3_value c), (h c).2⟩)
      (Cert.KernelIdeal.RunValue.run_out (F := Ideal) m ρ)
  · refine (θ_run Cert.ReferenceIdeal.defs _ _).mono (fun r h c => ?_) (Cert.ReferenceIdeal.RefRun.run_main (F := Ideal) m' ρ')
    obtain ⟨e0, e1, e2, e3, e4, e5, e6, e7, e8, e9, e10, e11, e12⟩ := hagree c
    refine ⟨?_, (h c Cert.ReferenceIdeal.main_arg0).trans (Cert.ReferenceIdeal.RefRun.keep_arg0 _),
      (h c Cert.ReferenceIdeal.main_arg1).trans (Cert.ReferenceIdeal.RefRun.keep_arg1 _),
      (h c Cert.ReferenceIdeal.main_arg2).trans (Cert.ReferenceIdeal.RefRun.keep_arg2 _),
      (h c Cert.ReferenceIdeal.main_arg3).trans (Cert.ReferenceIdeal.RefRun.keep_arg3 _),
      (h c Cert.ReferenceIdeal.main_arg4).trans (Cert.ReferenceIdeal.RefRun.keep_arg4 _),
      (h c Cert.ReferenceIdeal.main_arg5).trans (Cert.ReferenceIdeal.RefRun.keep_arg5 _),
      (h c Cert.ReferenceIdeal.main_arg6).trans (Cert.ReferenceIdeal.RefRun.keep_arg6 _),
      (h c Cert.ReferenceIdeal.main_arg7).trans (Cert.ReferenceIdeal.RefRun.keep_arg7 _),
      (h c Cert.ReferenceIdeal.main_arg8).trans (Cert.ReferenceIdeal.RefRun.keep_arg8 _),
      (h c Cert.ReferenceIdeal.main_arg9).trans (Cert.ReferenceIdeal.RefRun.keep_arg9 _),
      (h c Cert.ReferenceIdeal.main_arg10).trans (Cert.ReferenceIdeal.RefRun.keep_arg10 _),
      (h c Cert.ReferenceIdeal.main_arg11).trans (Cert.ReferenceIdeal.RefRun.keep_arg11 _),
      (h c Cert.ReferenceIdeal.main_arg12).trans (Cert.ReferenceIdeal.RefRun.keep_arg12 _)⟩
    refine ((h c Cert.ReferenceIdeal.main_v178).trans (Cert.ReferenceIdeal.RefRun.out_eq _)).trans ?_
    have a0 : launchContents m' c (Proc.devRef .tc Cert.ReferenceIdeal.main_arg0) = m ((c.tc : Thread Cert.KernelIdeal.nD Cert.KernelIdeal.τ).loc Cert.KernelIdeal.main_arg0) := e0
    have a1 : launchContents m' c (Proc.devRef .tc Cert.ReferenceIdeal.main_arg1) = m ((c.tc : Thread Cert.KernelIdeal.nD Cert.KernelIdeal.τ).loc Cert.KernelIdeal.main_arg1) := e1
    have a2 : launchContents m' c (Proc.devRef .tc Cert.ReferenceIdeal.main_arg2) = m ((c.tc : Thread Cert.KernelIdeal.nD Cert.KernelIdeal.τ).loc Cert.KernelIdeal.main_arg2) := e2
    have a3 : launchContents m' c (Proc.devRef .tc Cert.ReferenceIdeal.main_arg3) = m ((c.tc : Thread Cert.KernelIdeal.nD Cert.KernelIdeal.τ).loc Cert.KernelIdeal.main_arg3) := e3
    have a4 : launchContents m' c (Proc.devRef .tc Cert.ReferenceIdeal.main_arg4) = m ((c.tc : Thread Cert.KernelIdeal.nD Cert.KernelIdeal.τ).loc Cert.KernelIdeal.main_arg4) := e4
    have a5 : launchContents m' c (Proc.devRef .tc Cert.ReferenceIdeal.main_arg5) = m ((c.tc : Thread Cert.KernelIdeal.nD Cert.KernelIdeal.τ).loc Cert.KernelIdeal.main_arg5) := e5
    have a6 : launchContents m' c (Proc.devRef .tc Cert.ReferenceIdeal.main_arg6) = m ((c.tc : Thread Cert.KernelIdeal.nD Cert.KernelIdeal.τ).loc Cert.KernelIdeal.main_arg6) := e6
    have a7 : launchContents m' c (Proc.devRef .tc Cert.ReferenceIdeal.main_arg7) = m ((c.tc : Thread Cert.KernelIdeal.nD Cert.KernelIdeal.τ).loc Cert.KernelIdeal.main_arg7) := e7
    have a8 : launchContents m' c (Proc.devRef .tc Cert.ReferenceIdeal.main_arg8) = m ((c.tc : Thread Cert.KernelIdeal.nD Cert.KernelIdeal.τ).loc Cert.KernelIdeal.main_arg8) := e8
    have a9 : launchContents m' c (Proc.devRef .tc Cert.ReferenceIdeal.main_arg9) = m ((c.tc : Thread Cert.KernelIdeal.nD Cert.KernelIdeal.τ).loc Cert.KernelIdeal.main_arg9) := e9
    have a10 : launchContents m' c (Proc.devRef .tc Cert.ReferenceIdeal.main_arg10) = m ((c.tc : Thread Cert.KernelIdeal.nD Cert.KernelIdeal.τ).loc Cert.KernelIdeal.main_arg10) := e10
    have a11 : launchContents m' c (Proc.devRef .tc Cert.ReferenceIdeal.main_arg11) = m ((c.tc : Thread Cert.KernelIdeal.nD Cert.KernelIdeal.τ).loc Cert.KernelIdeal.main_arg11) := e11
    have a12 : launchContents m' c (Proc.devRef .tc Cert.ReferenceIdeal.main_arg12) = m ((c.tc : Thread Cert.KernelIdeal.nD Cert.KernelIdeal.τ).loc Cert.KernelIdeal.main_arg12) := e12
    rw [a0, a1, a2, a3, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
